-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v114)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x10000 : Shape := ⟨2, ![64, 10000]⟩
abbrev S3200x10000 : Shape := ⟨2, ![3200, 10000]⟩
abbrev S3200x50 : Shape := ⟨2, ![3200, 50]⟩
abbrev S64x50 : Shape := ⟨2, ![64, 50]⟩
abbrev S64x64 : Shape := ⟨2, ![64, 64]⟩
abbrev S3200x64 : Shape := ⟨2, ![3200, 64]⟩
abbrev S500000 : Shape := ⟨1, ![500000]⟩
abbrev S_ : Shape := ⟨0, ![]⟩

class Facts : Prop where
  bcast_S_S64x10000 : S_.BroadcastsInDim S64x10000 (![] : Fin 0 → Fin S64x10000.rank)
  reducesTo_S64x10000_S_d0_1 : S64x10000.ReducesTo [0, 1] S_
  h_S_ : 0 < S_.numel
  bcast_S_S3200x10000 : S_.BroadcastsInDim S3200x10000 (![] : Fin 0 → Fin S3200x10000.rank)
  reducesTo_S3200x10000_S_d0_1 : S3200x10000.ReducesTo [0, 1] S_
  bcast_S_S3200x50 : S_.BroadcastsInDim S3200x50 (![] : Fin 0 → Fin S3200x50.rank)
  reducesTo_S3200x50_S_d0_1 : S3200x50.ReducesTo [0, 1] S_
  bcast_S_S64x50 : S_.BroadcastsInDim S64x50 (![] : Fin 0 → Fin S64x50.rank)
  reducesTo_S64x50_S_d0_1 : S64x50.ReducesTo [0, 1] S_
  bcast_S_S64x64 : S_.BroadcastsInDim S64x64 (![] : Fin 0 → Fin S64x64.rank)
  reducesTo_S64x64_S_d0_1 : S64x64.ReducesTo [0, 1] S_
  bcast_S_S3200x64 : S_.BroadcastsInDim S3200x64 (![] : Fin 0 → Fin S3200x64.rank)
  reducesTo_S3200x64_S_d0_1 : S3200x64.ReducesTo [0, 1] S_

variable [Facts]

def fn_part2 {F : FTy → Type} [FloatOps F] (main_arg7 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  main_v38

def fn_part1 {F : FTy → Type} [FloatOps F] (main_arg4 : FVec F S64x64 .f32) (main_arg5 : FVec F S3200x64 .f32) (main_arg6 : FVec F S3200x64 .f32) (main_arg7 : FVec F S64x64 .f32) (main_v13 : IVec S_ 1) (main_v16 : IVec S64x50 1) : IVec S_ 1 :=
  let main_c_5 : IVec S_ 1 := constantI S_ 1 1#1
  let main_v17 : IVec S_ 1 := (fun x v => Host.reduce IntOp.andi x v reducesTo_S64x50_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S3200x64 .f32 := Host.absf main_arg5
  let main_cst_8 : FVec F S_ .f32 := constant S_ .f32 0x7F800000#32
  let main_v25 : FVec F S3200x64 .f32 := broadcastInDim S3200x64 ![] bcast_S_S3200x64 main_cst_8
  let main_v26 : IVec S3200x64 1 := cmpf .olt main_v24 main_v25
  let main_c_9 : IVec S_ 1 := constantI S_ 1 1#1
  let main_v27 : IVec S_ 1 := (fun x v => Host.reduce IntOp.andi x v reducesTo_S3200x64_S_d0_1 h_S_) main_v26 main_c_9
  let main_v28 : IVec S_ 1 := andi main_v23 main_v27
  let main_v29 : FVec F S3200x64 .f32 := Host.absf main_arg6
  let main_cst_10 : FVec F S_ .f32 := constant S_ .f32 0x7F800000#32
  let main_v30 : FVec F S3200x64 .f32 := broadcastInDim S3200x64 ![] bcast_S_S3200x64 main_cst_10
  let main_v31 : IVec S3200x64 1 := cmpf .olt main_v29 main_v30
  let main_c_11 : IVec S_ 1 := constantI S_ 1 1#1
  let main_v32 : IVec S_ 1 := (fun x v => Host.reduce IntOp.andi x v reducesTo_S3200x64_S_d0_1 h_S_) main_v31 main_c_11
  let main_v33 : IVec S_ 1 := andi main_v28 main_v32
  fn_part2 (F := F) main_arg7 main_v33

def fn {F : FTy → Type} [FloatOps F] (main_arg0 : FVec F S64x10000 .f32) (main_arg1 : FVec F S3200x10000 .f32) (main_arg2 : FVec F S3200x50 .f32) (main_arg3 : FVec F S64x50 .f32) (main_arg4 : FVec F S64x64 .f32) (main_arg5 : FVec F S3200x64 .f32) (main_arg6 : FVec F S3200x64 .f32) (main_arg7 : FVec F S64x64 .f32) (main_arg8 : IVec S500000 32) (main_arg9 : IVec S500000 32) (main_arg10 : IVec S500000 32) : IVec S_ 1 :=
  let main_v0 : FVec F S64x10000 .f32 := Host.absf main_arg0
  let main_cst : FVec F S_ .f32 := constant S_ .f32 0x7F800000#32
  let main_v1 : FVec F S64x10000 .f32 := broadcastInDim S64x10000 ![] bcast_S_S64x10000 main_cst
  let main_v2 : IVec S64x10000 1 := cmpf .olt main_v0 main_v1
  let main_c : IVec S_ 1 := constantI S_ 1 1#1
  let main_v3 : IVec S_ 1 := (fun x v => Host.reduce IntOp.andi x v reducesTo_S64x10000_S_d0_1 h_S_) main_v2 main_c
  let main_v4 : FVec F S3200x10000 .f32 := Host.absf main_arg1
  let main_cst_0 : FVec F S_ .f32 := constant S_ .f32 0x7F800000#32
  let main_v5 : FVec F S3200x10000 .f32 := broadcastInDim S3200x10000 ![] bcast_S_S3200x10000 main_cst_0
  let main_v6 : IVec S3200x10000 1 := cmpf .olt main_v4 main_v5
  let main_c_1 : IVec S_ 1 := constantI S_ 1 1#1
  let main_v7 : IVec S_ 1 := (fun x v => Host.reduce IntOp.andi x v reducesTo_S3200x10000_S_d0_1 h_S_) main_v6 main_c_1
  let main_v8 : IVec S_ 1 := andi main_v3 main_v7
  let main_v9 : FVec F S3200x50 .f32 := Host.absf main_arg2
  let main_cst_2 : FVec F S_ .f32 := constant S_ .f32 0x7F800000#32
  let main_v10 : FVec F S3200x50 .f32 := broadcastInDim S3200x50 ![] bcast_S_S3200x50 main_cst_2
  let main_v11 : IVec S3200x50 1 := cmpf .olt main_v9 main_v10
  let main_c_3 : IVec S_ 1 := constantI S_ 1 1#1
  let main_v12 : IVec S_ 1 := (fun x v => Host.reduce IntOp.andi x v reducesTo_S3200x50_S_d0_1 h_S_) main_v11 main_c_3
  let main_v13 : IVec S_ 1 := andi main_v8 main_v12
  let main_v14 : FVec F S64x50 .f32 := Host.absf main_arg3
  let main_cst_4 : FVec F S_ .f32 := constant S_ .f32 0x7F800000#32
  let main_v15 : FVec F S64x50 .f32 := broadcastInDim S64x50 ![] bcast_S_S64x50 main_cst_4
  let main_v16 : IVec S64x50 1 := cmpf .olt main_v14 main_v15
  fn_part1 (F := F) main_arg4 main_arg5 main_arg6 main_arg7 main_v13 main_v16
-- ==== Kernel.lean ====
abbrev S64x10000 : Shape := ⟨2, ![64, 10000]⟩
abbrev S3200x10000 : Shape := ⟨2, ![3200, 10000]⟩
abbrev S3200x50 : Shape := ⟨2, ![3200, 50]⟩
abbrev S64x50 : Shape := ⟨2, ![64, 50]⟩
abbrev S64x64 : Shape := ⟨2, ![64, 64]⟩
abbrev S3200x64 : Shape := ⟨2, ![3200, 64]⟩
abbrev S500000 : Shape := ⟨1, ![500000]⟩
abbrev S50x50 : Shape := ⟨2, ![50, 50]⟩
abbrev S_ : Shape := ⟨0, ![]⟩
abbrev S50x3200 : Shape := ⟨2, ![50, 3200]⟩
abbrev S50x50x64 : Shape := ⟨3, ![50, 50, 64]⟩
abbrev S50 : Shape := ⟨1, ![50]⟩
abbrev S50x1 : Shape := ⟨2, ![50, 1]⟩
abbrev S50x2 : Shape := ⟨2, ![50, 2]⟩
abbrev S50x64 : Shape := ⟨2, ![50, 64]⟩
abbrev S10000x3200 : Shape := ⟨2, ![10000, 3200]⟩
abbrev S10000x64 : Shape := ⟨2, ![10000, 64]⟩
abbrev S10000x50x64 : Shape := ⟨3, ![10000, 50, 64]⟩
abbrev S500000x1 : Shape := ⟨2, ![500000, 1]⟩
abbrev S500000x2 : Shape := ⟨2, ![500000, 2]⟩
abbrev S500000x64 : Shape := ⟨2, ![500000, 64]⟩
abbrev S1000x64 : Shape := ⟨2, ![1000, 64]⟩
abbrev S64x3200 : Shape := ⟨2, ![64, 3200]⟩
abbrev S1000x3200 : Shape := ⟨2, ![1000, 3200]⟩

abbrev nBuf : Space → Nat
  | .hbm => 152
  | .vmem => 28
  | .smem => 0
  | _ => 0

abbrev hbmTy0_0 (i : Nat) : BufTy := match i % 128 with
  | 0 => ⟨S64x10000, .f32⟩
  | 1 => ⟨S3200x10000, .f32⟩
  | 2 => ⟨S3200x50, .f32⟩
  | 3 => ⟨S64x50, .f32⟩
  | 4 => ⟨S64x64, .f32⟩
  | 5 => ⟨S3200x64, .f32⟩
  | 6 => ⟨S3200x64, .f32⟩
  | 7 => ⟨S64x64, .f32⟩
  | 8 => ⟨S500000, .i32⟩
  | 9 => ⟨S500000, .i32⟩
  | 10 => ⟨S500000, .i32⟩
  | 11 => ⟨S50x50, .i32⟩
  | 12 => ⟨S50x50, .i32⟩
  | 13 => ⟨S_, .i32⟩
  | 14 => ⟨S50x50, .i32⟩
  | 15 => ⟨S50x50, .i32⟩
  | 16 => ⟨S50x50, .i1⟩
  | 17 => ⟨S50x50, .f32⟩
  | 18 => ⟨S50x3200, .f32⟩
  | 19 => ⟨S50x3200, .f32⟩
  | 20 => ⟨S50x50x64, .f32⟩
  | 21 => ⟨S50, .i32⟩
  | 22 => ⟨S50, .i32⟩
  | 23 => ⟨S_, .i32⟩
  | 24 => ⟨S50, .i32⟩
  | 25 => ⟨S50, .i1⟩
  | 26 => ⟨S_, .i32⟩
  | 27 => ⟨S50, .i32⟩
  | 28 => ⟨S50, .i32⟩
  | 29 => ⟨S50, .i32⟩
  | 30 => ⟨S_, .i32⟩
  | 31 => ⟨S50, .i32⟩
  | 32 => ⟨S50, .i1⟩
  | 33 => ⟨S_, .i32⟩
  | 34 => ⟨S50, .i32⟩
  | 35 => ⟨S50, .i32⟩
  | 36 => ⟨S50, .i32⟩
  | 37 => ⟨S50x1, .i32⟩
  | 38 => ⟨S50x1, .i32⟩
  | 39 => ⟨S50x2, .i32⟩
  | 40 => ⟨S50x64, .f32⟩
  | 41 => ⟨S50x64, .f32⟩
  | 42 => ⟨S50x64, .f32⟩
  | 43 => ⟨S10000x3200, .f32⟩
  | 44 => ⟨S10000x64, .f32⟩
  | 45 => ⟨S10000x50x64, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x1, .i32⟩
  | 62 => ⟨S500000x2, .i32⟩
  | 63 => ⟨S500000x64, .f32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x64, .f32⟩
  | 73 => ⟨S500000x64, .f32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S10000x64, .f32⟩
  | 83 => ⟨S10000x64, .f32⟩
  | 84 => ⟨S64x3200, .f32⟩
  | 85 => ⟨S50x3200, .f32⟩
  | 86 => ⟨S50x50x64, .f32⟩
  | 87 => ⟨S50, .i32⟩
  | 88 => ⟨S50, .i32⟩
  | 89 => ⟨S_, .i32⟩
  | 90 => ⟨S50, .i32⟩
  | 91 => ⟨S50, .i1⟩
  | 92 => ⟨S_, .i32⟩
  | 93 => ⟨S50, .i32⟩
  | 94 => ⟨S50, .i32⟩
  | 95 => ⟨S50, .i32⟩
  | 96 => ⟨S_, .i32⟩
  | 97 => ⟨S50, .i32⟩
  | 98 => ⟨S50, .i1⟩
  | 99 => ⟨S_, .i32⟩
  | 100 => ⟨S50, .i32⟩
  | 101 => ⟨S50, .i32⟩
  | 102 => ⟨S50, .i32⟩
  | 103 => ⟨S50x1, .i32⟩
  | 104 => ⟨S50x1, .i32⟩
  | 105 => ⟨S50x2, .i32⟩
  | 106 => ⟨S50x64, .f32⟩
  | 107 => ⟨S64x64, .f32⟩
  | 108 => ⟨S50x64, .f32⟩
  | 109 => ⟨S64x3200, .f32⟩
  | 110 => ⟨S64x64, .f32⟩
  | 111 => ⟨S10000x3200, .f32⟩
  | 112 => ⟨S10000x64, .f32⟩
  | 113 => ⟨S10000x50x64, .f32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S64x10000, .f32⟩

abbrev hbmTy0_1 (i : Nat) : BufTy := match i % 128 with
  | 0 => ⟨S500000x1, .i32⟩
  | 1 => ⟨S500000x1, .i32⟩
  | 2 => ⟨S500000x2, .i32⟩
  | 3 => ⟨S500000x64, .f32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000x64, .f32⟩
  | 13 => ⟨S500000x64, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S10000x64, .f32⟩
  | 23 => ⟨S10000x64, .f32⟩
  | _ => ⟨S64x10000, .f32⟩

abbrev hbmTy (i : Nat) : BufTy := match i / 128 with
  | 0 => hbmTy0_0 i
  | 1 => hbmTy0_1 i
  | _ => ⟨S64x10000, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S1000x64, .f32⟩
  | .local _ .vmem, ⟨7, _⟩ => ⟨S1000x64, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S64x3200, .f32⟩
  | .local _ .vmem, ⟨13, _⟩ => ⟨S64x64, .f32⟩
  | .local _ .vmem, ⟨14, _⟩ => ⟨S1000x3200, .f32⟩
  | .local _ .vmem, ⟨15, _⟩ => ⟨S1000x3200, .f32⟩
  | .local _ .vmem, ⟨16, _⟩ => ⟨S1000x64, .f32⟩
  | .local _ .vmem, ⟨17, _⟩ => ⟨S1000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S1000x64, .f32⟩
  | .local _ .vmem, ⟨25, _⟩ => ⟨S1000x64, .f32⟩
  | .local _ .vmem, ⟨26, _⟩ => ⟨S1000x64, .f32⟩
  | .local _ .vmem, ⟨27, _⟩ => ⟨S1000x64, .f32⟩
  | _, _ => ⟨S64x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83_0 : Ref sig .tc := ⟨.hbm, 111, rfl⟩
abbrev main_v83_1 : Ref sig .tc := ⟨.hbm, 112, rfl⟩
abbrev main_v84 : Ref sig .tc := ⟨.hbm, 113, rfl⟩
abbrev main_c_16 : Ref sig .tc := ⟨.hbm, 114, rfl⟩
abbrev main_v85 : Ref sig .tc := ⟨.hbm, 115, rfl⟩
abbrev main_v86 : Ref sig .tc := ⟨.hbm, 116, rfl⟩
abbrev main_c_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_18 : Ref sig .tc := ⟨.hbm, 121, rfl⟩
abbrev main_v90 : Ref sig .tc := ⟨.hbm, 122, rfl⟩
abbrev main_v91 : Ref sig .tc := ⟨.hbm, 123, rfl⟩
abbrev main_c_19 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_20 : Ref sig .tc := ⟨.hbm, 132, rfl⟩
abbrev main_v99 : Ref sig .tc := ⟨.hbm, 133, rfl⟩
abbrev main_v100 : Ref sig .tc := ⟨.hbm, 134, rfl⟩
abbrev main_c_21 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_22 : Ref sig .tc := ⟨.hbm, 142, rfl⟩
abbrev main_v107 : Ref sig .tc := ⟨.hbm, 143, rfl⟩
abbrev main_v108 : Ref sig .tc := ⟨.hbm, 144, rfl⟩
abbrev main_c_23 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x3200 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  bcast_S_S50x50 : S_.BroadcastsInDim S50x50 (![] : Fin 0 → Fin S50x50.rank)
  transposes_S3200x50_S50x3200_1_0 : S3200x50.Transposes [1, 0] S50x3200
  shapeCasts_S50x3200_S50x50x64 : S50x3200.ShapeCasts S50x50x64
  bcast_S_S50 : S_.BroadcastsInDim S50 (![] : Fin 0 → Fin S50.rank)
  bcast_S50_S50x1_0 : S50.BroadcastsInDim S50x1 (![0] : Fin 1 → Fin S50x1.rank)
  concatenates_S50x1_S50x1_S50x2_d1 : Shape.Concatenates [S50x1, S50x1] S50x2 1
  transposes_S64x50_S50x64_1_0 : S64x50.Transposes [1, 0] S50x64
  transposes_S3200x10000_S10000x3200_1_0 : S3200x10000.Transposes [1, 0] S10000x3200
  transposes_S64x10000_S10000x64_1_0 : S64x10000.Transposes [1, 0] S10000x64
  shapeCasts_S10000x3200_S10000x50x64 : S10000x3200.ShapeCasts S10000x50x64
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  transposes_S3200x64_S64x3200_1_0 : S3200x64.Transposes [1, 0] S64x3200
  transposes_S64x64_S64x64_1_0 : S64x64.Transposes [1, 0] S64x64
  bitsLt_bf16_f32 : FTy.bits .bf16 < FTy.bits .f32
  inb_S64x3200_S64x3200_0_0 : ∀ a, (![0, 0] : Fin 2 → Nat) a + S64x3200.size a ≤ S64x3200.size a
  h_S64x3200 : 0 < S64x3200.numel
  shapeCasts_S64x3200_S64x3200 : S64x3200.ShapeCasts S64x3200
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1000x3200_S1000x3200_0_0 : ∀ a, (![0, 0] : Fin 2 → Nat) a + S1000x3200.size a ≤ S1000x3200.size a
  h_S1000x3200 : 0 < S1000x3200.numel
  dot_S50x50_S50x3200_S50x3200_1_0_0_1_n_n_wf : DotDims.WF S50x50 S50x3200 S50x3200 [1] [0] [0] [1] [] []
  gather_S50x50x64_S50x2_S50x64_1_01_n_n_01_1_1164_wf : GatherDims.WF S50x50x64 S50x2 S50x64 [1] [0, 1] [] [0, 1] [] 1 ![1, 1, 64]
  dot_S50x50_S50x64_S50x64_1_0_0_1_n_n_wf : DotDims.WF S50x50 S50x64 S50x64 [1] [0] [0] [1] [] []
  gather_S10000x50x64_S500000x2_S500000x64_1_01_n_n_01_1_1164_wf : GatherDims.WF S10000x50x64 S500000x2 S500000x64 [1] [0, 1] [] [0, 1] [] 1 ![1, 1, 64]
  gather_S50x64_S500000x1_S500000x64_1_0_n_n_0_1_164_wf : GatherDims.WF S50x64 S500000x1 S500000x64 [1] [0] [] [0] [] 1 ![1, 64]
  scatter_S10000x64_S500000x1_S500000x64_1_0_0_1_wf : ScatterDims.WF S10000x64 S500000x1 S500000x64 [1] [0] [0] 1
  dot_S50x64_S64x3200_S50x3200_1_0_0_1_n_n_wf : DotDims.WF S50x64 S64x3200 S50x3200 [1] [0] [0] [1] [] []
  dot_S50x64_S64x64_S50x64_1_0_0_1_n_n_wf : DotDims.WF S50x64 S64x64 S50x64 [1] [0] [0] [1] [] []
  dot_S1000x64_S64x3200_S1000x3200_1_0_0_1_n_n_wf : DotDims.WF S1000x64 S64x3200 S1000x3200 [1] [0] [0] [1] [] []
  dot_S1000x64_S64x64_S1000x64_1_0_0_1_n_n_wf : DotDims.WF S1000x64 S64x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .f32 = 32 ∨ (Rect.block (s := S500000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S500000x64.size a
  hwx0_1 : ∀ i : grid0.Coords, EltTy.bits .f32 = 32 ∨ (Rect.block (s := S500000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S500000x64.size a
  hwx0_2 : ∀ i : grid0.Coords, EltTy.bits .f32 = 32 ∨ (Rect.block (s := S500000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S10000x64.size a
  hwx1_0 : ∀ i : grid1.Coords, EltTy.bits .f32 = 32 ∨ (Rect.block (s := S10000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S10000x64.size a
  hwx1_1 : ∀ i : grid1.Coords, EltTy.bits .f32 = 32 ∨ (Rect.block (s := S10000x64) S1000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S10000x64.size a
  hwx2_0 : ∀ i : grid2.Coords, EltTy.bits .f32 = 32 ∨ (Rect.block (s := S10000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x3200.size a ≤ S64x3200.size a
  hwx2_1 : ∀ i : grid2.Coords, EltTy.bits .f32 = 32 ∨ (Rect.block (s := S64x3200) S64x3200.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x3200.size a ≤ S10000x3200.size a
  hwx2_3 : ∀ i : grid2.Coords, EltTy.bits .f32 = 32 ∨ (Rect.block (s := S10000x3200) S1000x3200.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x64.size a ≤ S10000x64.size a
  hwx2_4 : ∀ i : grid2.Coords, EltTy.bits .f32 = 32 ∨ (Rect.block (s := S10000x64) S1000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S500000x64.size a
  hwx3_0 : ∀ i : grid3.Coords, EltTy.bits .f32 = 32 ∨ (Rect.block (s := S500000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S500000x64.size a
  hwx3_1 : ∀ i : grid3.Coords, EltTy.bits .f32 = 32 ∨ (Rect.block (s := S500000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S500000x64.size a
  hwx3_2 : ∀ i : grid3.Coords, EltTy.bits .f32 = 32 ∨ (Rect.block (s := S500000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S10000x64.size a
  hwx4_0 : ∀ i : grid4.Coords, EltTy.bits .f32 = 32 ∨ (Rect.block (s := S10000x64) S1000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x64.size a ≤ S10000x64.size a
  hwx4_1 : ∀ i : grid4.Coords, EltTy.bits .f32 = 32 ∨ (Rect.block (s := S10000x64) S1000x64.size (cc4_transform_1 i) (hinb4_1 i)).WholeWords (EltTy.packing .f32)

variable [Facts₀]

def dot_S50x50_S50x3200_S50x3200_1_0_0_1_n_n : DotDims S50x50 S50x3200 S50x3200 where
  lhsContracting := [1]
  rhsContracting := [0]
  lhsNonContracting := [0]
  rhsNonContracting := [1]
  lhsBatch := []
  rhsBatch := []
  wf := dot_S50x50_S50x3200_S50x3200_1_0_0_1_n_n_wf
def gather_S50x50x64_S50x2_S50x64_1_01_n_n_01_1_1164 : GatherDims S50x50x64 S50x2 S50x64 where
  offsetDims := [1]
  collapsedSliceDims := [0, 1]
  operandBatchingDims := []
  startIndicesBatchingDims := []
  startIndexMap := [0, 1]
  indexVectorDim := 1
  sliceSizes := ![1, 1, 64]
  wf := gather_S50x50x64_S50x2_S50x64_1_01_n_n_01_1_1164_wf
def dot_S50x50_S50x64_S50x64_1_0_0_1_n_n : DotDims S50x50 S50x64 S50x64 where
  lhsContracting := [1]
  rhsContracting := [0]
  lhsNonContracting := [0]
  rhsNonContracting := [1]
  lhsBatch := []
  rhsBatch := []
  wf := dot_S50x50_S50x64_S50x64_1_0_0_1_n_n_wf
def gather_S10000x50x64_S500000x2_S500000x64_1_01_n_n_01_1_1164 : GatherDims S10000x50x64 S500000x2 S500000x64 where
  offsetDims := [1]
  collapsedSliceDims := [0, 1]
  operandBatchingDims := []
  startIndicesBatchingDims := []
  startIndexMap := [0, 1]
  indexVectorDim := 1
  sliceSizes := ![1, 1, 64]
  wf := gather_S10000x50x64_S500000x2_S500000x64_1_01_n_n_01_1_1164_wf
def gather_S50x64_S500000x1_S500000x64_1_0_n_n_0_1_164 : GatherDims S50x64 S500000x1 S500000x64 where
  offsetDims := [1]
  collapsedSliceDims := [0]
  operandBatchingDims := []
  startIndicesBatchingDims := []
  startIndexMap := [0]
  indexVectorDim := 1
  sliceSizes := ![1, 64]
  wf := gather_S50x64_S500000x1_S500000x64_1_0_n_n_0_1_164_wf
def scatter_S10000x64_S500000x1_S500000x64_1_0_0_1 : ScatterDims S10000x64 S500000x1 S500000x64 where
  updateWindowDims := [1]
  insertedWindowDims := [0]
  scatterDimsToOperandDims := [0]
  indexVectorDim := 1
  wf := scatter_S10000x64_S500000x1_S500000x64_1_0_0_1_wf
def dot_S50x64_S64x3200_S50x3200_1_0_0_1_n_n : DotDims S50x64 S64x3200 S50x3200 where
  lhsContracting := [1]
  rhsContracting := [0]
  lhsNonContracting := [0]
  rhsNonContracting := [1]
  lhsBatch := []
  rhsBatch := []
  wf := dot_S50x64_S64x3200_S50x3200_1_0_0_1_n_n_wf
def dot_S50x64_S64x64_S50x64_1_0_0_1_n_n : DotDims S50x64 S64x64 S50x64 where
  lhsContracting := [1]
  rhsContracting := [0]
  lhsNonContracting := [0]
  rhsNonContracting := [1]
  lhsBatch := []
  rhsBatch := []
  wf := dot_S50x64_S64x64_S50x64_1_0_0_1_n_n_wf
def dot_S1000x64_S64x3200_S1000x3200_1_0_0_1_n_n : DotDims S1000x64 S64x3200 S1000x3200 where
  lhsContracting := [1]
  rhsContracting := [0]
  lhsNonContracting := [0]
  rhsNonContracting := [1]
  lhsBatch := []
  rhsBatch := []
  wf := dot_S1000x64_S64x3200_S1000x3200_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf

abbrev win0_0 : Pipeline.Window sig grid0 :=
  Pipeline.Window.ofSpec (Memref.whole main_v43) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v59) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S64x3200.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v82) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v83_0) S1000x3200.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v83_1) S1000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v98) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v105) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v106) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v113) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v114) S1000x64.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S64x10000 : Shape := ⟨2, ![64, 10000]⟩
abbrev S3200x10000 : Shape := ⟨2, ![3200, 10000]⟩
abbrev S3200x50 : Shape := ⟨2, ![3200, 50]⟩
abbrev S64x50 : Shape := ⟨2, ![64, 50]⟩
abbrev S64x64 : Shape := ⟨2, ![64, 64]⟩
abbrev S3200x64 : Shape := ⟨2, ![3200, 64]⟩
abbrev S500000 : Shape := ⟨1, ![500000]⟩
abbrev S10000x10000 : Shape := ⟨2, ![10000, 10000]⟩
abbrev S_ : Shape := ⟨0, ![]⟩
abbrev S50x50 : Shape := ⟨2, ![50, 50]⟩
abbrev S10000x3200 : Shape := ⟨2, ![10000, 3200]⟩
abbrev S10000x50x64 : Shape := ⟨3, ![10000, 50, 64]⟩
abbrev S50x3200 : Shape := ⟨2, ![50, 3200]⟩
abbrev S50x50x64 : Shape := ⟨3, ![50, 50, 64]⟩
abbrev S50 : Shape := ⟨1, ![50]⟩
abbrev S50x1 : Shape := ⟨2, ![50, 1]⟩
abbrev S50x2 : Shape := ⟨2, ![50, 2]⟩
abbrev S50x64 : Shape := ⟨2, ![50, 64]⟩
abbrev S500000x1 : Shape := ⟨2, ![500000, 1]⟩
abbrev S500000x2 : Shape := ⟨2, ![500000, 2]⟩
abbrev S500000x64 : Shape := ⟨2, ![500000, 64]⟩
abbrev S10000x64 : Shape := ⟨2, ![10000, 64]⟩
abbrev S64x3200 : Shape := ⟨2, ![64, 3200]⟩

abbrev nBuf : Space → Nat
  | .hbm => 175
  | .vmem => 0
  | .smem => 0
  | _ => 0

abbrev hbmTy0_0 (i : Nat) : BufTy := match i % 128 with
  | 0 => ⟨S64x10000, .f32⟩
  | 1 => ⟨S3200x10000, .f32⟩
  | 2 => ⟨S3200x50, .f32⟩
  | 3 => ⟨S64x50, .f32⟩
  | 4 => ⟨S64x64, .f32⟩
  | 5 => ⟨S3200x64, .f32⟩
  | 6 => ⟨S3200x64, .f32⟩
  | 7 => ⟨S64x64, .f32⟩
  | 8 => ⟨S500000, .i32⟩
  | 9 => ⟨S500000, .i32⟩
  | 10 => ⟨S500000, .i32⟩
  | 11 => ⟨S10000x10000, .i32⟩
  | 12 => ⟨S10000x10000, .i32⟩
  | 13 => ⟨S_, .i32⟩
  | 14 => ⟨S10000x10000, .i32⟩
  | 15 => ⟨S10000x10000, .i32⟩
  | 16 => ⟨S10000x10000, .i1⟩
  | 17 => ⟨S10000x10000, .f32⟩
  | 18 => ⟨S50x50, .i32⟩
  | 19 => ⟨S50x50, .i32⟩
  | 20 => ⟨S_, .i32⟩
  | 21 => ⟨S50x50, .i32⟩
  | 22 => ⟨S50x50, .i32⟩
  | 23 => ⟨S50x50, .i1⟩
  | 24 => ⟨S50x50, .f32⟩
  | 25 => ⟨S10000x3200, .f32⟩
  | 26 => ⟨S10000x3200, .f32⟩
  | 27 => ⟨S10000x50x64, .f32⟩
  | 28 => ⟨S50x3200, .f32⟩
  | 29 => ⟨S50x3200, .f32⟩
  | 30 => ⟨S50x50x64, .f32⟩
  | 31 => ⟨S50, .i32⟩
  | 32 => ⟨S50, .i32⟩
  | 33 => ⟨S_, .i32⟩
  | 34 => ⟨S50, .i32⟩
  | 35 => ⟨S50, .i1⟩
  | 36 => ⟨S_, .i32⟩
  | 37 => ⟨S50, .i32⟩
  | 38 => ⟨S50, .i32⟩
  | 39 => ⟨S50, .i32⟩
  | 40 => ⟨S_, .i32⟩
  | 41 => ⟨S50, .i32⟩
  | 42 => ⟨S50, .i1⟩
  | 43 => ⟨S_, .i32⟩
  | 44 => ⟨S50, .i32⟩
  | 45 => ⟨S50, .i32⟩
  | 46 => ⟨S50, .i32⟩
  | 47 => ⟨S50x1, .i32⟩
  | 48 => ⟨S50x1, .i32⟩
  | 49 => ⟨S50x2, .i32⟩
  | 50 => ⟨S50x64, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x1, .i32⟩
  | 67 => ⟨S500000x2, .i32⟩
  | 68 => ⟨S500000x64, .f32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x64, .f32⟩
  | 78 => ⟨S500000x64, .f32⟩
  | 79 => ⟨S10000x64, .f32⟩
  | 80 => ⟨S10000x64, .f32⟩
  | 81 => ⟨S_, .i32⟩
  | 82 => ⟨S500000, .i32⟩
  | 83 => ⟨S500000, .i1⟩
  | 84 => ⟨S_, .i32⟩
  | 85 => ⟨S500000, .i32⟩
  | 86 => ⟨S500000, .i32⟩
  | 87 => ⟨S500000, .i32⟩
  | 88 => ⟨S500000x1, .i32⟩
  | 89 => ⟨S10000x64, .f32⟩
  | 90 => ⟨S_, .f32⟩
  | 91 => ⟨S_, .f32⟩
  | 92 => ⟨S10000x64, .f32⟩
  | 93 => ⟨S10000x64, .i1⟩
  | 94 => ⟨S_, .f32⟩
  | 95 => ⟨S10000x64, .f32⟩
  | 96 => ⟨S10000x64, .f32⟩
  | 97 => ⟨S10000x64, .f32⟩
  | 98 => ⟨S50x64, .f32⟩
  | 99 => ⟨S50x64, .f32⟩
  | 100 => ⟨S64x3200, .f32⟩
  | 101 => ⟨S10000x3200, .f32⟩
  | 102 => ⟨S10000x50x64, .f32⟩
  | 103 => ⟨S64x3200, .f32⟩
  | 104 => ⟨S50x3200, .f32⟩
  | 105 => ⟨S50x50x64, .f32⟩
  | 106 => ⟨S50, .i32⟩
  | 107 => ⟨S50, .i32⟩
  | 108 => ⟨S_, .i32⟩
  | 109 => ⟨S50, .i32⟩
  | 110 => ⟨S50, .i1⟩
  | 111 => ⟨S_, .i32⟩
  | 112 => ⟨S50, .i32⟩
  | 113 => ⟨S50, .i32⟩
  | 114 => ⟨S50, .i32⟩
  | 115 => ⟨S_, .i32⟩
  | 116 => ⟨S50, .i32⟩
  | 117 => ⟨S50, .i1⟩
  | 118 => ⟨S_, .i32⟩
  | 119 => ⟨S50, .i32⟩
  | 120 => ⟨S50, .i32⟩
  | 121 => ⟨S50, .i32⟩
  | 122 => ⟨S50x1, .i32⟩
  | 123 => ⟨S50x1, .i32⟩
  | 124 => ⟨S50x2, .i32⟩
  | 125 => ⟨S50x64, .f32⟩
  | 126 => ⟨S_, .i32⟩
  | 127 => ⟨S500000, .i32⟩
  | _ => ⟨S64x10000, .f32⟩

abbrev hbmTy0_1 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x1, .i32⟩
  | 14 => ⟨S500000x2, .i32⟩
  | 15 => ⟨S500000x64, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x64, .f32⟩
  | 25 => ⟨S500000x64, .f32⟩
  | 26 => ⟨S64x64, .f32⟩
  | 27 => ⟨S10000x64, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S10000x64, .f32⟩
  | 37 => ⟨S_, .f32⟩
  | 38 => ⟨S_, .f32⟩
  | 39 => ⟨S10000x64, .f32⟩
  | 40 => ⟨S10000x64, .i1⟩
  | 41 => ⟨S_, .f32⟩
  | 42 => ⟨S10000x64, .f32⟩
  | 43 => ⟨S10000x64, .f32⟩
  | 44 => ⟨S10000x64, .f32⟩
  | 45 => ⟨S64x64, .f32⟩
  | 46 => ⟨S50x64, .f32⟩
  | _ => ⟨S64x10000, .f32⟩

abbrev hbmTy (i : Nat) : BufTy := match i / 128 with
  | 0 => hbmTy0_0 i
  | 1 => hbmTy0_1 i
  | _ => ⟨S64x10000, .f32⟩

abbrev bufTy : (tb : Table) → Fin (tcTables nBuf tb) → BufTy
  | .hbm, ⟨i, _⟩ => hbmTy i
  | _, _ => ⟨S64x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst : Ref sig .tc := ⟨.hbm, 90, rfl⟩
abbrev main_call0_cst : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_13 : Ref sig .tc := ⟨.hbm, 108, rfl⟩
abbrev main_v76 : Ref sig .tc := ⟨.hbm, 109, rfl⟩
abbrev main_v77 : Ref sig .tc := ⟨.hbm, 110, rfl⟩
abbrev main_c_14 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_15 : Ref sig .tc := ⟨.hbm, 115, rfl⟩
abbrev main_v81 : Ref sig .tc := ⟨.hbm, 116, rfl⟩
abbrev main_v82 : Ref sig .tc := ⟨.hbm, 117, rfl⟩
abbrev main_c_16 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_17 : Ref sig .tc := ⟨.hbm, 126, rfl⟩
abbrev main_v90 : Ref sig .tc := ⟨.hbm, 127, rfl⟩
abbrev main_v91 : Ref sig .tc := ⟨.hbm, 128, rfl⟩
abbrev main_c_18 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_19 : Ref sig .tc := ⟨.hbm, 133, rfl⟩
abbrev main_v95 : Ref sig .tc := ⟨.hbm, 134, rfl⟩
abbrev main_v96 : Ref sig .tc := ⟨.hbm, 135, rfl⟩
abbrev main_c_20 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_21 : Ref sig .tc := ⟨.hbm, 144, rfl⟩
abbrev main_v104 : Ref sig .tc := ⟨.hbm, 145, rfl⟩
abbrev main_v105 : Ref sig .tc := ⟨.hbm, 146, rfl⟩
abbrev main_c_22 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_c_23 : Ref sig .tc := ⟨.hbm, 156, rfl⟩
abbrev main_v114 : Ref sig .tc := ⟨.hbm, 157, rfl⟩
abbrev main_v115 : Ref sig .tc := ⟨.hbm, 158, rfl⟩
abbrev main_c_24 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_25 : Ref sig .tc := ⟨.hbm, 165, rfl⟩
abbrev main_call1_cst : Ref sig .tc := ⟨.hbm, 166, rfl⟩
abbrev main_call1_v0 : Ref sig .tc := ⟨.hbm, 167, rfl⟩
abbrev main_call1_v1 : Ref sig .tc := ⟨.hbm, 168, rfl⟩
abbrev main_call1_v2 : Ref sig .tc := ⟨.hbm, 169, rfl⟩
abbrev main_call1_v3 : Ref sig .tc := ⟨.hbm, 170, rfl⟩
abbrev main_call1_v4 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  bcast_S_S50x50 : S_.BroadcastsInDim S50x50 (![] : Fin 0 → Fin S50x50.rank)
  transposes_S3200x10000_S10000x3200_1_0 : S3200x10000.Transposes [1, 0] S10000x3200
  shapeCasts_S10000x3200_S10000x50x64 : S10000x3200.ShapeCasts S10000x50x64
  transposes_S3200x50_S50x3200_1_0 : S3200x50.Transposes [1, 0] S50x3200
  shapeCasts_S50x3200_S50x50x64 : S50x3200.ShapeCasts S50x50x64
  bcast_S_S50 : S_.BroadcastsInDim S50 (![] : Fin 0 → Fin S50.rank)
  bcast_S50_S50x1_0 : S50.BroadcastsInDim S50x1 (![0] : Fin 1 → Fin S50x1.rank)
  concatenates_S50x1_S50x1_S50x2_d1 : Shape.Concatenates [S50x1, S50x1] S50x2 1
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  transposes_S64x10000_S10000x64_1_0 : S64x10000.Transposes [1, 0] S10000x64
  bcast_S_S10000x64 : S_.BroadcastsInDim S10000x64 (![] : Fin 0 → Fin S10000x64.rank)
  transposes_S64x50_S50x64_1_0 : S64x50.Transposes [1, 0] S50x64
  transposes_S3200x64_S64x3200_1_0 : S3200x64.Transposes [1, 0] S64x3200
  transposes_S64x64_S64x64_1_0 : S64x64.Transposes [1, 0] S64x64
  dot_S10000x10000_S10000x3200_S10000x3200_1_0_0_1_n_n_wf : DotDims.WF S10000x10000 S10000x3200 S10000x3200 [1] [0] [0] [1] [] []
  dot_S50x50_S50x3200_S50x3200_1_0_0_1_n_n_wf : DotDims.WF S50x50 S50x3200 S50x3200 [1] [0] [0] [1] [] []
  gather_S50x50x64_S50x2_S50x64_1_01_n_n_01_1_1164_wf : GatherDims.WF S50x50x64 S50x2 S50x64 [1] [0, 1] [] [0, 1] [] 1 ![1, 1, 64]
  gather_S10000x50x64_S500000x2_S500000x64_1_01_n_n_01_1_1164_wf : GatherDims.WF S10000x50x64 S500000x2 S500000x64 [1] [0, 1] [] [0, 1] [] 1 ![1, 1, 64]
  gather_S50x64_S500000x1_S500000x64_1_0_n_n_0_1_164_wf : GatherDims.WF S50x64 S500000x1 S500000x64 [1] [0] [] [0] [] 1 ![1, 64]
  dot_S10000x10000_S10000x64_S10000x64_1_0_0_1_n_n_wf : DotDims.WF S10000x10000 S10000x64 S10000x64 [1] [0] [0] [1] [] []
  scatter_S10000x64_S500000x1_S500000x64_1_0_0_1_wf : ScatterDims.WF S10000x64 S500000x1 S500000x64 [1] [0] [0] 1
  dot_S50x50_S50x64_S50x64_1_0_0_1_n_n_wf : DotDims.WF S50x50 S50x64 S50x64 [1] [0] [0] [1] [] []
  dot_S10000x64_S64x3200_S10000x3200_1_0_0_1_n_n_wf : DotDims.WF S10000x64 S64x3200 S10000x3200 [1] [0] [0] [1] [] []
  dot_S50x64_S64x3200_S50x3200_1_0_0_1_n_n_wf : DotDims.WF S50x64 S64x3200 S50x3200 [1] [0] [0] [1] [] []
  dot_S10000x64_S64x64_S10000x64_1_0_0_1_n_n_wf : DotDims.WF S10000x64 S64x64 S10000x64 [1] [0] [0] [1] [] []
  dot_S50x64_S64x64_S50x64_1_0_0_1_n_n_wf : DotDims.WF S50x64 S64x64 S50x64 [1] [0] [0] [1] [] []

variable [Facts₀]

def dot_S10000x10000_S10000x3200_S10000x3200_1_0_0_1_n_n : DotDims S10000x10000 S10000x3200 S10000x3200 where
  lhsContracting := [1]
  rhsContracting := [0]
  lhsNonContracting := [0]
  rhsNonContracting := [1]
  lhsBatch := []
  rhsBatch := []
  wf := dot_S10000x10000_S10000x3200_S10000x3200_1_0_0_1_n_n_wf
def dot_S50x50_S50x3200_S50x3200_1_0_0_1_n_n : DotDims S50x50 S50x3200 S50x3200 where
  lhsContracting := [1]
  rhsContracting := [0]
  lhsNonContracting := [0]
  rhsNonContracting := [1]
  lhsBatch := []
  rhsBatch := []
  wf := dot_S50x50_S50x3200_S50x3200_1_0_0_1_n_n_wf
def gather_S50x50x64_S50x2_S50x64_1_01_n_n_01_1_1164 : GatherDims S50x50x64 S50x2 S50x64 where
  offsetDims := [1]
  collapsedSliceDims := [0, 1]
  operandBatchingDims := []
  startIndicesBatchingDims := []
  startIndexMap := [0, 1]
  indexVectorDim := 1
  sliceSizes := ![1, 1, 64]
  wf := gather_S50x50x64_S50x2_S50x64_1_01_n_n_01_1_1164_wf
def gather_S10000x50x64_S500000x2_S500000x64_1_01_n_n_01_1_1164 : GatherDims S10000x50x64 S500000x2 S500000x64 where
  offsetDims := [1]
  collapsedSliceDims := [0, 1]
  operandBatchingDims := []
  startIndicesBatchingDims := []
  startIndexMap := [0, 1]
  indexVectorDim := 1
  sliceSizes := ![1, 1, 64]
  wf := gather_S10000x50x64_S500000x2_S500000x64_1_01_n_n_01_1_1164_wf
def gather_S50x64_S500000x1_S500000x64_1_0_n_n_0_1_164 : GatherDims S50x64 S500000x1 S500000x64 where
  offsetDims := [1]
  collapsedSliceDims := [0]
  operandBatchingDims := []
  startIndicesBatchingDims := []
  startIndexMap := [0]
  indexVectorDim := 1
  sliceSizes := ![1, 64]
  wf := gather_S50x64_S500000x1_S500000x64_1_0_n_n_0_1_164_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def scatter_S10000x64_S500000x1_S500000x64_1_0_0_1 : ScatterDims S10000x64 S500000x1 S500000x64 where
  updateWindowDims := [1]
  insertedWindowDims := [0]
  scatterDimsToOperandDims := [0]
  indexVectorDim := 1
  wf := scatter_S10000x64_S500000x1_S500000x64_1_0_0_1_wf
def dot_S50x50_S50x64_S50x64_1_0_0_1_n_n : DotDims S50x50 S50x64 S50x64 where
  lhsContracting := [1]
  rhsContracting := [0]
  lhsNonContracting := [0]
  rhsNonContracting := [1]
  lhsBatch := []
  rhsBatch := []
  wf := dot_S50x50_S50x64_S50x64_1_0_0_1_n_n_wf
def dot_S10000x64_S64x3200_S10000x3200_1_0_0_1_n_n : DotDims S10000x64 S64x3200 S10000x3200 where
  lhsContracting := [1]
  rhsContracting := [0]
  lhsNonContracting := [0]
  rhsNonContracting := [1]
  lhsBatch := []
  rhsBatch := []
  wf := dot_S10000x64_S64x3200_S10000x3200_1_0_0_1_n_n_wf
def dot_S50x64_S64x3200_S50x3200_1_0_0_1_n_n : DotDims S50x64 S64x3200 S50x3200 where
  lhsContracting := [1]
  rhsContracting := [0]
  lhsNonContracting := [0]
  rhsNonContracting := [1]
  lhsBatch := []
  rhsBatch := []
  wf := dot_S50x64_S64x3200_S50x3200_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S50x64_S64x64_S50x64_1_0_0_1_n_n : DotDims S50x64 S64x64 S50x64 where
  lhsContracting := [1]
  rhsContracting := [0]
  lhsNonContracting := [0]
  rhsNonContracting := [1]
  lhsBatch := []
  rhsBatch := []
  wf := dot_S50x64_S64x64_S50x64_1_0_0_1_n_n_wf

class Facts : Prop extends Facts₀ where

variable [Facts]
-- ==== Proof.KerRun.lean ====
/-
  The idealized kernel program's run with its two results named.

  The program is ten segments: five stretches of host operations and five kernel regions in turn.  The
  contents of every buffer at each segment boundary is a fold from the launch memory (`Gen.W0` … `Gen.W10`:
  a stretch applies its operations, a region replaces its arrays by what its write-backs leave).  Every
  weakly fair execution terminates with every unscoped buffer at the last boundary's contents `Gen.W10`;
  here that is read at the two result buffers as well as at the eleven arguments.
-/
import proofs.«115934_j80315888435553_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the first result buffer then holds
    the last boundary's contents at it, so does the second, and the arguments are as launched. -/
theorem run_vals : θ_run defs (onTc (τ := τ) (main (F := F))) ⟨m, fun _ => 0, ρ⟩ (fun r => ∀ c : Dev nD,
      r.2.mem ((c.tc : Thread nD τ).loc main_v114) = W10 m ρ c (Proc.devRef .tc main_v114)
      ∧ r.2.mem ((c.tc : Thread nD τ).loc main_v80) = W10 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v114 (by decide)),
       h c _ (mem_uc main_v80 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Run

end
-- ==== Proof.Spec.lean ====
/-
  The two programs' common mathematics, stated once over whole arrays.

  One message-passing layer over entity embeddings E (10000 rows) and relation embeddings R (50 rows):
    proj  = E · Wmeᵀ            (10000 × 3200, read as 10000 × 50 × 64)
    diag  = the rows (q, q, ·) of (R · Wmrᵀ read as 50 × 50 × 64)          (50 × 64)
    msg_j = proj[h_j, r_j, ·] + diag[r_j, ·]                                (500000 × 64)
    upd   = (E · Wresᵀ) with msg_j added into row t_j                        (10000 × 64)
    E'    = upd where upd ≥ 0, and 0.01 · upd elsewhere;   R' = R · Wprᵀ
  The network is two such layers, the first from the identity matrices.  Negative indices are
  wrapped once (x < 0 ↦ x + n) before they are used, as jnp does.

  Every definition below is the corresponding stretch of host operations, in the order and the
  spelling the reference program prints them, so that a fold of those operations is one of these
  functions of its operands by unfolding alone.  The side conditions are the reference's.
-/
import proofs.«115934_j80315888435553_1_alg».proof.ReferenceIdeal
import proofs.«115934_j80315888435553_1_alg».proof.Proof.Gen.ReferenceIdeal
import Idealize.ShloMosaic.PureOps.Ideal

noncomputable section

namespace Cert.Spec

open Idealize.ShloMosaic Idealize.SL.Sem Cert.ReferenceIdeal
open Cert.ReferenceIdeal.Facts₀ Cert.ReferenceIdeal.Facts

variable {F : FTy → Type} [FloatOps F]

/-- A buffer's contents: an array of the shape `S` with elements of type `e`. -/
abbrev Arr (F : FTy → Type) [FloatOps F] (S : Shape) (e : EltTy) : Type := (⟨S, e⟩ : BufTy).Contents (Elt F)

/-! ## The identity matrices -/

/-- The 10000 × 10000 identity: 1 where the row number equals the column number. -/
def eyeEnt : Arr F S10000x10000 .f32 :=
  uitofp .f32 (cmpi .eq (addi (iotaInDim S10000x10000 32 0)
    (broadcastInDim S10000x10000 ![] bcast_S_S10000x10000 (constantI S_ 32 0#32))) (iotaInDim S10000x10000 32 1))

/-- The 50 × 50 identity. -/
def eyeRel : Arr F S50x50 .f32 :=
  uitofp .f32 (cmpi .eq (addi (iotaInDim S50x50 32 0)
    (broadcastInDim S50x50 ![] bcast_S_S50x50 (constantI S_ 32 0#32))) (iotaInDim S50x50 32 1))

/-! ## Index tables -/

/-- A triplet index column with negative entries wrapped once: `x < 0 ↦ x + n`. -/
def wrap (n : BitVec 32) (x : Arr F S500000 .i32) : Arr F S500000 .i32 :=
  select (cmpi .slt x (broadcastInDim S500000 ![] bcast_S_S500000 (constantI S_ 32 0#32)))
    (addi x (broadcastInDim S500000 ![] bcast_S_S500000 (constantI S_ 32 n))) x

/-- A wrapped index column as a 500000 × 1 table. -/
def idxCol (n : BitVec 32) (x : Arr F S500000 .i32) : Arr F S500000x1 .i32 :=
  broadcastInDim S500000x1 ![0] bcast_S500000_S500000x1_0 (wrap (F := F) n x)

/-- The (head, relation) pairs as a 500000 × 2 table. -/
def idxHR (h r : Arr F S500000 .i32) : Arr F S500000x2 .i32 :=
  concatenate S500000x2 1 [⟨S500000x1, idxCol (F := F) 10000#32 h⟩, ⟨S500000x1, idxCol (F := F) 50#32 r⟩]
    concatenates_S500000x1_S500000x1_S500000x2_d1

/-- The relation numbers 0 … 49, wrapped as every index is. -/
def wrap50 : Arr F S50 .i32 :=
  select (cmpi .slt (iotaInDim S50 32 0) (broadcastInDim S50 ![] bcast_S_S50 (constantI S_ 32 0#32)))
    (addi (iotaInDim S50 32 0) (broadcastInDim S50 ![] bcast_S_S50 (constantI S_ 32 50#32))) (iotaInDim S50 32 0)

/-- The pairs (q, q), q = 0 … 49: the diagonal of a 50 × 50 × 64 array. -/
def idxDiag : Arr F S50x2 .i32 :=
  concatenate S50x2 1 [⟨S50x1, broadcastInDim S50x1 ![0] bcast_S50_S50x1_0 (wrap50 (F := F))⟩,
      ⟨S50x1, broadcastInDim S50x1 ![0] bcast_S50_S50x1_0 (wrap50 (F := F))⟩]
    concatenates_S50x1_S50x1_S50x2_d1

/-! ## One layer's pieces -/

/-- The diagonal rows of a relation-side projection `P` (50 × 3200 read as 50 × 50 × 64). -/
def diagOf (P : Arr F S50x3200 .f32) : Arr F S50x64 .f32 :=
  Host.gather gather_S50x50x64_S50x2_S50x64_1_01_n_n_01_1_1164
    (shapeCast S50x50x64 P shapeCasts_S50x3200_S50x50x64) (idxDiag (F := F))

/-- The entity-side messages: row `(h_j, r_j)` of the projection (10000 × 3200 read as 10000 × 50 × 64). -/
def gatherProj (P : Arr F S10000x3200 .f32) (h r : Arr F S500000 .i32) : Arr F S500000x64 .f32 :=
  Host.gather gather_S10000x50x64_S500000x2_S500000x64_1_01_n_n_01_1_1164
    (shapeCast S10000x50x64 P shapeCasts_S10000x3200_S10000x50x64) (idxHR (F := F) h r)

/-- The relation-side messages: row `r_j` of the diagonal. -/
def gatherDiag (D : Arr F S50x64 .f32) (r : Arr F S500000 .i32) : Arr F S500000x64 .f32 :=
  Host.gather gather_S50x64_S500000x1_S500000x64_1_0_n_n_0_1_164 D (idxCol (F := F) 50#32 r)

/-- The messages added into their tail rows. -/
def scatterTails (base : Arr F S10000x64 .f32) (t : Arr F S500000 .i32) (msg : Arr F S500000x64 .f32) :
    Arr F S10000x64 .f32 :=
  Host.scatterAdd scatter_S10000x64_S500000x1_S500000x64_1_0_0_1 base (idxCol (F := F) 10000#32 t) msg

/-- The activation as the reference spells it: `x` where `x ≥ 0`, `0.01 · x` elsewhere. -/
def leaky (x : Arr F S10000x64 .f32) : Arr F S10000x64 .f32 :=
  select (cmpf .oge x (broadcastInDim S10000x64 ![] bcast_S_S10000x64 (constant S_ .f32 0x00000000#32))) x
    (mulf (broadcastInDim S10000x64 ![] bcast_S_S10000x64 (id (constant S_ .f32 0x3C23D70A#32))) x)

/-- The activation as the kernel spells it: `x` where `x > 0`, `0.01 · x` elsewhere. -/
def leakyK (x : Arr F S10000x64 .f32) : Arr F S10000x64 .f32 :=
  select (cmpf .ogt x (broadcast S10000x64 (Scalar.ofBits .f32 0x00000000#32))) x
    (mulf (broadcast S10000x64 (Scalar.ofBits .f32 0x3C23D70A#32)) x)

/-- A layer's entity output from its projection, its residual base and the relation diagonal; `add` and `act`
    are the sum and the activation (the host's on one side, the kernel regions' on the other). -/
def layerOut (add : Arr F S500000x64 .f32 → Arr F S500000x64 .f32 → Arr F S500000x64 .f32)
    (act : Arr F S10000x64 .f32 → Arr F S10000x64 .f32)
    (proj : Arr F S10000x3200 .f32) (base : Arr F S10000x64 .f32) (D : Arr F S50x64 .f32)
    (h r t : Arr F S500000 .i32) : Arr F S10000x64 .f32 :=
  act (scatterTails (F := F) base t (add (gatherProj (F := F) proj h r) (gatherDiag (F := F) D r)))

/-! ## The transposed weights -/

def tWres0 (w : Arr F S64x10000 .f32) : Arr F S10000x64 .f32 := transpose S10000x64 [1, 0] w transposes_S64x10000_S10000x64_1_0
def tWme0 (w : Arr F S3200x10000 .f32) : Arr F S10000x3200 .f32 := transpose S10000x3200 [1, 0] w transposes_S3200x10000_S10000x3200_1_0
def tWmr0 (w : Arr F S3200x50 .f32) : Arr F S50x3200 .f32 := transpose S50x3200 [1, 0] w transposes_S3200x50_S50x3200_1_0
def tWpr0 (w : Arr F S64x50 .f32) : Arr F S50x64 .f32 := transpose S50x64 [1, 0] w transposes_S64x50_S50x64_1_0
def tW64 (w : Arr F S64x64 .f32) : Arr F S64x64 .f32 := transpose S64x64 [1, 0] w transposes_S64x64_S64x64_1_0
def tW3200 (w : Arr F S3200x64 .f32) : Arr F S64x3200 .f32 := transpose S64x3200 [1, 0] w transposes_S3200x64_S64x3200_1_0

/-! ## The relation side (the same host operations in both programs) -/

/-- Layer 0's relation diagonal: the identity times `Wmr0ᵀ`, its diagonal rows. -/
def diag0 (a2 : Arr F S3200x50 .f32) : Arr F S50x64 .f32 :=
  diagOf (F := F) (Host.dotGeneral dot_S50x50_S50x3200_S50x3200_1_0_0_1_n_n none (eyeRel (F := F)) (tWmr0 (F := F) a2))

/-- The relation embeddings after layer 0: the identity times `Wpr0ᵀ`. -/
def rel1 (a3 : Arr F S64x50 .f32) : Arr F S50x64 .f32 :=
  Host.dotGeneral dot_S50x50_S50x64_S50x64_1_0_0_1_n_n none (eyeRel (F := F)) (tWpr0 (F := F) a3)

/-- Layer 1's relation diagonal. -/
def diag1 (a3 : Arr F S64x50 .f32) (a6 : Arr F S3200x64 .f32) : Arr F S50x64 .f32 :=
  diagOf (F := F) (Host.dotGeneral dot_S50x64_S64x3200_S50x3200_1_0_0_1_n_n none (rel1 (F := F) a3) (tW3200 (F := F) a6))

/-- The second result: the relation embeddings after layer 1. -/
def relOut (a3 : Arr F S64x50 .f32) (a7 : Arr F S64x64 .f32) : Arr F S50x64 .f32 :=
  Host.dotGeneral dot_S50x64_S64x64_S50x64_1_0_0_1_n_n none (rel1 (F := F) a3) (tW64 (F := F) a7)

/-! ## The reference's entity side -/

/-- The entity embeddings after layer 0, as the reference computes them (products with the identity matrix). -/
def refEnt1 (a0 : Arr F S64x10000 .f32) (a1 : Arr F S3200x10000 .f32) (a2 : Arr F S3200x50 .f32)
    (h r t : Arr F S500000 .i32) : Arr F S10000x64 .f32 :=
  layerOut (F := F) addf (leaky (F := F))
    (Host.dotGeneral dot_S10000x10000_S10000x3200_S10000x3200_1_0_0_1_n_n none (eyeEnt (F := F)) (tWme0 (F := F) a1))
    (Host.dotGeneral dot_S10000x10000_S10000x64_S10000x64_1_0_0_1_n_n none (eyeEnt (F := F)) (tWres0 (F := F) a0))
    (diag0 (F := F) a2) h r t

/-- A layer-1 entity output from the layer-0 embeddings `e`, with the two products as host matrix products. -/
def ent2Of (add : Arr F S500000x64 .f32 → Arr F S500000x64 .f32 → Arr F S500000x64 .f32)
    (act : Arr F S10000x64 .f32 → Arr F S10000x64 .f32) (e : Arr F S10000x64 .f32)
    (a3 : Arr F S64x50 .f32) (a4 : Arr F S64x64 .f32) (a5 a6 : Arr F S3200x64 .f32)
    (h r t : Arr F S500000 .i32) : Arr F S10000x64 .f32 :=
  layerOut (F := F) add act
    (Host.dotGeneral dot_S10000x64_S64x3200_S10000x3200_1_0_0_1_n_n none e (tW3200 (F := F) a5))
    (Host.dotGeneral dot_S10000x64_S64x64_S10000x64_1_0_0_1_n_n none e (tW64 (F := F) a4))
    (diag1 (F := F) a3 a6) h r t

/-- The first result as the reference computes it. -/
def refOut (a0 : Arr F S64x10000 .f32) (a1 : Arr F S3200x10000 .f32) (a2 : Arr F S3200x50 .f32)
    (a3 : Arr F S64x50 .f32) (a4 : Arr F S64x64 .f32) (a5 a6 : Arr F S3200x64 .f32)
    (h r t : Arr F S500000 .i32) : Arr F S10000x64 .f32 :=
  ent2Of (F := F) addf (leaky (F := F)) (refEnt1 (F := F) a0 a1 a2 h r t) a3 a4 a5 a6 h r t

/-! ## The kernel's entity side -/

/-- The entity embeddings after layer 0, as the kernel computes them (the transposed weights themselves). -/
def kerEnt1 (a0 : Arr F S64x10000 .f32) (a1 : Arr F S3200x10000 .f32) (a2 : Arr F S3200x50 .f32)
    (h r t : Arr F S500000 .i32) : Arr F S10000x64 .f32 :=
  layerOut (F := F) addf (leakyK (F := F)) (tWme0 (F := F) a1) (tWres0 (F := F) a0) (diag0 (F := F) a2) h r t

/-- The first result as the kernel computes it. -/
def kerOut (a0 : Arr F S64x10000 .f32) (a1 : Arr F S3200x10000 .f32) (a2 : Arr F S3200x50 .f32)
    (a3 : Arr F S64x50 .f32) (a4 : Arr F S64x64 .f32) (a5 a6 : Arr F S3200x64 .f32)
    (h r t : Arr F S500000 .i32) : Arr F S10000x64 .f32 :=
  ent2Of (F := F) addf (leakyK (F := F)) (kerEnt1 (F := F) a0 a1 a2 h r t) a3 a4 a5 a6 h r t

end Cert.Spec

end
-- ==== Proof.KerHost0.lean ====
/-
  The first stretch of host operations of the idealized kernel program (everything before the first
  region), read at the buffers the later segments use, for ANY contents `V` of the buffers at its start:
  the entity-side and relation-side message tables of layer 0, the transposed residual weights, the
  relation embeddings after layer 0; and the arguments it leaves alone.
-/
import proofs.«115934_j80315888435553_1_alg».proof.Proof.Gen.KernelIdeal.Launch
import proofs.«115934_j80315888435553_1_alg».proof.Proof.Spec
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-- The entity-side messages of layer 0: rows `(h_j, r_j)` of `Wme0ᵀ` read as 10000 × 50 × 64. -/
theorem s0_v43 (V : Valuation τ sig (Elt F)) :
    after hostOps0 V (main_v43 : DevRef τ sig)
      = Cert.Spec.gatherProj (F := F) (Cert.Spec.tWme0 (F := F) (V (main_arg1 : DevRef τ sig)))
          (V (main_arg8 : DevRef τ sig)) (V (main_arg9 : DevRef τ sig)) := by
  after_results_simp
  rfl

/-- The relation-side messages of layer 0: rows `r_j` of the diagonal of the identity times `Wmr0ᵀ`. -/
theorem s0_v50 (V : Valuation τ sig (Elt F)) :
    after hostOps0 V (main_v50 : DevRef τ sig)
      = Cert.Spec.gatherDiag (F := F) (Cert.Spec.diag0 (F := F) (V (main_arg2 : DevRef τ sig))) (V (main_arg9 : DevRef τ sig)) := by
  after_results_simp
  rfl

/-- The residual base of layer 0: `Wres0ᵀ` itself. -/
theorem s0_v28 (V : Valuation τ sig (Elt F)) :
    after hostOps0 V (main_v28 : DevRef τ sig) = Cert.Spec.tWres0 (F := F) (V (main_arg0 : DevRef τ sig)) := by
  after_results_simp
  rfl

/-- The relation embeddings after layer 0: the identity times `Wpr0ᵀ`. -/
theorem s0_v26 (V : Valuation τ sig (Elt F)) :
    after hostOps0 V (main_v26 : DevRef τ sig) = Cert.Spec.rel1 (F := F) (V (main_arg3 : DevRef τ sig)) := by
  after_results_simp
  rfl

/-! The arguments the later segments read are not written here. -/

theorem s0_arg4 (V : Valuation τ sig (Elt F)) : after hostOps0 V (main_arg4 : DevRef τ sig) = V (main_arg4 : DevRef τ sig) := by
  after_results_simp
theorem s0_arg5 (V : Valuation τ sig (Elt F)) : after hostOps0 V (main_arg5 : DevRef τ sig) = V (main_arg5 : DevRef τ sig) := by
  after_results_simp
theorem s0_arg6 (V : Valuation τ sig (Elt F)) : after hostOps0 V (main_arg6 : DevRef τ sig) = V (main_arg6 : DevRef τ sig) := by
  after_results_simp
theorem s0_arg7 (V : Valuation τ sig (Elt F)) : after hostOps0 V (main_arg7 : DevRef τ sig) = V (main_arg7 : DevRef τ sig) := by
  after_results_simp
theorem s0_arg8 (V : Valuation τ sig (Elt F)) : after hostOps0 V (main_arg8 : DevRef τ sig) = V (main_arg8 : DevRef τ sig) := by
  after_results_simp
theorem s0_arg9 (V : Valuation τ sig (Elt F)) : after hostOps0 V (main_arg9 : DevRef τ sig) = V (main_arg9 : DevRef τ sig) := by
  after_results_simp
theorem s0_arg10 (V : Valuation τ sig (Elt F)) : after hostOps0 V (main_arg10 : DevRef τ sig) = V (main_arg10 : DevRef τ sig) := by
  after_results_simp

end Cert.KernelIdeal.Stretch

end
-- ==== Proof.KerHost14.lean ====
/-
  The second to fifth stretches of host operations of the idealized kernel program (between and after
  the regions), each read at the buffers the later segments use, for ANY contents `V` of the buffers at
  its start: the two scatter-adds into the tail rows, layer 1's relation side and transposed weights, layer
  1's two message tables; and the buffers each stretch leaves alone.
-/
import proofs.«115934_j80315888435553_1_alg».proof.Proof.Gen.KernelIdeal.Launch
import proofs.«115934_j80315888435553_1_alg».proof.Proof.Spec
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-! ## Between the first add and the first activation -/

/-- Layer 0's messages added into their tail rows of the residual base. -/
theorem s1_v58 (V : Valuation τ sig (Elt F)) :
    after hostOps1 V (main_v58 : DevRef τ sig)
      = Cert.Spec.scatterTails (F := F) (V (main_v28 : DevRef τ sig)) (V (main_arg10 : DevRef τ sig)) (V (main_v51 : DevRef τ sig)) := by
  after_results_simp
  rfl

theorem s1_v26 (V : Valuation τ sig (Elt F)) : after hostOps1 V (main_v26 : DevRef τ sig) = V (main_v26 : DevRef τ sig) := by
  after_results_simp
theorem s1_arg4 (V : Valuation τ sig (Elt F)) : after hostOps1 V (main_arg4 : DevRef τ sig) = V (main_arg4 : DevRef τ sig) := by
  after_results_simp
theorem s1_arg5 (V : Valuation τ sig (Elt F)) : after hostOps1 V (main_arg5 : DevRef τ sig) = V (main_arg5 : DevRef τ sig) := by
  after_results_simp
theorem s1_arg6 (V : Valuation τ sig (Elt F)) : after hostOps1 V (main_arg6 : DevRef τ sig) = V (main_arg6 : DevRef τ sig) := by
  after_results_simp
theorem s1_arg7 (V : Valuation τ sig (Elt F)) : after hostOps1 V (main_arg7 : DevRef τ sig) = V (main_arg7 : DevRef τ sig) := by
  after_results_simp
theorem s1_arg8 (V : Valuation τ sig (Elt F)) : after hostOps1 V (main_arg8 : DevRef τ sig) = V (main_arg8 : DevRef τ sig) := by
  after_results_simp
theorem s1_arg9 (V : Valuation τ sig (Elt F)) : after hostOps1 V (main_arg9 : DevRef τ sig) = V (main_arg9 : DevRef τ sig) := by
  after_results_simp
theorem s1_arg10 (V : Valuation τ sig (Elt F)) : after hostOps1 V (main_arg10 : DevRef τ sig) = V (main_arg10 : DevRef τ sig) := by
  after_results_simp

/-! ## Between the first activation and the matrix products -/

/-- Layer 1's relation diagonal, from the relation embeddings after layer 0. -/
theorem s2_v78 (V : Valuation τ sig (Elt F)) :
    after hostOps2 V (main_v78 : DevRef τ sig)
      = Cert.Spec.diagOf (F := F) (Host.dotGeneral Cert.ReferenceIdeal.dot_S50x64_S64x3200_S50x3200_1_0_0_1_n_n none
          (V (main_v26 : DevRef τ sig)) (Cert.Spec.tW3200 (F := F) (V (main_arg6 : DevRef τ sig)))) := by
  after_results_simp
  rfl

/-- The relation embeddings after layer 1. -/
theorem s2_v80 (V : Valuation τ sig (Elt F)) :
    after hostOps2 V (main_v80 : DevRef τ sig)
      = Host.dotGeneral Cert.ReferenceIdeal.dot_S50x64_S64x64_S50x64_1_0_0_1_n_n none
          (V (main_v26 : DevRef τ sig)) (Cert.Spec.tW64 (F := F) (V (main_arg7 : DevRef τ sig))) := by
  after_results_simp
  rfl

/-- `Wme1ᵀ`. -/
theorem s2_v81 (V : Valuation τ sig (Elt F)) :
    after hostOps2 V (main_v81 : DevRef τ sig) = Cert.Spec.tW3200 (F := F) (V (main_arg5 : DevRef τ sig)) := by
  after_results_simp
  rfl

/-- `Wres1ᵀ`. -/
theorem s2_v82 (V : Valuation τ sig (Elt F)) :
    after hostOps2 V (main_v82 : DevRef τ sig) = Cert.Spec.tW64 (F := F) (V (main_arg4 : DevRef τ sig)) := by
  after_results_simp
  rfl

theorem s2_v59 (V : Valuation τ sig (Elt F)) : after hostOps2 V (main_v59 : DevRef τ sig) = V (main_v59 : DevRef τ sig) := by
  after_results_simp
theorem s2_arg8 (V : Valuation τ sig (Elt F)) : after hostOps2 V (main_arg8 : DevRef τ sig) = V (main_arg8 : DevRef τ sig) := by
  after_results_simp
theorem s2_arg9 (V : Valuation τ sig (Elt F)) : after hostOps2 V (main_arg9 : DevRef τ sig) = V (main_arg9 : DevRef τ sig) := by
  after_results_simp
theorem s2_arg10 (V : Valuation τ sig (Elt F)) : after hostOps2 V (main_arg10 : DevRef τ sig) = V (main_arg10 : DevRef τ sig) := by
  after_results_simp

/-! ## Between the matrix products and the second add -/

/-- Layer 1's entity-side messages: rows `(h_j, r_j)` of the projection read as 10000 × 50 × 64. -/
theorem s3_v98 (V : Valuation τ sig (Elt F)) :
    after hostOps3 V (main_v98 : DevRef τ sig)
      = Cert.Spec.gatherProj (F := F) (V (main_v83_0 : DevRef τ sig)) (V (main_arg8 : DevRef τ sig)) (V (main_arg9 : DevRef τ sig)) := by
  after_results_simp
  rfl

/-- Layer 1's relation-side messages. -/
theorem s3_v105 (V : Valuation τ sig (Elt F)) :
    after hostOps3 V (main_v105 : DevRef τ sig)
      = Cert.Spec.gatherDiag (F := F) (V (main_v78 : DevRef τ sig)) (V (main_arg9 : DevRef τ sig)) := by
  after_results_simp
  rfl

theorem s3_v83_1 (V : Valuation τ sig (Elt F)) : after hostOps3 V (main_v83_1 : DevRef τ sig) = V (main_v83_1 : DevRef τ sig) := by
  after_results_simp
theorem s3_v80 (V : Valuation τ sig (Elt F)) : after hostOps3 V (main_v80 : DevRef τ sig) = V (main_v80 : DevRef τ sig) := by
  after_results_simp
theorem s3_arg10 (V : Valuation τ sig (Elt F)) : after hostOps3 V (main_arg10 : DevRef τ sig) = V (main_arg10 : DevRef τ sig) := by
  after_results_simp

/-! ## Between the second add and the second activation -/

/-- Layer 1's messages added into their tail rows of the residual base. -/
theorem s4_v113 (V : Valuation τ sig (Elt F)) :
    after hostOps4 V (main_v113 : DevRef τ sig)
      = Cert.Spec.scatterTails (F := F) (V (main_v83_1 : DevRef τ sig)) (V (main_arg10 : DevRef τ sig)) (V (main_v106 : DevRef τ sig)) := by
  after_results_simp
  rfl

theorem s4_v80 (V : Valuation τ sig (Elt F)) : after hostOps4 V (main_v80 : DevRef τ sig) = V (main_v80 : DevRef τ sig) := by
  after_results_simp

end Cert.KernelIdeal.Stretch

end
-- ==== Proof.KerChain.lean ====
/-
  The idealized kernel program's two results as functions of its arguments.

  The contents of the buffers at the ten segment boundaries (`Gen.W0` … `Gen.W10`) are followed from
  the launch to the return: a stretch of host operations is read by the stretch lemmas, a region leaves every
  buffer that is not one of its arrays as it found it, and each region's output array is given by a
  hypothesis (the two sums `hadd0`, `hadd3`; the two activations `hact1`, `hact4`; the two matrix products
  `hproj`, `hbase`), which the regions' value lemmas discharge.  Composed, the first result is
  `Cert.Spec.kerOut` of the arguments and the second `Cert.Spec.relOut`.
-/
import proofs.«115934_j80315888435553_1_alg».proof.Proof.Gen.KernelIdeal.Frame
import proofs.«115934_j80315888435553_1_alg».proof.Proof.KerHost0
import proofs.«115934_j80315888435553_1_alg».proof.Proof.KerHost14

set_option maxRecDepth 16384

noncomputable section

namespace Cert.KernelIdeal.Chain

open Cert.KernelIdeal Cert.KernelIdeal.Gen Cert.KernelIdeal.Stretch
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## The arguments at the boundaries where they are read -/

theorem w2_arg10 : W2 m ρ c (main_arg10 : DevRef τ sig) = m ((c : Thread nD τ).loc main_arg10) :=
  (W2_of_ne m ρ c main_arg10 (by decide)).trans (s0_arg10 (W0 m ρ c))

theorem w4_arg4 : W4 m ρ c (main_arg4 : DevRef τ sig) = m ((c : Thread nD τ).loc main_arg4) :=
  (W4_of_ne m ρ c main_arg4 (by decide)).trans ((s1_arg4 (W2 m ρ c)).trans
    ((W2_of_ne m ρ c main_arg4 (by decide)).trans (s0_arg4 (W0 m ρ c))))
theorem w4_arg5 : W4 m ρ c (main_arg5 : DevRef τ sig) = m ((c : Thread nD τ).loc main_arg5) :=
  (W4_of_ne m ρ c main_arg5 (by decide)).trans ((s1_arg5 (W2 m ρ c)).trans
    ((W2_of_ne m ρ c main_arg5 (by decide)).trans (s0_arg5 (W0 m ρ c))))
theorem w4_arg6 : W4 m ρ c (main_arg6 : DevRef τ sig) = m ((c : Thread nD τ).loc main_arg6) :=
  (W4_of_ne m ρ c main_arg6 (by decide)).trans ((s1_arg6 (W2 m ρ c)).trans
    ((W2_of_ne m ρ c main_arg6 (by decide)).trans (s0_arg6 (W0 m ρ c))))
theorem w4_arg7 : W4 m ρ c (main_arg7 : DevRef τ sig) = m ((c : Thread nD τ).loc main_arg7) :=
  (W4_of_ne m ρ c main_arg7 (by decide)).trans ((s1_arg7 (W2 m ρ c)).trans
    ((W2_of_ne m ρ c main_arg7 (by decide)).trans (s0_arg7 (W0 m ρ c))))

theorem w4_arg8 : W4 m ρ c (main_arg8 : DevRef τ sig) = m ((c : Thread nD τ).loc main_arg8) :=
  (W4_of_ne m ρ c main_arg8 (by decide)).trans ((s1_arg8 (W2 m ρ c)).trans
    ((W2_of_ne m ρ c main_arg8 (by decide)).trans (s0_arg8 (W0 m ρ c))))
theorem w4_arg9 : W4 m ρ c (main_arg9 : DevRef τ sig) = m ((c : Thread nD τ).loc main_arg9) :=
  (W4_of_ne m ρ c main_arg9 (by decide)).trans ((s1_arg9 (W2 m ρ c)).trans
    ((W2_of_ne m ρ c main_arg9 (by decide)).trans (s0_arg9 (W0 m ρ c))))
theorem w4_arg10 : W4 m ρ c (main_arg10 : DevRef τ sig) = m ((c : Thread nD τ).loc main_arg10) :=
  (W4_of_ne m ρ c main_arg10 (by decide)).trans ((s1_arg10 (W2 m ρ c)).trans (w2_arg10 m ρ c))

theorem w6_arg8 : W6 m ρ c (main_arg8 : DevRef τ sig) = m ((c : Thread nD τ).loc main_arg8) :=
  (W6_of_ne m ρ c main_arg8 (by decide)).trans ((s2_arg8 (W4 m ρ c)).trans (w4_arg8 m ρ c))
theorem w6_arg9 : W6 m ρ c (main_arg9 : DevRef τ sig) = m ((c : Thread nD τ).loc main_arg9) :=
  (W6_of_ne m ρ c main_arg9 (by decide)).trans ((s2_arg9 (W4 m ρ c)).trans (w4_arg9 m ρ c))
theorem w6_arg10 : W6 m ρ c (main_arg10 : DevRef τ sig) = m ((c : Thread nD τ).loc main_arg10) :=
  (W6_of_ne m ρ c main_arg10 (by decide)).trans ((s2_arg10 (W4 m ρ c)).trans (w4_arg10 m ρ c))
theorem w8_arg10 : W8 m ρ c (main_arg10 : DevRef τ sig) = m ((c : Thread nD τ).loc main_arg10) :=
  (W8_of_ne m ρ c main_arg10 (by decide)).trans ((s3_arg10 (W6 m ρ c)).trans (w6_arg10 m ρ c))

/-! ## Layer 0 -/

/-- The relation embeddings after layer 0, still in place when layer 1's relation side reads them. -/
theorem w4_v26 : W4 m ρ c (main_v26 : DevRef τ sig) = Cert.Spec.rel1 (F := F) (m ((c : Thread nD τ).loc main_arg3)) :=
  (W4_of_ne m ρ c main_v26 (by decide)).trans ((s1_v26 (W2 m ρ c)).trans
    ((W2_of_ne m ρ c main_v26 (by decide)).trans (s0_v26 (W0 m ρ c))))

/-- The entity embeddings after layer 0: the first activation's output. -/
theorem w4_v59
    (hadd0 : W2 m ρ c (main_v51 : DevRef τ sig) = addf (W1 m ρ c (main_v43 : DevRef τ sig)) (W1 m ρ c (main_v50 : DevRef τ sig)))
    (hact1 : W4 m ρ c (main_v59 : DevRef τ sig) = Cert.Spec.leakyK (F := F) (W3 m ρ c (main_v58 : DevRef τ sig))) :
    W4 m ρ c (main_v59 : DevRef τ sig)
      = Cert.Spec.kerEnt1 (F := F) (m ((c : Thread nD τ).loc main_arg0)) (m ((c : Thread nD τ).loc main_arg1))
          (m ((c : Thread nD τ).loc main_arg2)) (m ((c : Thread nD τ).loc main_arg8)) (m ((c : Thread nD τ).loc main_arg9))
          (m ((c : Thread nD τ).loc main_arg10)) := by
  have e58 : W3 m ρ c (main_v58 : DevRef τ sig)
      = Cert.Spec.scatterTails (F := F) (W2 m ρ c (main_v28 : DevRef τ sig)) (W2 m ρ c (main_arg10 : DevRef τ sig))
          (W2 m ρ c (main_v51 : DevRef τ sig)) := s1_v58 (W2 m ρ c)
  have e28 : W2 m ρ c (main_v28 : DevRef τ sig) = Cert.Spec.tWres0 (F := F) (m ((c : Thread nD τ).loc main_arg0)) :=
    (W2_of_ne m ρ c main_v28 (by decide)).trans (s0_v28 (W0 m ρ c))
  have e43 : W1 m ρ c (main_v43 : DevRef τ sig)
      = Cert.Spec.gatherProj (F := F) (Cert.Spec.tWme0 (F := F) (m ((c : Thread nD τ).loc main_arg1)))
          (m ((c : Thread nD τ).loc main_arg8)) (m ((c : Thread nD τ).loc main_arg9)) := s0_v43 (W0 m ρ c)
  have e50 : W1 m ρ c (main_v50 : DevRef τ sig)
      = Cert.Spec.gatherDiag (F := F) (Cert.Spec.diag0 (F := F) (m ((c : Thread nD τ).loc main_arg2)))
          (m ((c : Thread nD τ).loc main_arg9)) := s0_v50 (W0 m ρ c)
  rw [hact1, e58, e28, w2_arg10 m ρ c, hadd0, e43, e50]
  rfl

/-! ## Layer 1 -/

/-- The first result: the second activation's output. -/
theorem out1
    (hadd0 : W2 m ρ c (main_v51 : DevRef τ sig) = addf (W1 m ρ c (main_v43 : DevRef τ sig)) (W1 m ρ c (main_v50 : DevRef τ sig)))
    (hact1 : W4 m ρ c (main_v59 : DevRef τ sig) = Cert.Spec.leakyK (F := F) (W3 m ρ c (main_v58 : DevRef τ sig)))
    (hproj : W6 m ρ c (main_v83_0 : DevRef τ sig)
      = Host.dotGeneral Cert.ReferenceIdeal.dot_S10000x64_S64x3200_S10000x3200_1_0_0_1_n_n none
          (W5 m ρ c (main_v59 : DevRef τ sig)) (W5 m ρ c (main_v81 : DevRef τ sig)))
    (hbase : W6 m ρ c (main_v83_1 : DevRef τ sig)
      = Host.dotGeneral Cert.ReferenceIdeal.dot_S10000x64_S64x64_S10000x64_1_0_0_1_n_n none
          (W5 m ρ c (main_v59 : DevRef τ sig)) (W5 m ρ c (main_v82 : DevRef τ sig)))
    (hadd3 : W8 m ρ c (main_v106 : DevRef τ sig) = addf (W7 m ρ c (main_v98 : DevRef τ sig)) (W7 m ρ c (main_v105 : DevRef τ sig)))
    (hact4 : W10 m ρ c (main_v114 : DevRef τ sig) = Cert.Spec.leakyK (F := F) (W9 m ρ c (main_v113 : DevRef τ sig))) :
    W10 m ρ c (main_v114 : DevRef τ sig)
      = Cert.Spec.kerOut (F := F) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg8))
          (m ((c : Thread nD τ).loc main_arg9)) (m ((c : Thread nD τ).loc main_arg10)) := by
  have e113 : W9 m ρ c (main_v113 : DevRef τ sig)
      = Cert.Spec.scatterTails (F := F) (W8 m ρ c (main_v83_1 : DevRef τ sig)) (W8 m ρ c (main_arg10 : DevRef τ sig))
          (W8 m ρ c (main_v106 : DevRef τ sig)) := s4_v113 (W8 m ρ c)
  have e831 : W8 m ρ c (main_v83_1 : DevRef τ sig) = W6 m ρ c (main_v83_1 : DevRef τ sig) :=
    (W8_of_ne m ρ c main_v83_1 (by decide)).trans (s3_v83_1 (W6 m ρ c))
  have e98 : W7 m ρ c (main_v98 : DevRef τ sig)
      = Cert.Spec.gatherProj (F := F) (W6 m ρ c (main_v83_0 : DevRef τ sig)) (W6 m ρ c (main_arg8 : DevRef τ sig))
          (W6 m ρ c (main_arg9 : DevRef τ sig)) := s3_v98 (W6 m ρ c)
  have e105 : W7 m ρ c (main_v105 : DevRef τ sig)
      = Cert.Spec.gatherDiag (F := F) (W6 m ρ c (main_v78 : DevRef τ sig)) (W6 m ρ c (main_arg9 : DevRef τ sig)) :=
    s3_v105 (W6 m ρ c)
  have e78 : W6 m ρ c (main_v78 : DevRef τ sig)
      = Cert.Spec.diagOf (F := F) (Host.dotGeneral Cert.ReferenceIdeal.dot_S50x64_S64x3200_S50x3200_1_0_0_1_n_n none
          (W4 m ρ c (main_v26 : DevRef τ sig)) (Cert.Spec.tW3200 (F := F) (W4 m ρ c (main_arg6 : DevRef τ sig)))) :=
    (W6_of_ne m ρ c main_v78 (by decide)).trans (s2_v78 (W4 m ρ c))
  have e59 : W5 m ρ c (main_v59 : DevRef τ sig) = W4 m ρ c (main_v59 : DevRef τ sig) := s2_v59 (W4 m ρ c)
  have e81 : W5 m ρ c (main_v81 : DevRef τ sig) = Cert.Spec.tW3200 (F := F) (W4 m ρ c (main_arg5 : DevRef τ sig)) :=
    s2_v81 (W4 m ρ c)
  have e82 : W5 m ρ c (main_v82 : DevRef τ sig) = Cert.Spec.tW64 (F := F) (W4 m ρ c (main_arg4 : DevRef τ sig)) :=
    s2_v82 (W4 m ρ c)
  rw [hact4, e113, e831, w8_arg10 m ρ c, hadd3, e98, e105, w6_arg8 m ρ c, w6_arg9 m ρ c, e78, hproj, hbase, e59, e81, e82,
    w4_v26 m ρ c, w4_arg4 m ρ c, w4_arg5 m ρ c, w4_arg6 m ρ c, w4_v59 m ρ c hadd0 hact1]
  rfl

/-- The second result: the relation embeddings after layer 1, computed before the matrix products and left alone. -/
theorem out2 :
    W10 m ρ c (main_v80 : DevRef τ sig)
      = Cert.Spec.relOut (F := F) (m ((c : Thread nD τ).loc main_arg3)) (m ((c : Thread nD τ).loc main_arg7)) := by
  have e80 : W5 m ρ c (main_v80 : DevRef τ sig)
      = Host.dotGeneral Cert.ReferenceIdeal.dot_S50x64_S64x64_S50x64_1_0_0_1_n_n none
          (W4 m ρ c (main_v26 : DevRef τ sig)) (Cert.Spec.tW64 (F := F) (W4 m ρ c (main_arg7 : DevRef τ sig))) := s2_v80 (W4 m ρ c)
  have e : W10 m ρ c (main_v80 : DevRef τ sig) = W5 m ρ c (main_v80 : DevRef τ sig) :=
    (W10_of_ne m ρ c main_v80 (by decide)).trans ((s4_v80 (W8 m ρ c)).trans
      ((W8_of_ne m ρ c main_v80 (by decide)).trans ((s3_v80 (W6 m ρ c)).trans (W6_of_ne m ρ c main_v80 (by decide)))))
  rw [e, e80, w4_v26 m ρ c, w4_arg7 m ρ c]
  rfl

end Cert.KernelIdeal.Chain

end
-- ==== Proof.Bridge.lean ====
/-
  The kernel's and the reference's first results are one function of the arguments on the extended reals.

  They differ in three places only: layer 0's two products with the identity matrix (the kernel uses the
  transposed weights themselves), and the spelling of the activation (`x > 0` against `x ≥ 0`, which
  choose the same value at `x = 0`).  Given those three facts — the identity times `X` is `X` for the two
  shapes, and the two activations agree — the layer-0 embeddings agree, and so do the results.
-/
import proofs.«115934_j80315888435553_1_alg».proof.Proof.Spec

noncomputable section

namespace Cert.Spec

open Idealize.ShloMosaic Cert.ReferenceIdeal

/-- The entity embeddings after layer 0 agree. -/
theorem kerEnt1_eq_refEnt1
    (hproj : ∀ X : Arr Ideal S10000x3200 .f32,
      Host.dotGeneral (F := Ideal) (φ₁ := .f32) (φ₂ := .f32) dot_S10000x10000_S10000x3200_S10000x3200_1_0_0_1_n_n none (eyeEnt (F := Ideal)) X = X)
    (hbase : ∀ X : Arr Ideal S10000x64 .f32,
      Host.dotGeneral (F := Ideal) (φ₁ := .f32) (φ₂ := .f32) dot_S10000x10000_S10000x64_S10000x64_1_0_0_1_n_n none (eyeEnt (F := Ideal)) X = X)
    (hact : ∀ x : Arr Ideal S10000x64 .f32, leakyK (F := Ideal) x = leaky (F := Ideal) x)
    (a0 : Arr Ideal S64x10000 .f32) (a1 : Arr Ideal S3200x10000 .f32) (a2 : Arr Ideal S3200x50 .f32)
    (h r t : Arr Ideal S500000 .i32) :
    kerEnt1 (F := Ideal) a0 a1 a2 h r t = refEnt1 (F := Ideal) a0 a1 a2 h r t := by
  have hfun : (leakyK (F := Ideal)) = leaky (F := Ideal) := funext hact
  unfold kerEnt1 refEnt1
  rw [hproj, hbase, hfun]

/-- The first results agree. -/
theorem kerOut_eq_refOut
    (hproj : ∀ X : Arr Ideal S10000x3200 .f32,
      Host.dotGeneral (F := Ideal) (φ₁ := .f32) (φ₂ := .f32) dot_S10000x10000_S10000x3200_S10000x3200_1_0_0_1_n_n none (eyeEnt (F := Ideal)) X = X)
    (hbase : ∀ X : Arr Ideal S10000x64 .f32,
      Host.dotGeneral (F := Ideal) (φ₁ := .f32) (φ₂ := .f32) dot_S10000x10000_S10000x64_S10000x64_1_0_0_1_n_n none (eyeEnt (F := Ideal)) X = X)
    (hact : ∀ x : Arr Ideal S10000x64 .f32, leakyK (F := Ideal) x = leaky (F := Ideal) x)
    (a0 : Arr Ideal S64x10000 .f32) (a1 : Arr Ideal S3200x10000 .f32) (a2 : Arr Ideal S3200x50 .f32)
    (a3 : Arr Ideal S64x50 .f32) (a4 : Arr Ideal S64x64 .f32) (a5 a6 : Arr Ideal S3200x64 .f32)
    (h r t : Arr Ideal S500000 .i32) :
    kerOut (F := Ideal) a0 a1 a2 a3 a4 a5 a6 h r t = refOut (F := Ideal) a0 a1 a2 a3 a4 a5 a6 h r t := by
  have hfun : (leakyK (F := Ideal)) = leaky (F := Ideal) := funext hact
  unfold kerOut refOut
  rw [kerEnt1_eq_refEnt1 hproj hbase hact a0 a1 a2 h r t, hfun]

end Cert.Spec

end
-- ==== Proof.IdealAlgebra.lean ====
/-
  Three algebraic facts on the extended reals, over the shared specification's definitions.

  (1), (2)  The identity matrix times X is X, with no finiteness hypothesis.  At an index (a, b) the
            product is the sum over k of I(a, k) · X(k, b), where I(a, k) is 1 if k = a and 0
            otherwise.  On the extended reals 0 · x = 0 and 1 · x = x for EVERY x, the two infinities
            included, so every term but the one at k = a vanishes and that one is X(a, b).
  (3)       The two spellings of the activation agree: "x where x > 0, c · x elsewhere" and
            "x where x ≥ 0, c · x elsewhere" can differ only at x = 0, and there c · 0 = 0 = x,
            whatever the constant c is.
-/
import proofs.«115934_j80315888435553_1_alg».proof.Proof.Spec
import Idealize.ShloMosaic.PureOps.Ideal.Laws
import Idealize.ShloMosaic.Lib.ValueIdx
import Idealize.ShloMosaic.Lib.StackMember

noncomputable section

namespace Cert.Spec

open Idealize.ShloMosaic Idealize.SL.Sem Cert.ReferenceIdeal
open Cert.ReferenceIdeal.Facts₀ Cert.ReferenceIdeal.Facts
open Idealize.ShloMosaic.ValueIdx
open scoped BigOperators

/-! ## The identity matrix -/

/-- Two row numbers below 10000 are equal as 32-bit words exactly when they are equal: 10000 < 2³², so
    neither word wraps. -/
theorem ofNat32_beq (a c : Fin 10000) : (BitVec.ofNat 32 a.val == BitVec.ofNat 32 c.val) = decide (a = c) := by
  by_cases h : a = c
  · subst h; simp
  · have hne : BitVec.ofNat 32 a.val ≠ BitVec.ofNat 32 c.val := by
      intro e
      have e' := congrArg BitVec.toNat e
      simp only [BitVec.toNat_ofNat] at e'
      have ha := a.isLt
      have hc := c.isLt
      rw [Nat.mod_eq_of_lt (by omega), Nat.mod_eq_of_lt (by omega)] at e'
      exact h (Fin.ext e')
    simp [h, hne]

/-- The identity matrix at (a, c): the one-bit word of "row number + 0 = column number", read unsigned as
    an extended real, is `1` on the diagonal and `0` off it. -/
theorem eyeEnt_apply (a c : Fin 10000) :
    eyeEnt (F := Ideal) (ix2 a c) = if a = c then 1 else 0 := by
  show (((BitVec.ofBool (BitVec.ofNat 32 a.val + 0#32 == BitVec.ofNat 32 c.val)).toNat : ℝ) : EReal) = _
  rw [BitVec.add_zero, ofNat32_beq]
  by_cases h : a = c
  · simp [h]
  · simp [h]

/-- The identity matrix times any 10000 × n array of extended reals is that array.  At (a, b) the product
    is `∑ k, I(a, k) · X(k, b)`; for `k ≠ a` the term is `0 · X(k, b) = 0` and at `k = a` it is
    `1 · X(a, b) = X(a, b)` — both hold for every extended real, `⊤` and `⊥` included, so nothing is
    asked of `X`. -/
theorem eye_dot_plain (n : Nat) (X : FVec Ideal ⟨2, ![10000, n]⟩ .f32) :
    Host.dotGeneral (F := Ideal) (φ₁ := .f32) (φ₂ := .f32) (DotDims.plain 10000 10000 n) none
      (eyeEnt (F := Ideal)) X = X := by
  funext j
  obtain ⟨a, b, rfl⟩ : ∃ (a : Fin 10000) (b : Fin n), j = ix2 a b := ⟨j 0, j 1, eq_ix2 j⟩
  rw [StackMember.dotGeneral_plain_apply]
  rw [Finset.sum_eq_single a]
  · rw [eyeEnt_apply, if_pos rfl, one_mul]
  · intro c _ hc
    rw [eyeEnt_apply, if_neg (Ne.symm hc), zero_mul]
  · intro h; exact absurd (Finset.mem_univ a) h

/-- The projection's product with the identity (10000 × 3200).  The program's dimension numbers are the
    plain ones: rows × contraction by contraction × columns. -/
theorem eye_dot_proj (X : Arr Ideal S10000x3200 .f32) :
    Host.dotGeneral (F := Ideal) (φ₁ := .f32) (φ₂ := .f32) dot_S10000x10000_S10000x3200_S10000x3200_1_0_0_1_n_n none
      (eyeEnt (F := Ideal)) X = X :=
  eye_dot_plain 3200 X

/-- The residual base's product with the identity (10000 × 64). -/
theorem eye_dot_base (X : Arr Ideal S10000x64 .f32) :
    Host.dotGeneral (F := Ideal) (φ₁ := .f32) (φ₂ := .f32) dot_S10000x10000_S10000x64_S10000x64_1_0_0_1_n_n none
      (eyeEnt (F := Ideal)) X = X :=
  eye_dot_plain 64 X

/-! ## The activation -/

/-- One element: selecting on `0 < a` or on `0 ≤ a` between `a` and `c · a` gives the same extended real.
    Below zero both conditions fail, above zero both hold, and at zero the two branches are both `0`. -/
theorem leaky_scalar (c a : EReal) :
    Scalar.select (Ideal.cmp .ogt a 0) a (c * a) = Scalar.select (Ideal.cmp .oge a 0) a (c * a) := by
  unfold Scalar.select Ideal.cmp
  rcases lt_trichotomy a 0 with h | h | h
  · have h1 : ¬ (0 < a) := not_lt.mpr h.le
    have h2 : ¬ (0 ≤ a) := not_le.mpr h
    simp [h1, h2]
  · subst h; simp
  · simp [h, h.le]

/-- The activation with the strict comparison is the activation with the weak one.  At an index both sides
    read the same zero and the same constant `c` (a splat and a broadcast scalar of one bit pattern are one
    extended real); the constant is never evaluated. -/
theorem leakyK_eq_leaky (x : Arr Ideal S10000x64 .f32) : leakyK (F := Ideal) x = leaky (F := Ideal) x := by
  funext i
  show Scalar.select (Ideal.cmp .ogt (x i) (Ideal.ofBits .f32 0x00000000#32)) (x i)
        (Ideal.ofBits .f32 0x3C23D70A#32 * x i)
    = Scalar.select (Ideal.cmp .oge (x i) (Ideal.ofBits .f32 0x00000000#32)) (x i)
        (Ideal.ofBits .f32 0x3C23D70A#32 * x i)
  rw [Ideal.ofBits_zero_f32]
  exact leaky_scalar _ _

end Cert.Spec

end
-- ==== Proof.RegionAdd.lean ====
/-
  The whole-array values of the two addition regions.

  Each region adds two 500000 × 64 arrays block by block: grid point t loads rows 10000·t … 10000·t + 9999 of
  both inputs, adds them elementwise and writes the sum over the same rows of the output.  The three windows'
  block indices agree at every point, so what point t writes back is block t of the elementwise sum of the two
  whole arrays; the 50 blocks fill the array, so the output array ends as that sum.
-/
import proofs.«115934_j80315888435553_1_alg».proof.Proof.Gen.KernelIdeal.Frame
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## Region 0: the sum of two 500000 × 64 arrays, written back in 50 blocks of 10000 rows -/

/-- The block's rectangle starts at the origin, however the zeros are spelt. -/
theorem origin0 : (![0, 0] : Fin 2 → Nat) = fun _ => 0 := funext fun a => by fin_cases a <;> rfl

/-- The body's payload is the elementwise sum of its two loaded blocks: a cast to the same shape changes nothing. -/
theorem pay_sum0 (x0 x1 : Vec F S10000x64 .f32) : k0_pay1 x0 x1 = addf x0 x1 := by
  show addf (shapeCast S10000x64 x0 shapeCasts_S10000x64_S10000x64) (shapeCast S10000x64 x1 shapeCasts_S10000x64_S10000x64) = _
  rw [shapeCast_self, shapeCast_self]

/-- The three windows move together: at every grid point both inputs' block indices are the output's, and the
    output's block index runs over 0 … 49 along the rows and is 0 along the columns. -/
theorem idx_sum0 : ∀ t : Fin cfg0.N, win0_0.index t (0 : Fin 2) = win0_2.index t (0 : Fin 2) + 0
    ∧ win0_0.index t (1 : Fin 2) = win0_2.index t (1 : Fin 2) + 0
    ∧ win0_1.index t (0 : Fin 2) = win0_2.index t (0 : Fin 2) + 0
    ∧ win0_1.index t (1 : Fin 2) = win0_2.index t (1 : Fin 2) + 0
    ∧ 0 ≤ win0_2.index t (0 : Fin 2) ∧ win0_2.index t (0 : Fin 2) ≤ 49
    ∧ 0 ≤ win0_2.index t (1 : Fin 2) ∧ win0_2.index t (1 : Fin 2) ≤ 0 :=
  (by decide +kernel : ∀ t : Fin grid0.N, _)

/-- Every block of rows is some grid point's. -/
theorem idx_onto_sum0 : ∀ (q0 : Fin 50) (q1 : Fin 1), ∃ t : Fin cfg0.N, win0_2.index t = ![q0.val + 0, q1.val + 0] :=
  (by decide +kernel : ∀ (q0 : Fin 50) (q1 : Fin 1), ∃ t : Fin grid0.N, win0_2.index t = ![q0.val + 0, q1.val + 0])

/-- What grid point `t` writes back is block `t` of the elementwise sum of the two input arrays. -/
theorem flushed_sum0 (c : Dev nD) (t : Fin cfg0.N) :
    (dat0 V c).flushed 2 t = ((cfg0.win 2).blk t).view.read (Elt F) (addf (φ := .f32) (V c main_v43) (V c main_v50)) := by
  show (cfg0.win 2).cut (grid0.coords t) ((dat0 V c).after 2 t) = _
  rw [after0_2]
  unfold out0_2
  rw [View.canon_unit_zero origin0]
  simp only [View.ld_unit_zero (S := S10000x64) origin0]
  rw [pay_sum0]
  obtain ⟨e0, e1, e2, e3, e4, e5⟩ := idx_sum0 t
  funext j
  show FloatOps.addf (V c main_v43 (((cfg0.win 0).blk t).view.emb j)) (V c main_v50 (((cfg0.win 1).blk t).view.emb j)) = FloatOps.addf (V c main_v43 (((cfg0.win 2).blk t).view.emb j)) (V c main_v50 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; have hj : (j 0).val < 10000 := (j 0).isLt; omega
    | ⟨1, _⟩ => show win0_0.index t (1 : Fin 2) * 64 + 1 * (j 1).val = win0_2.index t (1 : Fin 2) * 64 + 1 * (j 1).val; have hj : (j 1).val < 64 := (j 1).isLt; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; have hj : (j 0).val < 10000 := (j 0).isLt; omega
    | ⟨1, _⟩ => show win0_1.index t (1 : Fin 2) * 64 + 1 * (j 1).val = win0_2.index t (1 : Fin 2) * 64 + 1 * (j 1).val; have hj : (j 1).val < 64 := (j 1).isLt; omega
  rw [h0, h1]

/-- An index of the array lies in point `t`'s block iff each coordinate lies in the block's range on its axis. -/
theorem mem_blk_sum0 (t : Fin cfg0.N) (i : S500000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v51).slice (win0_2.rect t)).set ↔ _
  rw [View.set_slice_whole, Rect.mem_set_unit]
  exact Iff.rfl

/-- The blocks fill the array: row `r` lies in the block of grid point `r / 10000`. -/
theorem cover_sum0 (i : S500000x64.Idx) :
    ∃ t : Fin cfg0.N, (cfg0.win 2).flush t = true ∧ i ∈ ((cfg0.win 2).blk t).view.set := by
  have hi0 : (i 0).val < 500000 := (i 0).isLt
  have hi1 : (i 1).val < 64 := (i 1).isLt
  obtain ⟨t, ht⟩ := idx_onto_sum0 ⟨(i 0).val / 10000 - 0, by omega⟩ ⟨(i 1).val / 64 - 0, by omega⟩
  have q0 : win0_2.index t (0 : Fin 2) = (i 0).val / 10000 - 0 + 0 := congrFun ht 0
  have q1 : win0_2.index t (1 : Fin 2) = (i 1).val / 64 - 0 + 0 := congrFun ht 1
  refine ⟨t, flush0_2 t, ?_⟩
  rw [mem_blk_sum0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region is the elementwise sum of the two input arrays as the region found them. -/
theorem add0_final (c : Dev nD) : (Gen.dat0 (F := F) V c).arrAt 2 cfg0.N = addf (φ := .f32) (V c main_v43) (V c main_v50) :=
  (dat0 V c).arrAt_eq_of_cover 2 (addf (φ := .f32) (V c main_v43) (V c main_v50)) (fun t _ => flushed_sum0 V c t) (cover_sum0)

/-! ## Region 3: the sum of two 500000 × 64 arrays, written back in 50 blocks of 10000 rows -/

/-- The block's rectangle starts at the origin, however the zeros are spelt. -/
theorem origin3 : (![0, 0] : Fin 2 → Nat) = fun _ => 0 := funext fun a => by fin_cases a <;> rfl

/-- The body's payload is the elementwise sum of its two loaded blocks: a cast to the same shape changes nothing. -/
theorem pay_sum3 (x0 x1 : Vec F S10000x64 .f32) : k3_pay1 x0 x1 = addf x0 x1 := by
  show addf (shapeCast S10000x64 x0 shapeCasts_S10000x64_S10000x64) (shapeCast S10000x64 x1 shapeCasts_S10000x64_S10000x64) = _
  rw [shapeCast_self, shapeCast_self]

/-- The three windows move together: at every grid point both inputs' block indices are the output's, and the
    output's block index runs over 0 … 49 along the rows and is 0 along the columns. -/
theorem idx_sum3 : ∀ t : Fin cfg3.N, win3_0.index t (0 : Fin 2) = win3_2.index t (0 : Fin 2) + 0
    ∧ win3_0.index t (1 : Fin 2) = win3_2.index t (1 : Fin 2) + 0
    ∧ win3_1.index t (0 : Fin 2) = win3_2.index t (0 : Fin 2) + 0
    ∧ win3_1.index t (1 : Fin 2) = win3_2.index t (1 : Fin 2) + 0
    ∧ 0 ≤ win3_2.index t (0 : Fin 2) ∧ win3_2.index t (0 : Fin 2) ≤ 49
    ∧ 0 ≤ win3_2.index t (1 : Fin 2) ∧ win3_2.index t (1 : Fin 2) ≤ 0 :=
  (by decide +kernel : ∀ t : Fin grid3.N, _)

/-- Every block of rows is some grid point's. -/
theorem idx_onto_sum3 : ∀ (q0 : Fin 50) (q1 : Fin 1), ∃ t : Fin cfg3.N, win3_2.index t = ![q0.val + 0, q1.val + 0] :=
  (by decide +kernel : ∀ (q0 : Fin 50) (q1 : Fin 1), ∃ t : Fin grid3.N, win3_2.index t = ![q0.val + 0, q1.val + 0])

/-- What grid point `t` writes back is block `t` of the elementwise sum of the two input arrays. -/
theorem flushed_sum3 (c : Dev nD) (t : Fin cfg3.N) :
    (dat3 V c).flushed 2 t = ((cfg3.win 2).blk t).view.read (Elt F) (addf (φ := .f32) (V c main_v98) (V c main_v105)) := by
  show (cfg3.win 2).cut (grid3.coords t) ((dat3 V c).after 2 t) = _
  rw [after3_2]
  unfold out3_2
  rw [View.canon_unit_zero origin3]
  simp only [View.ld_unit_zero (S := S10000x64) origin3]
  rw [pay_sum3]
  obtain ⟨e0, e1, e2, e3, e4, e5⟩ := idx_sum3 t
  funext j
  show FloatOps.addf (V c main_v98 (((cfg3.win 0).blk t).view.emb j)) (V c main_v105 (((cfg3.win 1).blk t).view.emb j)) = FloatOps.addf (V c main_v98 (((cfg3.win 2).blk t).view.emb j)) (V c main_v105 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; have hj : (j 0).val < 10000 := (j 0).isLt; omega
    | ⟨1, _⟩ => show win3_0.index t (1 : Fin 2) * 64 + 1 * (j 1).val = win3_2.index t (1 : Fin 2) * 64 + 1 * (j 1).val; have hj : (j 1).val < 64 := (j 1).isLt; omega
  have h1 : ((cfg3.win 1).blk t).view.emb j = ((cfg3.win 2).blk t).view.emb j := by
    funext a; apply Fin.ext
    match a with
    | ⟨0, _⟩ => show win3_1.index t (0 : Fin 2) * 10000 + 1 * (j 0).val = win3_2.index t (0 : Fin 2) * 10000 + 1 * (j 0).val; have hj : (j 0).val < 10000 := (j 0).isLt; omega
    | ⟨1, _⟩ => show win3_1.index t (1 : Fin 2) * 64 + 1 * (j 1).val = win3_2.index t (1 : Fin 2) * 64 + 1 * (j 1).val; have hj : (j 1).val < 64 := (j 1).isLt; omega
  rw [h0, h1]

/-- An index of the array lies in point `t`'s block iff each coordinate lies in the block's range on its axis. -/
theorem mem_blk_sum3 (t : Fin cfg3.N) (i : S500000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v106).slice (win3_2.rect t)).set ↔ _
  rw [View.set_slice_whole, Rect.mem_set_unit]
  exact Iff.rfl

/-- The blocks fill the array: row `r` lies in the block of grid point `r / 10000`. -/
theorem cover_sum3 (i : S500000x64.Idx) :
    ∃ t : Fin cfg3.N, (cfg3.win 2).flush t = true ∧ i ∈ ((cfg3.win 2).blk t).view.set := by
  have hi0 : (i 0).val < 500000 := (i 0).isLt
  have hi1 : (i 1).val < 64 := (i 1).isLt
  obtain ⟨t, ht⟩ := idx_onto_sum3 ⟨(i 0).val / 10000 - 0, by omega⟩ ⟨(i 1).val / 64 - 0, by omega⟩
  have q0 : win3_2.index t (0 : Fin 2) = (i 0).val / 10000 - 0 + 0 := congrFun ht 0
  have q1 : win3_2.index t (1 : Fin 2) = (i 1).val / 64 - 0 + 0 := congrFun ht 1
  refine ⟨t, flush3_2 t, ?_⟩
  rw [mem_blk_sum3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region is the elementwise sum of the two input arrays as the region found them. -/
theorem add3_final (c : Dev nD) : (Gen.dat3 (F := F) V c).arrAt 2 cfg3.N = addf (φ := .f32) (V c main_v98) (V c main_v105) :=
  (dat3 V c).arrAt_eq_of_cover 2 (addf (φ := .f32) (V c main_v98) (V c main_v105)) (fun t _ => flushed_sum3 V c t) (cover_sum3)

end Cert.KernelIdeal.RegionValue

end
-- ==== Proof.RegionLeaky.lean ====
/-
  The whole-array values of the two activation regions.

  Each region applies x ↦ (x where x > 0, 0.01 · x elsewhere) to a 10000 × 64 array block by block: grid point t
  loads rows 1000·t … 1000·t + 999, applies the function elementwise and writes the result over the same rows of
  the output.  The function is elementwise, so what point t writes back is block t of the function of the whole
  array; the 10 blocks fill the array, so the output array ends as that function of the input array.
-/
import proofs.«115934_j80315888435553_1_alg».proof.Proof.Gen.KernelIdeal.Frame
import proofs.«115934_j80315888435553_1_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## Region 1: the activation of a 10000 × 64 array, written back in 10 blocks of 1000 rows -/

/-- The block's rectangle starts at the origin, however the zeros are spelt. -/
theorem origin1 : (![0, 0] : Fin 2 → Nat) = fun _ => 0 := funext fun a => by fin_cases a <;> rfl

/-- The body's payload on a loaded block `x`: `x` where `x > 0`, `0.01 · x` elsewhere (a cast to the same shape
    changes nothing). -/
theorem pay_act1 (x0 : Vec F S1000x64 .f32) :
    k1_pay1 x0 = select (cmpf .ogt x0 (broadcast S1000x64 (Scalar.ofBits .f32 0x00000000#32))) x0
      (mulf (broadcast S1000x64 (Scalar.ofBits .f32 0x3C23D70A#32)) x0) := by
  show select (cmpf .ogt (shapeCast S1000x64 x0 shapeCasts_S1000x64_S1000x64) (broadcast S1000x64 (Scalar.ofBits .f32 0x00000000#32)))
      (shapeCast S1000x64 x0 shapeCasts_S1000x64_S1000x64)
      (mulf (broadcast S1000x64 (Scalar.ofBits .f32 0x3C23D70A#32)) (shapeCast S1000x64 x0 shapeCasts_S1000x64_S1000x64)) = _
  rw [shapeCast_self]

/-- The two windows move together: at every grid point the input's block index is the output's, which runs over
    0 … 9 along the rows and is 0 along the columns. -/
theorem idx_act1 : ∀ t : Fin cfg1.N, win1_0.index t (0 : Fin 2) = win1_1.index t (0 : Fin 2) + 0
    ∧ win1_0.index t (1 : Fin 2) = win1_1.index t (1 : Fin 2) + 0
    ∧ 0 ≤ win1_1.index t (0 : Fin 2) ∧ win1_1.index t (0 : Fin 2) ≤ 9
    ∧ 0 ≤ win1_1.index t (1 : Fin 2) ∧ win1_1.index t (1 : Fin 2) ≤ 0 :=
  (by decide +kernel : ∀ t : Fin grid1.N, _)

/-- Every block of rows is some grid point's. -/
theorem idx_onto_act1 : ∀ (q0 : Fin 10) (q1 : Fin 1), ∃ t : Fin cfg1.N, win1_1.index t = ![q0.val + 0, q1.val + 0] :=
  (by decide +kernel : ∀ (q0 : Fin 10) (q1 : Fin 1), ∃ t : Fin grid1.N, win1_1.index t = ![q0.val + 0, q1.val + 0])

/-- What grid point `t` writes back is block `t` of the activation of the input array. -/
theorem flushed_act1 (c : Dev nD) (t : Fin cfg1.N) :
    (dat1 V c).flushed 1 t = ((cfg1.win 1).blk t).view.read (Elt F) (Cert.Spec.leakyK (F := F) (V c main_v58)) := by
  show (cfg1.win 1).cut (grid1.coords t) ((dat1 V c).after 1 t) = _
  rw [after1_1]
  unfold out1_1
  rw [View.canon_unit_zero origin1]
  simp only [View.ld_unit_zero (S := S1000x64) origin1]
  rw [pay_act1]
  obtain ⟨e0, e1, e2, e3, e4, e5⟩ := idx_act1 t
  funext j
  have h0 : ((cfg1.win 0).blk t).view.emb j = ((cfg1.win 1).blk t).view.emb j := by
    funext a; apply Fin.ext
    match a with
    | ⟨0, _⟩ => show win1_0.index t (0 : Fin 2) * 1000 + 1 * (j 0).val = win1_1.index t (0 : Fin 2) * 1000 + 1 * (j 0).val; have hj : (j 0).val < 1000 := (j 0).isLt; omega
    | ⟨1, _⟩ => show win1_0.index t (1 : Fin 2) * 64 + 1 * (j 1).val = win1_1.index t (1 : Fin 2) * 64 + 1 * (j 1).val; have hj : (j 1).val < 64 := (j 1).isLt; omega
  show Scalar.select (FloatOps.cmpf .ogt (V c main_v58 (((cfg1.win 0).blk t).view.emb j)) (Scalar.ofBits .f32 0x00000000#32))
      (V c main_v58 (((cfg1.win 0).blk t).view.emb j))
      (FloatOps.mulf (Scalar.ofBits .f32 0x3C23D70A#32) (V c main_v58 (((cfg1.win 0).blk t).view.emb j)))
    = Scalar.select (FloatOps.cmpf .ogt (V c main_v58 (((cfg1.win 1).blk t).view.emb j)) (Scalar.ofBits .f32 0x00000000#32))
      (V c main_v58 (((cfg1.win 1).blk t).view.emb j))
      (FloatOps.mulf (Scalar.ofBits .f32 0x3C23D70A#32) (V c main_v58 (((cfg1.win 1).blk t).view.emb j)))
  rw [h0]

/-- An index of the array lies in point `t`'s block iff each coordinate lies in the block's range on its axis. -/
theorem mem_blk_act1 (t : Fin cfg1.N) (i : S10000x64.Idx) :
    i ∈ ((cfg1.win 1).blk t).view.set ↔ ∀ a : Fin 2, win1_1.index t a * S1000x64.size a ≤ (i a).val ∧ (i a).val < win1_1.index t a * S1000x64.size a + S1000x64.size a := by
  show i ∈ ((View.whole main_v59).slice (win1_1.rect t)).set ↔ _
  rw [View.set_slice_whole, Rect.mem_set_unit]
  exact Iff.rfl

/-- The blocks fill the array: row `r` lies in the block of grid point `r / 1000`. -/
theorem cover_act1 (i : S10000x64.Idx) :
    ∃ t : Fin cfg1.N, (cfg1.win 1).flush t = true ∧ i ∈ ((cfg1.win 1).blk t).view.set := by
  have hi0 : (i 0).val < 10000 := (i 0).isLt
  have hi1 : (i 1).val < 64 := (i 1).isLt
  obtain ⟨t, ht⟩ := idx_onto_act1 ⟨(i 0).val / 1000 - 0, by omega⟩ ⟨(i 1).val / 64 - 0, by omega⟩
  have q0 : win1_1.index t (0 : Fin 2) = (i 0).val / 1000 - 0 + 0 := congrFun ht 0
  have q1 : win1_1.index t (1 : Fin 2) = (i 1).val / 64 - 0 + 0 := congrFun ht 1
  refine ⟨t, flush1_1 t, ?_⟩
  rw [mem_blk_act1]
  intro a
  match a with
  | ⟨0, _⟩ => show win1_1.index t (0 : Fin 2) * 1000 ≤ (i 0).val ∧ (i 0).val < win1_1.index t (0 : Fin 2) * 1000 + 1000; omega
  | ⟨1, _⟩ => show win1_1.index t (1 : Fin 2) * 64 ≤ (i 1).val ∧ (i 1).val < win1_1.index t (1 : Fin 2) * 64 + 64; omega

/-- The output array after the region is the activation of the input array as the region found it. -/
theorem leaky1_final (c : Dev nD) : (Gen.dat1 (F := F) V c).arrAt 1 cfg1.N = Cert.Spec.leakyK (F := F) (V c main_v58) :=
  (dat1 V c).arrAt_eq_of_cover 1 (Cert.Spec.leakyK (F := F) (V c main_v58)) (fun t _ => flushed_act1 V c t) (cover_act1)

/-! ## Region 4: the activation of a 10000 × 64 array, written back in 10 blocks of 1000 rows -/

/-- The block's rectangle starts at the origin, however the zeros are spelt. -/
theorem origin4 : (![0, 0] : Fin 2 → Nat) = fun _ => 0 := funext fun a => by fin_cases a <;> rfl

/-- The body's payload on a loaded block `x`: `x` where `x > 0`, `0.01 · x` elsewhere (a cast to the same shape
    changes nothing). -/
theorem pay_act4 (x0 : Vec F S1000x64 .f32) :
    k4_pay1 x0 = select (cmpf .ogt x0 (broadcast S1000x64 (Scalar.ofBits .f32 0x00000000#32))) x0
      (mulf (broadcast S1000x64 (Scalar.ofBits .f32 0x3C23D70A#32)) x0) := by
  show select (cmpf .ogt (shapeCast S1000x64 x0 shapeCasts_S1000x64_S1000x64) (broadcast S1000x64 (Scalar.ofBits .f32 0x00000000#32)))
      (shapeCast S1000x64 x0 shapeCasts_S1000x64_S1000x64)
      (mulf (broadcast S1000x64 (Scalar.ofBits .f32 0x3C23D70A#32)) (shapeCast S1000x64 x0 shapeCasts_S1000x64_S1000x64)) = _
  rw [shapeCast_self]

/-- The two windows move together: at every grid point the input's block index is the output's, which runs over
    0 … 9 along the rows and is 0 along the columns. -/
theorem idx_act4 : ∀ t : Fin cfg4.N, win4_0.index t (0 : Fin 2) = win4_1.index t (0 : Fin 2) + 0
    ∧ win4_0.index t (1 : Fin 2) = win4_1.index t (1 : Fin 2) + 0
    ∧ 0 ≤ win4_1.index t (0 : Fin 2) ∧ win4_1.index t (0 : Fin 2) ≤ 9
    ∧ 0 ≤ win4_1.index t (1 : Fin 2) ∧ win4_1.index t (1 : Fin 2) ≤ 0 :=
  (by decide +kernel : ∀ t : Fin grid4.N, _)

/-- Every block of rows is some grid point's. -/
theorem idx_onto_act4 : ∀ (q0 : Fin 10) (q1 : Fin 1), ∃ t : Fin cfg4.N, win4_1.index t = ![q0.val + 0, q1.val + 0] :=
  (by decide +kernel : ∀ (q0 : Fin 10) (q1 : Fin 1), ∃ t : Fin grid4.N, win4_1.index t = ![q0.val + 0, q1.val + 0])

/-- What grid point `t` writes back is block `t` of the activation of the input array. -/
theorem flushed_act4 (c : Dev nD) (t : Fin cfg4.N) :
    (dat4 V c).flushed 1 t = ((cfg4.win 1).blk t).view.read (Elt F) (Cert.Spec.leakyK (F := F) (V c main_v113)) := by
  show (cfg4.win 1).cut (grid4.coords t) ((dat4 V c).after 1 t) = _
  rw [after4_1]
  unfold out4_1
  rw [View.canon_unit_zero origin4]
  simp only [View.ld_unit_zero (S := S1000x64) origin4]
  rw [pay_act4]
  obtain ⟨e0, e1, e2, e3, e4, e5⟩ := idx_act4 t
  funext j
  have h0 : ((cfg4.win 0).blk t).view.emb j = ((cfg4.win 1).blk t).view.emb j := by
    funext a; apply Fin.ext
    match a with
    | ⟨0, _⟩ => show win4_0.index t (0 : Fin 2) * 1000 + 1 * (j 0).val = win4_1.index t (0 : Fin 2) * 1000 + 1 * (j 0).val; have hj : (j 0).val < 1000 := (j 0).isLt; omega
    | ⟨1, _⟩ => show win4_0.index t (1 : Fin 2) * 64 + 1 * (j 1).val = win4_1.index t (1 : Fin 2) * 64 + 1 * (j 1).val; have hj : (j 1).val < 64 := (j 1).isLt; omega
  show Scalar.select (FloatOps.cmpf .ogt (V c main_v113 (((cfg4.win 0).blk t).view.emb j)) (Scalar.ofBits .f32 0x00000000#32))
      (V c main_v113 (((cfg4.win 0).blk t).view.emb j))
      (FloatOps.mulf (Scalar.ofBits .f32 0x3C23D70A#32) (V c main_v113 (((cfg4.win 0).blk t).view.emb j)))
    = Scalar.select (FloatOps.cmpf .ogt (V c main_v113 (((cfg4.win 1).blk t).view.emb j)) (Scalar.ofBits .f32 0x00000000#32))
      (V c main_v113 (((cfg4.win 1).blk t).view.emb j))
      (FloatOps.mulf (Scalar.ofBits .f32 0x3C23D70A#32) (V c main_v113 (((cfg4.win 1).blk t).view.emb j)))
  rw [h0]

/-- An index of the array lies in point `t`'s block iff each coordinate lies in the block's range on its axis. -/
theorem mem_blk_act4 (t : Fin cfg4.N) (i : S10000x64.Idx) :
    i ∈ ((cfg4.win 1).blk t).view.set ↔ ∀ a : Fin 2, win4_1.index t a * S1000x64.size a ≤ (i a).val ∧ (i a).val < win4_1.index t a * S1000x64.size a + S1000x64.size a := by
  show i ∈ ((View.whole main_v114).slice (win4_1.rect t)).set ↔ _
  rw [View.set_slice_whole, Rect.mem_set_unit]
  exact Iff.rfl

/-- The blocks fill the array: row `r` lies in the block of grid point `r / 1000`. -/
theorem cover_act4 (i : S10000x64.Idx) :
    ∃ t : Fin cfg4.N, (cfg4.win 1).flush t = true ∧ i ∈ ((cfg4.win 1).blk t).view.set := by
  have hi0 : (i 0).val < 10000 := (i 0).isLt
  have hi1 : (i 1).val < 64 := (i 1).isLt
  obtain ⟨t, ht⟩ := idx_onto_act4 ⟨(i 0).val / 1000 - 0, by omega⟩ ⟨(i 1).val / 64 - 0, by omega⟩
  have q0 : win4_1.index t (0 : Fin 2) = (i 0).val / 1000 - 0 + 0 := congrFun ht 0
  have q1 : win4_1.index t (1 : Fin 2) = (i 1).val / 64 - 0 + 0 := congrFun ht 1
  refine ⟨t, flush4_1 t, ?_⟩
  rw [mem_blk_act4]
  intro a
  match a with
  | ⟨0, _⟩ => show win4_1.index t (0 : Fin 2) * 1000 ≤ (i 0).val ∧ (i 0).val < win4_1.index t (0 : Fin 2) * 1000 + 1000; omega
  | ⟨1, _⟩ => show win4_1.index t (1 : Fin 2) * 64 ≤ (i 1).val ∧ (i 1).val < win4_1.index t (1 : Fin 2) * 64 + 64; omega

/-- The output array after the region is the activation of the input array as the region found it. -/
theorem leaky4_final (c : Dev nD) : (Gen.dat4 (F := F) V c).arrAt 1 cfg4.N = Cert.Spec.leakyK (F := F) (V c main_v113) :=
  (dat4 V c).arrAt_eq_of_cover 1 (Cert.Spec.leakyK (F := F) (V c main_v113)) (fun t _ => flushed_act4 V c t) (cover_act4)

end Cert.KernelIdeal.RegionValue

end
-- ==== Proof.RegionMatmulPay.lean ====
/-
  The matmul region's arithmetic, at one element.

  The region multiplies a block of activations (1000 × 64) by two weight matrices (64 × 3200 and 64 × 64). At the
  ideal values a change of float format is the identity and a product accumulated into zeros is the plain sum
    out(p, q) = ∑ k < 64, a(p, k) · w(k, q).
  The host's matrix product of the whole arrays (10000 × 64 by 64 × 3200, by 64 × 64) is the same sum, read at (i, q).
  Each of the four products is stated here at an index built from its two coordinates.
-/
import proofs.«115934_j80315888435553_1_alg».proof.Proof.Gen.KernelIdeal.Skeleton
import proofs.«115934_j80315888435553_1_alg».proof.Proof.Spec
import Idealize.ShloMosaic.PureOps.Ideal.Laws
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.SL.Sem
open Idealize.ShloMosaic.ValueIdx
open scoped BigOperators

/-- The host product of a 10000 × 64 array with a 64 × 64 one, read at (i, q): the sum over the 64 shared
    coordinates. -/
theorem host_base_apply (A : Cert.ReferenceIdeal.S10000x64.Idx → EReal) (W : Cert.ReferenceIdeal.S64x64.Idx → EReal) (i : Fin 10000) (q : Fin 64) :
    Host.dotGeneral (F := Ideal) (φ₁ := .f32) (φ₂ := .f32) Cert.ReferenceIdeal.dot_S10000x64_S64x64_S10000x64_1_0_0_1_n_n none A W (ix2 i q)
      = ∑ k : Fin 64, A (ix2 i k) * W (ix2 k q) := by
  simp only [Host.dotGeneral]
  rw [Ideal.dotGeneral_apply, ← Equiv.sum_comp (contrEquiv1 Cert.ReferenceIdeal.dot_S10000x64_S64x64_S10000x64_1_0_0_1_n_n 64 rfl rfl).symm]
  refine Finset.sum_congr rfl fun k _ => ?_
  have hk := contrEquiv1_symm_val Cert.ReferenceIdeal.dot_S10000x64_S64x64_S10000x64_1_0_0_1_n_n 64 rfl rfl k
  have el : Cert.ReferenceIdeal.dot_S10000x64_S64x64_S10000x64_1_0_0_1_n_n.lhsIdx (ix2 i q)
      ((contrEquiv1 Cert.ReferenceIdeal.dot_S10000x64_S64x64_S10000x64_1_0_0_1_n_n 64 rfl rfl).symm k) = ix2 i k :=
    funext fun a => Fin.ext (by
      match a with
      | ⟨0, _⟩ => rfl
      | ⟨1, _⟩ => exact (Cert.ReferenceIdeal.dot_S10000x64_S64x64_S10000x64_1_0_0_1_n_n.lhsIdx_val_of_single rfl _ _).trans hk)
  have er : Cert.ReferenceIdeal.dot_S10000x64_S64x64_S10000x64_1_0_0_1_n_n.rhsIdx (ix2 i q)
      ((contrEquiv1 Cert.ReferenceIdeal.dot_S10000x64_S64x64_S10000x64_1_0_0_1_n_n 64 rfl rfl).symm k) = ix2 k q :=
    funext fun a => Fin.ext (by
      match a with
      | ⟨0, _⟩ => exact (Cert.ReferenceIdeal.dot_S10000x64_S64x64_S10000x64_1_0_0_1_n_n.rhsIdx_val_of_single rfl _ _).trans hk
      | ⟨1, _⟩ => rfl)
  rw [el, er]

/-- The body's second product at (p, q) of its block: the two operands are rounded to bf16 (the identity at the
    ideal values) and multiplied into a zero accumulator, so it is the sum over the 64 shared coordinates. -/
theorem pay_base_apply (x0 : Vec Ideal S1000x64 .f32) (x2 : Vec Ideal S64x64 .f32) (p : Fin 1000) (q : Fin 64) :
    k2_pay3 x0 x2 (ix2 p q) = ∑ k : Fin 64, x0 (ix2 p k) * x2 (ix2 k q) := by
  unfold k2_pay3 k2_pay1
  refine (Ideal.matmul_constant_zero_apply dot_S1000x64_S64x64_S1000x64_1_0_0_1_n_n none _ _ (ix2 p q)).trans ?_
  rw [← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have el : dot_S1000x64_S64x64_S1000x64_1_0_0_1_n_n.lhsIdx (ix2 p q)
      ((contrEquiv1 dot_S1000x64_S64x64_S1000x64_1_0_0_1_n_n 64 rfl rfl).symm k) = ix2 p k :=
    funext fun a => Fin.ext (by
      match a with
      | ⟨0, _⟩ => rfl
      | ⟨1, _⟩ => exact (dot_S1000x64_S64x64_S1000x64_1_0_0_1_n_n.lhsIdx_val_of_single rfl _ _).trans hk)
  have er : dot_S1000x64_S64x64_S1000x64_1_0_0_1_n_n.rhsIdx (ix2 p q)
      ((contrEquiv1 dot_S1000x64_S64x64_S1000x64_1_0_0_1_n_n 64 rfl rfl).symm k) = ix2 k q :=
    funext fun a => Fin.ext (by
      match a with
      | ⟨0, _⟩ => exact (dot_S1000x64_S64x64_S1000x64_1_0_0_1_n_n.rhsIdx_val_of_single rfl _ _).trans hk
      | ⟨1, _⟩ => rfl)
  rw [el, er, shapeCast_self, shapeCast_self]
  rfl

/-- The host product of a 10000 × 64 array with a 64 × 3200 one, read at (i, q): the sum over the 64 shared
    coordinates. -/
theorem host_proj_apply (A : Cert.ReferenceIdeal.S10000x64.Idx → EReal) (W : Cert.ReferenceIdeal.S64x3200.Idx → EReal) (i : Fin 10000) (q : Fin 3200) :
    Host.dotGeneral (F := Ideal) (φ₁ := .f32) (φ₂ := .f32) Cert.ReferenceIdeal.dot_S10000x64_S64x3200_S10000x3200_1_0_0_1_n_n none A W (ix2 i q)
      = ∑ k : Fin 64, A (ix2 i k) * W (ix2 k q) := by
  simp only [Host.dotGeneral]
  rw [Ideal.dotGeneral_apply, ← Equiv.sum_comp (contrEquiv1 Cert.ReferenceIdeal.dot_S10000x64_S64x3200_S10000x3200_1_0_0_1_n_n 64 rfl rfl).symm]
  refine Finset.sum_congr rfl fun k _ => ?_
  have hk := contrEquiv1_symm_val Cert.ReferenceIdeal.dot_S10000x64_S64x3200_S10000x3200_1_0_0_1_n_n 64 rfl rfl k
  have el : Cert.ReferenceIdeal.dot_S10000x64_S64x3200_S10000x3200_1_0_0_1_n_n.lhsIdx (ix2 i q)
      ((contrEquiv1 Cert.ReferenceIdeal.dot_S10000x64_S64x3200_S10000x3200_1_0_0_1_n_n 64 rfl rfl).symm k) = ix2 i k :=
    funext fun a => Fin.ext (by
      match a with
      | ⟨0, _⟩ => rfl
      | ⟨1, _⟩ => exact (Cert.ReferenceIdeal.dot_S10000x64_S64x3200_S10000x3200_1_0_0_1_n_n.lhsIdx_val_of_single rfl _ _).trans hk)
  have er : Cert.ReferenceIdeal.dot_S10000x64_S64x3200_S10000x3200_1_0_0_1_n_n.rhsIdx (ix2 i q)
      ((contrEquiv1 Cert.ReferenceIdeal.dot_S10000x64_S64x3200_S10000x3200_1_0_0_1_n_n 64 rfl rfl).symm k) = ix2 k q :=
    funext fun a => Fin.ext (by
      match a with
      | ⟨0, _⟩ => exact (Cert.ReferenceIdeal.dot_S10000x64_S64x3200_S10000x3200_1_0_0_1_n_n.rhsIdx_val_of_single rfl _ _).trans hk
      | ⟨1, _⟩ => rfl)
  rw [el, er]

/-- The body's first product at (p, q) of its block: the two operands are rounded to bf16 (the identity at the
    ideal values) and multiplied into a zero accumulator, so it is the sum over the 64 shared coordinates. -/
theorem pay_proj_apply (x0 : Vec Ideal S1000x64 .f32) (x1 : Vec Ideal S64x3200 .f32) (p : Fin 1000) (q : Fin 3200) :
    k2_pay2 x0 x1 (ix2 p q) = ∑ k : Fin 64, x0 (ix2 p k) * x1 (ix2 k q) := by
  unfold k2_pay2 k2_pay1
  refine (Ideal.matmul_constant_zero_apply dot_S1000x64_S64x3200_S1000x3200_1_0_0_1_n_n none _ _ (ix2 p q)).trans ?_
  rw [← Equiv.sum_comp (contrEquiv1 dot_S1000x64_S64x3200_S1000x3200_1_0_0_1_n_n 64 rfl rfl).symm]
  refine Finset.sum_congr rfl fun k _ => ?_
  have hk := contrEquiv1_symm_val dot_S1000x64_S64x3200_S1000x3200_1_0_0_1_n_n 64 rfl rfl k
  have el : dot_S1000x64_S64x3200_S1000x3200_1_0_0_1_n_n.lhsIdx (ix2 p q)
      ((contrEquiv1 dot_S1000x64_S64x3200_S1000x3200_1_0_0_1_n_n 64 rfl rfl).symm k) = ix2 p k :=
    funext fun a => Fin.ext (by
      match a with
      | ⟨0, _⟩ => rfl
      | ⟨1, _⟩ => exact (dot_S1000x64_S64x3200_S1000x3200_1_0_0_1_n_n.lhsIdx_val_of_single rfl _ _).trans hk)
  have er : dot_S1000x64_S64x3200_S1000x3200_1_0_0_1_n_n.rhsIdx (ix2 p q)
      ((contrEquiv1 dot_S1000x64_S64x3200_S1000x3200_1_0_0_1_n_n 64 rfl rfl).symm k) = ix2 k q :=
    funext fun a => Fin.ext (by
      match a with
      | ⟨0, _⟩ => exact (dot_S1000x64_S64x3200_S1000x3200_1_0_0_1_n_n.rhsIdx_val_of_single rfl _ _).trans hk
      | ⟨1, _⟩ => rfl)
  rw [el, er, shapeCast_self, shapeCast_self]
  rfl

end Cert.KernelIdeal.RegionValue
-- ==== Proof.RegionMatmul.lean ====
/-
  The matmul region's two outputs as host matrix products.

  The grid has ten points; point t reads rows 1000 t … 1000 t + 999 of the activations (10000 × 64) and both weight
  matrices whole, and writes rows 1000 t … 1000 t + 999 of each output. Element (p, q) of what point t writes is
  ∑ k < 64, a(1000 t + p, k) · w(k, q), which is element (1000 t + p, q) of the host product of the whole arrays; the
  ten row blocks cover every row (row r belongs to point r / 1000), so after the last point each output array IS the
  host product.
-/
import proofs.«115934_j80315888435553_1_alg».proof.Proof.Gen.KernelIdeal.Frame
import proofs.«115934_j80315888435553_1_alg».proof.Proof.Spec
import proofs.«115934_j80315888435553_1_alg».proof.Proof.RegionMatmulPay
import Idealize.ShloMosaic.PureOps.Ideal.Laws
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided once over the ten grid points: the row-blocked windows sit at block (t, 0),
    the two weight windows at block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem point_lt (t : Fin cfg2.N) : t.val < 10 := lt_of_lt_of_eq t.isLt N_2

/-- Row p of grid point t's block is row 1000 t + p of the array. -/
def rowOf (t : Fin cfg2.N) (p : Fin 1000) : Fin 10000 := ⟨t.val * 1000 + p.val, by have := point_lt t; omega⟩

/-- The activations' block at point t, read at (p, k). -/
theorem act_block_apply (c : Dev nD) (t : Fin cfg2.N) (p : Fin 1000) (k : Fin 64) :
    iblk2 V c 0 t (ix2 p k) = V c main_v59 (ix2 (rowOf t p) k) := by
  show V c main_v59 (((cfg2.win 0).blk t).view.emb (ix2 p k)) = _
  obtain ⟨e0, e1, -⟩ := index_facts t
  refine congrArg _ (funext fun a => Fin.ext ?_)
  match a with
  | ⟨0, _⟩ => show win2_0.index t (0 : Fin 2) * 1000 + 1 * p.val = t.val * 1000 + p.val; omega
  | ⟨1, _⟩ => show win2_0.index t (1 : Fin 2) * 64 + 1 * k.val = k.val; omega

/-- The 64 × 64 weights' block at any point is the whole array. -/
theorem wbase_block_apply (c : Dev nD) (t : Fin cfg2.N) (k : Fin 64) (q : Fin 64) :
    iblk2 V c 2 t (ix2 k q) = V c main_v82 (ix2 k q) := by
  show V c main_v82 (((cfg2.win 2).blk t).view.emb (ix2 k q)) = _
  obtain ⟨-, -, -, -, e0, e1, -⟩ := index_facts t
  refine congrArg _ (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-- What grid point t writes back to the 10000 × 64 output is block t of the host product. -/
theorem base_flushed_eq (c : Dev nD) (t : Fin cfg2.N) :
    (dat2 V c).flushed 4 t = ((cfg2.win 4).blk t).view.read (Elt Ideal)
      (Host.dotGeneral (F := Ideal) (φ₁ := .f32) (φ₂ := .f32) Cert.ReferenceIdeal.dot_S10000x64_S64x64_S10000x64_1_0_0_1_n_n none (V c main_v59) (V c main_v82)) := by
  show (cfg2.win 4).cut (grid2.coords t) ((dat2 V c).after 4 t) = _
  rw [after2_4]
  unfold out2_4
  rw [View.canon_unit_zero zero_offsets]
  simp only [View.ld_unit_zero (S := S1000x64) zero_offsets, View.ld_unit_zero (S := S64x64) zero_offsets]
  funext j
  obtain ⟨p, q, rfl⟩ : ∃ (p : Fin 1000) (q : Fin 64), j = ix2 p q := ⟨j 0, j 1, eq_ix2 j⟩
  show k2_pay3 (iblk2 V c 0 t) (iblk2 V c 2 t) (ix2 p q)
    = Host.dotGeneral (F := Ideal) (φ₁ := .f32) (φ₂ := .f32) Cert.ReferenceIdeal.dot_S10000x64_S64x64_S10000x64_1_0_0_1_n_n none (V c main_v59) (V c main_v82)
        (((cfg2.win 4).blk t).view.emb (ix2 p q))
  have e4 : ((cfg2.win 4).blk t).view.emb (ix2 p q) = ix2 (rowOf t p) q := by
    obtain ⟨-, -, -, -, -, -, -, -, e0, e1⟩ := index_facts t
    refine funext fun a => Fin.ext ?_
    match a with
    | ⟨0, _⟩ => show win2_4.index t (0 : Fin 2) * 1000 + 1 * p.val = t.val * 1000 + p.val; omega
    | ⟨1, _⟩ => show win2_4.index t (1 : Fin 2) * 64 + 1 * q.val = q.val; omega
  rw [e4]
  refine (pay_base_apply _ _ p q).trans ((host_base_apply _ _ (rowOf t p) q).trans ?_).symm
  exact Finset.sum_congr rfl fun k _ => by rw [act_block_apply, wbase_block_apply]

/-- An index of the 10000 × 64 output is in point t's block iff each coordinate is in the block's range. -/
theorem base_mem_blk (t : Fin cfg2.N) (i : S10000x64.Idx) :
    i ∈ ((cfg2.win 4).blk t).view.set ↔ ∀ a : Fin 2, win2_4.index t a * S1000x64.size a ≤ (i a).val ∧ (i a).val < win2_4.index t a * S1000x64.size a + S1000x64.size a := by
  show i ∈ ((View.whole main_v83_1).slice (win2_4.rect t)).set ↔ _
  rw [View.set_slice_whole, Rect.mem_set_unit]
  exact Iff.rfl

/-- Row r of the output is written by grid point r / 1000. -/
theorem base_cover (i : S10000x64.Idx) : ∃ t : Fin cfg2.N, (cfg2.win 4).flush t = true ∧ i ∈ ((cfg2.win 4).blk t).view.set := by
  have hi0 : (i 0).val < 10000 := (i 0).isLt
  have hi1 : (i 1).val < 64 := (i 1).isLt
  have hN : (i 0).val / 1000 < cfg2.N := lt_of_lt_of_eq (by omega : (i 0).val / 1000 < 10) N_2.symm
  refine ⟨⟨(i 0).val / 1000, hN⟩, flush2_4 _, ?_⟩
  obtain ⟨-, -, -, -, -, -, -, -, e0, e1⟩ := index_facts ⟨(i 0).val / 1000, hN⟩
  rw [base_mem_blk]
  intro a
  match a with
  | ⟨0, _⟩ => show win2_4.index ⟨(i 0).val / 1000, hN⟩ (0 : Fin 2) * 1000 ≤ (i 0).val ∧ (i 0).val < win2_4.index ⟨(i 0).val / 1000, hN⟩ (0 : Fin 2) * 1000 + 1000; rw [e0]; show (i 0).val / 1000 * 1000 ≤ (i 0).val ∧ (i 0).val < (i 0).val / 1000 * 1000 + 1000; omega
  | ⟨1, _⟩ => show win2_4.index ⟨(i 0).val / 1000, hN⟩ (1 : Fin 2) * 64 ≤ (i 1).val ∧ (i 1).val < win2_4.index ⟨(i 0).val / 1000, hN⟩ (1 : Fin 2) * 64 + 64; omega

/-- The region's second output, after all ten grid points: the activations times the 64 × 64 weights. -/
theorem mm_base_final (c : Dev nD) : (Gen.dat2 (F := Ideal) V c).arrAt 4 cfg2.N
    = Host.dotGeneral (F := Ideal) (φ₁ := .f32) (φ₂ := .f32) Cert.ReferenceIdeal.dot_S10000x64_S64x64_S10000x64_1_0_0_1_n_n none (V c main_v59) (V c main_v82) :=
  (dat2 V c).arrAt_eq_of_cover 4 _ (fun t _ => base_flushed_eq V c t) base_cover

/-- The 64 × 3200 weights' block at any point is the whole array. -/
theorem wproj_block_apply (c : Dev nD) (t : Fin cfg2.N) (k : Fin 64) (q : Fin 3200) :
    iblk2 V c 1 t (ix2 k q) = V c main_v81 (ix2 k q) := by
  show V c main_v81 (((cfg2.win 1).blk t).view.emb (ix2 k q)) = _
  obtain ⟨-, -, e0, e1, -⟩ := index_facts t
  refine congrArg _ (funext fun a => Fin.ext ?_)
  match a with
  | ⟨0, _⟩ => show win2_1.index t (0 : Fin 2) * 64 + 1 * k.val = k.val; omega
  | ⟨1, _⟩ => show win2_1.index t (1 : Fin 2) * 3200 + 1 * q.val = q.val; omega

/-- What grid point t writes back to the 10000 × 3200 output is block t of the host product. -/
theorem proj_flushed_eq (c : Dev nD) (t : Fin cfg2.N) :
    (dat2 V c).flushed 3 t = ((cfg2.win 3).blk t).view.read (Elt Ideal)
      (Host.dotGeneral (F := Ideal) (φ₁ := .f32) (φ₂ := .f32) Cert.ReferenceIdeal.dot_S10000x64_S64x3200_S10000x3200_1_0_0_1_n_n none (V c main_v59) (V c main_v81)) := by
  show (cfg2.win 3).cut (grid2.coords t) ((dat2 V c).after 3 t) = _
  rw [after2_3]
  unfold out2_3
  rw [View.canon_unit_zero zero_offsets]
  simp only [View.ld_unit_zero (S := S1000x64) zero_offsets, View.ld_unit_zero (S := S64x3200) zero_offsets]
  funext j
  obtain ⟨p, q, rfl⟩ : ∃ (p : Fin 1000) (q : Fin 3200), j = ix2 p q := ⟨j 0, j 1, eq_ix2 j⟩
  show k2_pay2 (iblk2 V c 0 t) (iblk2 V c 1 t) (ix2 p q)
    = Host.dotGeneral (F := Ideal) (φ₁ := .f32) (φ₂ := .f32) Cert.ReferenceIdeal.dot_S10000x64_S64x3200_S10000x3200_1_0_0_1_n_n none (V c main_v59) (V c main_v81)
        (((cfg2.win 3).blk t).view.emb (ix2 p q))
  have e3 : ((cfg2.win 3).blk t).view.emb (ix2 p q) = ix2 (rowOf t p) q := by
    obtain ⟨-, -, -, -, -, -, e0, e1, -⟩ := index_facts t
    refine funext fun a => Fin.ext ?_
    match a with
    | ⟨0, _⟩ => show win2_3.index t (0 : Fin 2) * 1000 + 1 * p.val = t.val * 1000 + p.val; omega
    | ⟨1, _⟩ => show win2_3.index t (1 : Fin 2) * 3200 + 1 * q.val = q.val; omega
  rw [e3]
  refine (pay_proj_apply _ _ p q).trans ((host_proj_apply _ _ (rowOf t p) q).trans ?_).symm
  exact Finset.sum_congr rfl fun k _ => by rw [act_block_apply, wproj_block_apply]

/-- An index of the 10000 × 3200 output is in point t's block iff each coordinate is in the block's range. -/
theorem proj_mem_blk (t : Fin cfg2.N) (i : S10000x3200.Idx) :
    i ∈ ((cfg2.win 3).blk t).view.set ↔ ∀ a : Fin 2, win2_3.index t a * S1000x3200.size a ≤ (i a).val ∧ (i a).val < win2_3.index t a * S1000x3200.size a + S1000x3200.size a := by
  show i ∈ ((View.whole main_v83_0).slice (win2_3.rect t)).set ↔ _
  rw [View.set_slice_whole, Rect.mem_set_unit]
  exact Iff.rfl

/-- Row r of the output is written by grid point r / 1000. -/
theorem proj_cover (i : S10000x3200.Idx) : ∃ t : Fin cfg2.N, (cfg2.win 3).flush t = true ∧ i ∈ ((cfg2.win 3).blk t).view.set := by
  have hi0 : (i 0).val < 10000 := (i 0).isLt
  have hi1 : (i 1).val < 3200 := (i 1).isLt
  have hN : (i 0).val / 1000 < cfg2.N := lt_of_lt_of_eq (by omega : (i 0).val / 1000 < 10) N_2.symm
  refine ⟨⟨(i 0).val / 1000, hN⟩, flush2_3 _, ?_⟩
  obtain ⟨-, -, -, -, -, -, e0, e1, -⟩ := index_facts ⟨(i 0).val / 1000, hN⟩
  rw [proj_mem_blk]
  intro a
  match a with
  | ⟨0, _⟩ => show win2_3.index ⟨(i 0).val / 1000, hN⟩ (0 : Fin 2) * 1000 ≤ (i 0).val ∧ (i 0).val < win2_3.index ⟨(i 0).val / 1000, hN⟩ (0 : Fin 2) * 1000 + 1000; rw [e0]; show (i 0).val / 1000 * 1000 ≤ (i 0).val ∧ (i 0).val < (i 0).val / 1000 * 1000 + 1000; omega
  | ⟨1, _⟩ => show win2_3.index ⟨(i 0).val / 1000, hN⟩ (1 : Fin 2) * 3200 ≤ (i 1).val ∧ (i 1).val < win2_3.index ⟨(i 0).val / 1000, hN⟩ (1 : Fin 2) * 3200 + 3200; omega

/-- The region's first output, after all ten grid points: the activations times the 64 × 3200 weights. -/
theorem mm_proj_final (c : Dev nD) : (Gen.dat2 (F := Ideal) V c).arrAt 3 cfg2.N
    = Host.dotGeneral (F := Ideal) (φ₁ := .f32) (φ₂ := .f32) Cert.ReferenceIdeal.dot_S10000x64_S64x3200_S10000x3200_1_0_0_1_n_n none (V c main_v59) (V c main_v81) :=
  (dat2 V c).arrAt_eq_of_cover 3 _ (fun t _ => proj_flushed_eq V c t) proj_cover

end Cert.KernelIdeal.RegionValue
-- ==== Proof.KerValue.lean ====
/-
  The idealized kernel program's run with its two results as functions of the arguments, on the extended reals.

  The last boundary's contents at the result buffers (the chain through the ten segments) with each region's
  output array given by its value lemma: the two sums, the two activations, the two matrix products.  The
  first result is then rewritten from the kernel's spelling to the reference's (the identity-matrix
  products and the activation's two spellings).
-/
import proofs.«115934_j80315888435553_1_alg».proof.Proof.KerRun
import proofs.«115934_j80315888435553_1_alg».proof.Proof.KerChain
import proofs.«115934_j80315888435553_1_alg».proof.Proof.Bridge
import proofs.«115934_j80315888435553_1_alg».proof.Proof.IdealAlgebra
import proofs.«115934_j80315888435553_1_alg».proof.Proof.RegionAdd
import proofs.«115934_j80315888435553_1_alg».proof.Proof.RegionLeaky
import proofs.«115934_j80315888435553_1_alg».proof.Proof.RegionMatmul

set_option maxRecDepth 16384

noncomputable section

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first result buffer at the return, in the reference's spelling. -/
theorem out1 (c : Dev nD) :
    W10 m ρ c (main_v114 : DevRef τ sig)
      = Cert.Spec.refOut (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg8))
          (m ((c : Thread nD τ).loc main_arg9)) (m ((c : Thread nD τ).loc main_arg10)) :=
  (Chain.out1 m ρ c
      ((W2_arr m ρ c 2).trans (RegionValue.add0_final (V1 m ρ) c))
      ((W4_arr m ρ c 1).trans (RegionValue.leaky1_final (V3 m ρ) c))
      ((W6_arr m ρ c 3).trans (RegionValue.mm_proj_final (V5 m ρ) c))
      ((W6_arr m ρ c 4).trans (RegionValue.mm_base_final (V5 m ρ) c))
      ((W8_arr m ρ c 2).trans (RegionValue.add3_final (V7 m ρ) c))
      ((W10_arr m ρ c 1).trans (RegionValue.leaky4_final (V9 m ρ) c))).trans
    (Cert.Spec.kerOut_eq_refOut Cert.Spec.eye_dot_proj Cert.Spec.eye_dot_base Cert.Spec.leakyK_eq_leaky _ _ _ _ _ _ _ _ _ _)

/-- Every weakly fair execution terminates with the two results at the reference's functions of the arguments and
    the arguments as launched. -/
theorem run : θ_run defs (onTc (τ := τ) (main (F := Ideal))) ⟨m, fun _ => 0, ρ⟩ (fun r => ∀ c : Dev nD,
      r.2.mem ((c.tc : Thread nD τ).loc main_v114)
        = Cert.Spec.refOut (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg8))
            (m ((c.tc : Thread nD τ).loc main_arg9)) (m ((c.tc : Thread nD τ).loc main_arg10))
      ∧ r.2.mem ((c.tc : Thread nD τ).loc main_v80)
        = Cert.Spec.relOut (F := Ideal) (m ((c.tc : Thread nD τ).loc main_arg3)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun r h c => ⟨(h c).1.trans (out1 m ρ c), (h c).2.1.trans (Chain.out2 m ρ c), (h c).2.2⟩)
    (Cert.KernelIdeal.Run.run_vals m ρ)

end Cert.KernelIdeal.Value

end
-- ==== Proof.RefRun.lean ====
/-
  The reference program's run.

  The reference is a straight line of host tensor operations: its three printed windows in order, with the
  two calls of the outlined activation (whose body calls the outlined selection) replaced by the callee's
  operations over the call's own buffers.  It is listed here as seven consecutive stretches, `ops` their
  concatenation, and shown to be the program itself; the run of a straight line then says that every weakly
  fair execution terminates with each buffer at the fold of the operations over the launch contents.
-/
import proofs.«115934_j80315888435553_1_alg».proof.Proof.Spec
import proofs.«115934_j80315888435553_1_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem
open Idealize.ShloMosaic.StableHlo
open Cert.ReferenceIdeal.Facts₀ Cert.ReferenceIdeal.Facts

variable {F : FTy → Type} [FloatOps F]

/-! ## The operations -/

/-- The identity matrices, layer 0's two projections, the diagonal's index table and rows, the (head, relation) table and the entity-side messages: operations 1 … 60. -/
abbrev ops0 : List (HloOp τ sig (Elt F)) :=
  [ StableHlo.nullary main_v0 (iotaInDim S10000x10000 32 0),
    StableHlo.nullary main_v1 (iotaInDim S10000x10000 32 1),
    StableHlo.nullary main_c (constantI S_ 32 0#32),
    StableHlo.unary main_c main_v2 (broadcastInDim S10000x10000 ![] bcast_S_S10000x10000 : (⟨S_, .i32⟩ : BufTy).Contents (Elt F) → (⟨S10000x10000, .i32⟩ : BufTy).Contents (Elt F)),
    StableHlo.binary main_v0 main_v2 main_v3 (addi : (⟨S10000x10000, .i32⟩ : BufTy).Contents (Elt F) → (⟨S10000x10000, .i32⟩ : BufTy).Contents (Elt F) → (⟨S10000x10000, .i32⟩ : BufTy).Contents (Elt F)),
    StableHlo.binary main_v3 main_v1 main_v4 (cmpi .eq : (⟨S10000x10000, .i32⟩ : BufTy).Contents (Elt F) → (⟨S10000x10000, .i32⟩ : BufTy).Contents (Elt F) → (⟨S10000x10000, .i1⟩ : BufTy).Contents (Elt F)),
    StableHlo.unary main_v4 main_v5 (uitofp .f32 : (⟨S10000x10000, .i1⟩ : BufTy).Contents (Elt F) → (⟨S10000x10000, .f32⟩ : BufTy).Contents (Elt F)),
    StableHlo.nullary main_v6 (iotaInDim S50x50 32 0),
    StableHlo.nullary main_v7 (iotaInDim S50x50 32 1),
    StableHlo.nullary main_c_0 (constantI S_ 32 0#32),
    StableHlo.unary main_c_0 main_v8 (broadcastInDim S50x50 ![] bcast_S_S50x50 : (⟨S_, .i32⟩ : BufTy).Contents (Elt F) → (⟨S50x50, .i32⟩ : BufTy).Contents (Elt F)),
    StableHlo.binary main_v6 main_v8 main_v9 (addi : (⟨S50x50, .i32⟩ : BufTy).Contents (Elt F) → (⟨S50x50, .i32⟩ : BufTy).Contents (Elt F) → (⟨S50x50, .i32⟩ : BufTy).Contents (Elt F)),
    StableHlo.binary main_v9 main_v7 main_v10 (cmpi .eq : (⟨S50x50, .i32⟩ : BufTy).Contents (Elt F) → (⟨S50x50, .i32⟩ : BufTy).Contents (Elt F) → (⟨S50x50, .i1⟩ : BufTy).Contents (Elt F)),
    StableHlo.unary main_v10 main_v11 (uitofp .f32 : (⟨S50x50, .i1⟩ : BufTy).Contents (Elt F) → (⟨S50x50, .f32⟩ : BufTy).Contents (Elt F)),
    StableHlo.unary main_arg1 main_v12 ((transpose S10000x3200 [1, 0] · transposes_S3200x10000_S10000x3200_1_0) : (⟨S3200x10000, .f32⟩ : BufTy).Contents (Elt F) → (⟨S10000x3200, .f32⟩ : BufTy).Contents (Elt F)),
    StableHlo.binary main_v5 main_v12 main_v13 ((fun l r => Host.dotGeneral dot_S10000x10000_S10000x3200_S10000x3200_1_0_0_1_n_n none l r) : (⟨S10000x10000, .f32⟩ : BufTy).Contents (Elt F) → (⟨S10000x3200, .f32⟩ : BufTy).Contents (Elt F) → (⟨S10000x3200, .f32⟩ : BufTy).Contents (Elt F)),
    StableHlo.reshape main_v13 main_v14 rfl shapeCasts_S10000x3200_S10000x50x64,
    StableHlo.unary main_arg2 main_v15 ((transpose S50x3200 [1, 0] · transposes_S3200x50_S50x3200_1_0) : (⟨S3200x50, .f32⟩ : BufTy).Contents (Elt F) → (⟨S50x3200, .f32⟩ : BufTy).Contents (Elt F)),
    StableHlo.binary main_v11 main_v15 main_v16 ((fun l r => Host.dotGeneral dot_S50x50_S50x3200_S50x3200_1_0_0_1_n_n none l r) : (⟨S50x50, .f32⟩ : BufTy).Contents (Elt F) → (⟨S50x3200, .f32⟩ : BufTy).Contents (Elt F) → (⟨S50x3200, .f32⟩ : BufTy).Contents (Elt F)),
    StableHlo.reshape main_v16 main_v17 rfl shapeCasts_S50x3200_S50x50x64,
    StableHlo.nullary main_v18 (iotaInDim S50 32 0),
    StableHlo.nullary main_v19 (iotaInDim S50 32 0),
    StableHlo.nullary main_c_1 (constantI S_ 32 0#32),
    StableHlo.unary main_c_1 main_v20 (broadcastInDim S50 ![] bcast_S_S50 : (⟨S_, .i32⟩ : BufTy).Contents (Elt F) → (⟨S50, .i32⟩ : BufTy).Contents (Elt F)),
    StableHlo.binary main_v18 main_v20 main_v21 (cmpi .slt : (⟨S50, .i32⟩ : BufTy).Contents (Elt F) → (⟨S50, .i32⟩ : BufTy).Contents (Elt F) → (⟨S50, .i1⟩ : BufTy).Contents (Elt F)),
    StableHlo.nullary main_c_2 (constantI S_ 32 50#32),
    StableHlo.unary main_c_2 main_v22 (broadcastInDim S50 ![] bcast_S_S50 : (⟨S_, .i32⟩ : BufTy).Contents (Elt F) → (⟨S50, .i32⟩ : BufTy).Contents (Elt F)),
    StableHlo.binary main_v18 main_v22 main_v23 (addi : (⟨S50, .i32⟩ : BufTy).Contents (Elt F) → (⟨S50, .i32⟩ : BufTy).Contents (Elt F) → (⟨S50, .i32⟩ : BufTy).Contents (Elt F)),
    StableHlo.ternary main_v21 main_v23 main_v18 main_v24 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    StableHlo.nullary main_c_3 (constantI S_ 32 0#32),
    StableHlo.unary main_c_3 main_v25 (broadcastInDim S50 ![] bcast_S_S50 : (⟨S_, .i32⟩ : BufTy).Contents (Elt F) → (⟨S50, .i32⟩ : BufTy).Contents (Elt F)),
    StableHlo.binary main_v19 main_v25 main_v26 (cmpi .slt : (⟨S50, .i32⟩ : BufTy).Contents (Elt F) → (⟨S50, .i32⟩ : BufTy).Contents (Elt F) → (⟨S50, .i1⟩ : BufTy).Contents (Elt F)),
    StableHlo.nullary main_c_4 (constantI S_ 32 50#32),
    StableHlo.unary main_c_4 main_v27 (broadcastInDim S50 ![] bcast_S_S50 : (⟨S_, .i32⟩ : BufTy).Contents (Elt F) → (⟨S50, .i32⟩ : BufTy).Contents (Elt F)),
    StableHlo.binary main_v19 main_v27 main_v28 (addi : (⟨S50, .i32⟩ : BufTy).Contents (Elt F) → (⟨S50, .i32⟩ : BufTy).Contents (Elt F) → (⟨S50, .i32⟩ : BufTy).Contents (Elt F)),
    StableHlo.ternary main_v26 main_v28 main_v19 main_v29 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    StableHlo.unary main_v24 main_v30 (broadcastInDim S50x1 ![0] bcast_S50_S50x1_0 : (⟨S50, .i32⟩ : BufTy).Contents (Elt F) → (⟨S50x1, .i32⟩ : BufTy).Contents (Elt F)),
    StableHlo.unary main_v29 main_v31 (broadcastInDim S50x1 ![0] bcast_S50_S50x1_0 : (⟨S50, .i32⟩ : BufTy).Contents (Elt F) → (⟨S50x1, .i32⟩ : BufTy).Contents (Elt F)),
    StableHlo.binary main_v30 main_v31 main_v32 ((fun a b => concatenate S50x2 1 [⟨S50x1, a⟩, ⟨S50x1, b⟩] concatenates_S50x1_S50x1_S50x2_d1) : (⟨S50x1, .i32⟩ : BufTy).Contents (Elt F) → (⟨S50x1, .i32⟩ : BufTy).Contents (Elt F) → (⟨S50x2, .i32⟩ : BufTy).Contents (Elt F)),
    StableHlo.binary main_v17 main_v32 main_v33 ((fun x i => Host.gather gather_S50x50x64_S50x2_S50x64_1_01_n_n_01_1_1164 x i) : (⟨S50x50x64, .f32⟩ : BufTy).Contents (Elt F) → (⟨S50x2, .i32⟩ : BufTy).Contents (Elt F) → (⟨S50x64, .f32⟩ : BufTy).Contents (Elt F)),
    StableHlo.nullary main_c_5 (constantI S_ 32 0#32),
    StableHlo.unary main_c_5 main_v34 (broadcastInDim S500000 ![] bcast_S_S500000 : (⟨S_, .i32⟩ : BufTy).Contents (Elt F) → (⟨S500000, .i32⟩ : BufTy).Contents (Elt F)),
    StableHlo.binary main_arg8 main_v34 main_v35 (cmpi .slt : (⟨S500000, .i32⟩ : BufTy).Contents (Elt F) → (⟨S500000, .i32⟩ : BufTy).Contents (Elt F) → (⟨S500000, .i1⟩ : BufTy).Contents (Elt F)),
    StableHlo.nullary main_c_6 (constantI S_ 32 10000#32),
    StableHlo.unary main_c_6 main_v36 (broadcastInDim S500000 ![] bcast_S_S500000 : (⟨S_, .i32⟩ : BufTy).Contents (Elt F) → (⟨S500000, .i32⟩ : BufTy).Contents (Elt F)),
    StableHlo.binary main_arg8 main_v36 main_v37 (addi : (⟨S500000, .i32⟩ : BufTy).Contents (Elt F) → (⟨S500000, .i32⟩ : BufTy).Contents (Elt F) → (⟨S500000, .i32⟩ : BufTy).Contents (Elt F)),
    StableHlo.ternary main_v35 main_v37 main_arg8 main_v38 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_7 (constantI S_ 32 0#32),
    StableHlo.unary main_c_7 main_v39 (broadcastInDim S500000 ![] bcast_S_S500000 : (⟨S_, .i32⟩ : BufTy).Contents (Elt F) → (⟨S500000, .i32⟩ : BufTy).Contents (Elt F)),
    StableHlo.binary main_arg9 main_v39 main_v40 (cmpi .slt : (⟨S500000, .i32⟩ : BufTy).Contents (Elt F) → (⟨S500000, .i32⟩ : BufTy).Contents (Elt F) → (⟨S500000, .i1⟩ : BufTy).Contents (Elt F)),
    StableHlo.nullary main_c_8 (constantI S_ 32 50#32),
    StableHlo.unary main_c_8 main_v41 (broadcastInDim S500000 ![] bcast_S_S500000 : (⟨S_, .i32⟩ : BufTy).Contents (Elt F) → (⟨S500000, .i32⟩ : BufTy).Contents (Elt F)),
    StableHlo.binary main_arg9 main_v41 main_v42 (addi : (⟨S500000, .i32⟩ : BufTy).Contents (Elt F) → (⟨S500000, .i32⟩ : BufTy).Contents (Elt F) → (⟨S500000, .i32⟩ : BufTy).Contents (Elt F)),
    StableHlo.ternary main_v40 main_v42 main_arg9 main_v43 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v38 main_v44 (broadcastInDim S500000x1 ![0] bcast_S500000_S500000x1_0 : (⟨S500000, .i32⟩ : BufTy).Contents (Elt F) → (⟨S500000x1, .i32⟩ : BufTy).Contents (Elt F)),
    StableHlo.unary main_v43 main_v45 (broadcastInDim S500000x1 ![0] bcast_S500000_S500000x1_0 : (⟨S500000, .i32⟩ : BufTy).Contents (Elt F) → (⟨S500000x1, .i32⟩ : BufTy).Contents (Elt F)),
    StableHlo.binary main_v44 main_v45 main_v46 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_v14 main_v46 main_v47 ((fun x i => Host.gather gather_S10000x50x64_S500000x2_S500000x64_1_01_n_n_01_1_1164 x i) : (⟨S10000x50x64, .f32⟩ : BufTy).Contents (Elt F) → (⟨S500000x2, .i32⟩ : BufTy).Contents (Elt F) → (⟨S500000x64, .f32⟩ : BufTy).Contents (Elt F)),
    StableHlo.nullary main_c_9 (constantI S_ 32 0#32),
    StableHlo.unary main_c_9 main_v48 (broadcastInDim S500000 ![] bcast_S_S500000 : (⟨S_, .i32⟩ : BufTy).Contents (Elt F) → (⟨S500000, .i32⟩ : BufTy).Contents (Elt F)) ]

/-- Layer 0's relation-side messages, their sum with the entity-side ones, the residual product, the tail table, the scatter-add, and the activation's slope. -/
abbrev ops1a : List (HloOp τ sig (Elt F)) :=
  [ StableHlo.binary main_arg9 main_v48 main_v49 (cmpi .slt : (⟨S500000, .i32⟩ : BufTy).Contents (Elt F) → (⟨S500000, .i32⟩ : BufTy).Contents (Elt F) → (⟨S500000, .i1⟩ : BufTy).Contents (Elt F)),
    StableHlo.nullary main_c_10 (constantI S_ 32 50#32),
    StableHlo.unary main_c_10 main_v50 (broadcastInDim S500000 ![] bcast_S_S500000 : (⟨S_, .i32⟩ : BufTy).Contents (Elt F) → (⟨S500000, .i32⟩ : BufTy).Contents (Elt F)),
    StableHlo.binary main_arg9 main_v50 main_v51 (addi : (⟨S500000, .i32⟩ : BufTy).Contents (Elt F) → (⟨S500000, .i32⟩ : BufTy).Contents (Elt F) → (⟨S500000, .i32⟩ : BufTy).Contents (Elt F)),
    StableHlo.ternary main_v49 main_v51 main_arg9 main_v52 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v52 main_v53 (broadcastInDim S500000x1 ![0] bcast_S500000_S500000x1_0 : (⟨S500000, .i32⟩ : BufTy).Contents (Elt F) → (⟨S500000x1, .i32⟩ : BufTy).Contents (Elt F)),
    StableHlo.binary main_v33 main_v53 main_v54 ((fun x i => Host.gather gather_S50x64_S500000x1_S500000x64_1_0_n_n_0_1_164 x i) : (⟨S50x64, .f32⟩ : BufTy).Contents (Elt F) → (⟨S500000x1, .i32⟩ : BufTy).Contents (Elt F) → (⟨S500000x64, .f32⟩ : BufTy).Contents (Elt F)),
    StableHlo.binary main_v47 main_v54 main_v55 (addf : (⟨S500000x64, .f32⟩ : BufTy).Contents (Elt F) → (⟨S500000x64, .f32⟩ : BufTy).Contents (Elt F) → (⟨S500000x64, .f32⟩ : BufTy).Contents (Elt F)),
    StableHlo.unary main_arg0 main_v56 ((transpose S10000x64 [1, 0] · transposes_S64x10000_S10000x64_1_0) : (⟨S64x10000, .f32⟩ : BufTy).Contents (Elt F) → (⟨S10000x64, .f32⟩ : BufTy).Contents (Elt F)),
    StableHlo.binary main_v5 main_v56 main_v57 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    StableHlo.nullary main_c_11 (constantI S_ 32 0#32),
    StableHlo.unary main_c_11 main_v58 (broadcastInDim S500000 ![] bcast_S_S500000 : (⟨S_, .i32⟩ : BufTy).Contents (Elt F) → (⟨S500000, .i32⟩ : BufTy).Contents (Elt F)),
    StableHlo.binary main_arg10 main_v58 main_v59 (cmpi .slt : (⟨S500000, .i32⟩ : BufTy).Contents (Elt F) → (⟨S500000, .i32⟩ : BufTy).Contents (Elt F) → (⟨S500000, .i1⟩ : BufTy).Contents (Elt F)),
    StableHlo.nullary main_c_12 (constantI S_ 32 10000#32),
    StableHlo.unary main_c_12 main_v60 (broadcastInDim S500000 ![] bcast_S_S500000 : (⟨S_, .i32⟩ : BufTy).Contents (Elt F) → (⟨S500000, .i32⟩ : BufTy).Contents (Elt F)),
    StableHlo.binary main_arg10 main_v60 main_v61 (addi : (⟨S500000, .i32⟩ : BufTy).Contents (Elt F) → (⟨S500000, .i32⟩ : BufTy).Contents (Elt F) → (⟨S500000, .i32⟩ : BufTy).Contents (Elt F)),
    StableHlo.ternary main_v59 main_v61 main_arg10 main_v62 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v62 main_v63 (broadcastInDim S500000x1 ![0] bcast_S500000_S500000x1_0 : (⟨S500000, .i32⟩ : BufTy).Contents (Elt F) → (⟨S500000x1, .i32⟩ : BufTy).Contents (Elt F)),
    StableHlo.ternary main_v57 main_v63 main_v55 main_v64 ((fun x i u => Host.scatterAdd scatter_S10000x64_S500000x1_S500000x64_1_0_0_1 x i u) : (⟨S10000x64, .f32⟩ : BufTy).Contents (Elt F) → (⟨S500000x1, .i32⟩ : BufTy).Contents (Elt F) → (⟨S500000x64, .f32⟩ : BufTy).Contents (Elt F) → (⟨S10000x64, .f32⟩ : BufTy).Contents (Elt F)),
    StableHlo.nullary main_cst (constant S_ .f32 0x3C23D70A#32) ]

/-- Layer 0's activation, the outlined function's body at the call: zero, its broadcast, the comparison, the slope converted and broadcast, the product, and the selection (the inner function's one operation); each over the call's own buffer, whose type is the value's. -/
abbrev opsCall0 : List (HloOp τ sig (Elt F)) :=
  [ StableHlo.nullary main_call0_cst (constant S_ .f32 0x00000000#32),
    StableHlo.unary main_call0_cst main_call0_v0 (broadcastInDim S10000x64 ![] bcast_S_S10000x64 : (⟨S_, .f32⟩ : BufTy).Contents (Elt F) → (⟨S10000x64, .f32⟩ : BufTy).Contents (Elt F)),
    StableHlo.binary main_v64 main_call0_v0 main_call0_v1 (cmpf .oge : (⟨S10000x64, .f32⟩ : BufTy).Contents (Elt F) → (⟨S10000x64, .f32⟩ : BufTy).Contents (Elt F) → (⟨S10000x64, .i1⟩ : BufTy).Contents (Elt F)),
    StableHlo.unary main_cst main_call0_v2 (id : (⟨S_, .f32⟩ : BufTy).Contents (Elt F) → (⟨S_, .f32⟩ : BufTy).Contents (Elt F)),
    StableHlo.unary main_call0_v2 main_call0_v3 (broadcastInDim S10000x64 ![] bcast_S_S10000x64 : (⟨S_, .f32⟩ : BufTy).Contents (Elt F) → (⟨S10000x64, .f32⟩ : BufTy).Contents (Elt F)),
    StableHlo.binary main_call0_v3 main_v64 main_call0_v4 (mulf : (⟨S10000x64, .f32⟩ : BufTy).Contents (Elt F) → (⟨S10000x64, .f32⟩ : BufTy).Contents (Elt F) → (⟨S10000x64, .f32⟩ : BufTy).Contents (Elt F)),
    StableHlo.ternary main_call0_v1 main_v64 main_call0_v4 main_v65 (select : (⟨S10000x64, .i1⟩ : BufTy).Contents (Elt F) → (⟨S10000x64, .f32⟩ : BufTy).Contents (Elt F) → (⟨S10000x64, .f32⟩ : BufTy).Contents (Elt F) → (⟨S10000x64, .f32⟩ : BufTy).Contents (Elt F)) ]

/-- The relation embeddings after layer 0, layer 1's two projections, and its diagonal, up to the first index constants of the (head, relation) table. -/
abbrev ops1c : List (HloOp τ sig (Elt F)) :=
  [ StableHlo.unary main_arg3 main_v66 ((transpose S50x64 [1, 0] · transposes_S64x50_S50x64_1_0) : (⟨S64x50, .f32⟩ : BufTy).Contents (Elt F) → (⟨S50x64, .f32⟩ : BufTy).Contents (Elt F)),
    StableHlo.binary main_v11 main_v66 main_v67 ((fun l r => Host.dotGeneral dot_S50x50_S50x64_S50x64_1_0_0_1_n_n none l r) : (⟨S50x50, .f32⟩ : BufTy).Contents (Elt F) → (⟨S50x64, .f32⟩ : BufTy).Contents (Elt F) → (⟨S50x64, .f32⟩ : BufTy).Contents (Elt F)),
    StableHlo.unary main_arg5 main_v68 ((transpose S64x3200 [1, 0] · transposes_S3200x64_S64x3200_1_0) : (⟨S3200x64, .f32⟩ : BufTy).Contents (Elt F) → (⟨S64x3200, .f32⟩ : BufTy).Contents (Elt F)),
    StableHlo.binary main_v65 main_v68 main_v69 ((fun l r => Host.dotGeneral dot_S10000x64_S64x3200_S10000x3200_1_0_0_1_n_n none l r) : (⟨S10000x64, .f32⟩ : BufTy).Contents (Elt F) → (⟨S64x3200, .f32⟩ : BufTy).Contents (Elt F) → (⟨S10000x3200, .f32⟩ : BufTy).Contents (Elt F)),
    StableHlo.reshape main_v69 main_v70 rfl shapeCasts_S10000x3200_S10000x50x64,
    StableHlo.unary main_arg6 main_v71 ((transpose S64x3200 [1, 0] · transposes_S3200x64_S64x3200_1_0) : (⟨S3200x64, .f32⟩ : BufTy).Contents (Elt F) → (⟨S64x3200, .f32⟩ : BufTy).Contents (Elt F)),
    StableHlo.binary main_v67 main_v71 main_v72 ((fun l r => Host.dotGeneral dot_S50x64_S64x3200_S50x3200_1_0_0_1_n_n none l r) : (⟨S50x64, .f32⟩ : BufTy).Contents (Elt F) → (⟨S64x3200, .f32⟩ : BufTy).Contents (Elt F) → (⟨S50x3200, .f32⟩ : BufTy).Contents (Elt F)),
    StableHlo.reshape main_v72 main_v73 rfl shapeCasts_S50x3200_S50x50x64,
    StableHlo.nullary main_v74 (iotaInDim S50 32 0),
    StableHlo.nullary main_v75 (iotaInDim S50 32 0),
    StableHlo.nullary main_c_13 (constantI S_ 32 0#32),
    StableHlo.unary main_c_13 main_v76 (broadcastInDim S50 ![] bcast_S_S50 : (⟨S_, .i32⟩ : BufTy).Contents (Elt F) → (⟨S50, .i32⟩ : BufTy).Contents (Elt F)),
    StableHlo.binary main_v74 main_v76 main_v77 (cmpi .slt : (⟨S50, .i32⟩ : BufTy).Contents (Elt F) → (⟨S50, .i32⟩ : BufTy).Contents (Elt F) → (⟨S50, .i1⟩ : BufTy).Contents (Elt F)),
    StableHlo.nullary main_c_14 (constantI S_ 32 50#32),
    StableHlo.unary main_c_14 main_v78 (broadcastInDim S50 ![] bcast_S_S50 : (⟨S_, .i32⟩ : BufTy).Contents (Elt F) → (⟨S50, .i32⟩ : BufTy).Contents (Elt F)),
    StableHlo.binary main_v74 main_v78 main_v79 (addi : (⟨S50, .i32⟩ : BufTy).Contents (Elt F) → (⟨S50, .i32⟩ : BufTy).Contents (Elt F) → (⟨S50, .i32⟩ : BufTy).Contents (Elt F)),
    StableHlo.ternary main_v77 main_v79 main_v74 main_v80 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    StableHlo.nullary main_c_15 (constantI S_ 32 0#32),
    StableHlo.unary main_c_15 main_v81 (broadcastInDim S50 ![] bcast_S_S50 : (⟨S_, .i32⟩ : BufTy).Contents (Elt F) → (⟨S50, .i32⟩ : BufTy).Contents (Elt F)),
    StableHlo.binary main_v75 main_v81 main_v82 (cmpi .slt : (⟨S50, .i32⟩ : BufTy).Contents (Elt F) → (⟨S50, .i32⟩ : BufTy).Contents (Elt F) → (⟨S50, .i1⟩ : BufTy).Contents (Elt F)),
    StableHlo.nullary main_c_16 (constantI S_ 32 50#32),
    StableHlo.unary main_c_16 main_v83 (broadcastInDim S50 ![] bcast_S_S50 : (⟨S_, .i32⟩ : BufTy).Contents (Elt F) → (⟨S50, .i32⟩ : BufTy).Contents (Elt F)),
    StableHlo.binary main_v75 main_v83 main_v84 (addi : (⟨S50, .i32⟩ : BufTy).Contents (Elt F) → (⟨S50, .i32⟩ : BufTy).Contents (Elt F) → (⟨S50, .i32⟩ : BufTy).Contents (Elt F)),
    StableHlo.ternary main_v82 main_v84 main_v75 main_v85 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    StableHlo.unary main_v80 main_v86 (broadcastInDim S50x1 ![0] bcast_S50_S50x1_0 : (⟨S50, .i32⟩ : BufTy).Contents (Elt F) → (⟨S50x1, .i32⟩ : BufTy).Contents (Elt F)),
    StableHlo.unary main_v85 main_v87 (broadcastInDim S50x1 ![0] bcast_S50_S50x1_0 : (⟨S50, .i32⟩ : BufTy).Contents (Elt F) → (⟨S50x1, .i32⟩ : BufTy).Contents (Elt F)),
    StableHlo.binary main_v86 main_v87 main_v88 ((fun a b => concatenate S50x2 1 [⟨S50x1, a⟩, ⟨S50x1, b⟩] concatenates_S50x1_S50x1_S50x2_d1) : (⟨S50x1, .i32⟩ : BufTy).Contents (Elt F) → (⟨S50x1, .i32⟩ : BufTy).Contents (Elt F) → (⟨S50x2, .i32⟩ : BufTy).Contents (Elt F)),
    StableHlo.binary main_v73 main_v88 main_v89 ((fun x i => Host.gather gather_S50x50x64_S50x2_S50x64_1_01_n_n_01_1_1164 x i) : (⟨S50x50x64, .f32⟩ : BufTy).Contents (Elt F) → (⟨S50x2, .i32⟩ : BufTy).Contents (Elt F) → (⟨S50x64, .f32⟩ : BufTy).Contents (Elt F)),
    StableHlo.nullary main_c_17 (constantI S_ 32 0#32),
    StableHlo.unary main_c_17 main_v90 (broadcastInDim S500000 ![] bcast_S_S500000 : (⟨S_, .i32⟩ : BufTy).Contents (Elt F) → (⟨S500000, .i32⟩ : BufTy).Contents (Elt F)),
    StableHlo.binary main_arg8 main_v90 main_v91 (cmpi .slt : (⟨S500000, .i32⟩ : BufTy).Contents (Elt F) → (⟨S500000, .i32⟩ : BufTy).Contents (Elt F) → (⟨S500000, .i1⟩ : BufTy).Contents (Elt F)),
    StableHlo.nullary main_c_18 (constantI S_ 32 10000#32),
    StableHlo.unary main_c_18 main_v92 (broadcastInDim S500000 ![] bcast_S_S500000 : (⟨S_, .i32⟩ : BufTy).Contents (Elt F) → (⟨S500000, .i32⟩ : BufTy).Contents (Elt F)),
    StableHlo.binary main_arg8 main_v92 main_v93 (addi : (⟨S500000, .i32⟩ : BufTy).Contents (Elt F) → (⟨S500000, .i32⟩ : BufTy).Contents (Elt F) → (⟨S500000, .i32⟩ : BufTy).Contents (Elt F)),
    StableHlo.ternary main_v91 main_v93 main_arg8 main_v94 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_19 (constantI S_ 32 0#32),
    StableHlo.unary main_c_19 main_v95 (broadcastInDim S500000 ![] bcast_S_S500000 : (⟨S_, .i32⟩ : BufTy).Contents (Elt F) → (⟨S500000, .i32⟩ : BufTy).Contents (Elt F)),
    StableHlo.binary main_arg9 main_v95 main_v96 (cmpi .slt : (⟨S500000, .i32⟩ : BufTy).Contents (Elt F) → (⟨S500000, .i32⟩ : BufTy).Contents (Elt F) → (⟨S500000, .i1⟩ : BufTy).Contents (Elt F)),
    StableHlo.nullary main_c_20 (constantI S_ 32 50#32) ]

/-- Layer 1's (head, relation) table, its messages, their sum, the residual product, the tail table, the scatter-add, and the activation's slope. -/
abbrev ops2a : List (HloOp τ sig (Elt F)) :=
  [ StableHlo.unary main_c_20 main_v97 (broadcastInDim S500000 ![] bcast_S_S500000 : (⟨S_, .i32⟩ : BufTy).Contents (Elt F) → (⟨S500000, .i32⟩ : BufTy).Contents (Elt F)),
    StableHlo.binary main_arg9 main_v97 main_v98 (addi : (⟨S500000, .i32⟩ : BufTy).Contents (Elt F) → (⟨S500000, .i32⟩ : BufTy).Contents (Elt F) → (⟨S500000, .i32⟩ : BufTy).Contents (Elt F)),
    StableHlo.ternary main_v96 main_v98 main_arg9 main_v99 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v94 main_v100 (broadcastInDim S500000x1 ![0] bcast_S500000_S500000x1_0 : (⟨S500000, .i32⟩ : BufTy).Contents (Elt F) → (⟨S500000x1, .i32⟩ : BufTy).Contents (Elt F)),
    StableHlo.unary main_v99 main_v101 (broadcastInDim S500000x1 ![0] bcast_S500000_S500000x1_0 : (⟨S500000, .i32⟩ : BufTy).Contents (Elt F) → (⟨S500000x1, .i32⟩ : BufTy).Contents (Elt F)),
    StableHlo.binary main_v100 main_v101 main_v102 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_v70 main_v102 main_v103 ((fun x i => Host.gather gather_S10000x50x64_S500000x2_S500000x64_1_01_n_n_01_1_1164 x i) : (⟨S10000x50x64, .f32⟩ : BufTy).Contents (Elt F) → (⟨S500000x2, .i32⟩ : BufTy).Contents (Elt F) → (⟨S500000x64, .f32⟩ : BufTy).Contents (Elt F)),
    StableHlo.nullary main_c_21 (constantI S_ 32 0#32),
    StableHlo.unary main_c_21 main_v104 (broadcastInDim S500000 ![] bcast_S_S500000 : (⟨S_, .i32⟩ : BufTy).Contents (Elt F) → (⟨S500000, .i32⟩ : BufTy).Contents (Elt F)),
    StableHlo.binary main_arg9 main_v104 main_v105 (cmpi .slt : (⟨S500000, .i32⟩ : BufTy).Contents (Elt F) → (⟨S500000, .i32⟩ : BufTy).Contents (Elt F) → (⟨S500000, .i1⟩ : BufTy).Contents (Elt F)),
    StableHlo.nullary main_c_22 (constantI S_ 32 50#32),
    StableHlo.unary main_c_22 main_v106 (broadcastInDim S500000 ![] bcast_S_S500000 : (⟨S_, .i32⟩ : BufTy).Contents (Elt F) → (⟨S500000, .i32⟩ : BufTy).Contents (Elt F)),
    StableHlo.binary main_arg9 main_v106 main_v107 (addi : (⟨S500000, .i32⟩ : BufTy).Contents (Elt F) → (⟨S500000, .i32⟩ : BufTy).Contents (Elt F) → (⟨S500000, .i32⟩ : BufTy).Contents (Elt F)),
    StableHlo.ternary main_v105 main_v107 main_arg9 main_v108 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v108 main_v109 (broadcastInDim S500000x1 ![0] bcast_S500000_S500000x1_0 : (⟨S500000, .i32⟩ : BufTy).Contents (Elt F) → (⟨S500000x1, .i32⟩ : BufTy).Contents (Elt F)),
    StableHlo.binary main_v89 main_v109 main_v110 ((fun x i => Host.gather gather_S50x64_S500000x1_S500000x64_1_0_n_n_0_1_164 x i) : (⟨S50x64, .f32⟩ : BufTy).Contents (Elt F) → (⟨S500000x1, .i32⟩ : BufTy).Contents (Elt F) → (⟨S500000x64, .f32⟩ : BufTy).Contents (Elt F)),
    StableHlo.binary main_v103 main_v110 main_v111 (addf : (⟨S500000x64, .f32⟩ : BufTy).Contents (Elt F) → (⟨S500000x64, .f32⟩ : BufTy).Contents (Elt F) → (⟨S500000x64, .f32⟩ : BufTy).Contents (Elt F)),
    StableHlo.unary main_arg4 main_v112 ((transpose S64x64 [1, 0] · transposes_S64x64_S64x64_1_0) : (⟨S64x64, .f32⟩ : BufTy).Contents (Elt F) → (⟨S64x64, .f32⟩ : BufTy).Contents (Elt F)),
    StableHlo.binary main_v65 main_v112 main_v113 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_c_23 (constantI S_ 32 0#32),
    StableHlo.unary main_c_23 main_v114 (broadcastInDim S500000 ![] bcast_S_S500000 : (⟨S_, .i32⟩ : BufTy).Contents (Elt F) → (⟨S500000, .i32⟩ : BufTy).Contents (Elt F)),
    StableHlo.binary main_arg10 main_v114 main_v115 (cmpi .slt : (⟨S500000, .i32⟩ : BufTy).Contents (Elt F) → (⟨S500000, .i32⟩ : BufTy).Contents (Elt F) → (⟨S500000, .i1⟩ : BufTy).Contents (Elt F)),
    StableHlo.nullary main_c_24 (constantI S_ 32 10000#32),
    StableHlo.unary main_c_24 main_v116 (broadcastInDim S500000 ![] bcast_S_S500000 : (⟨S_, .i32⟩ : BufTy).Contents (Elt F) → (⟨S500000, .i32⟩ : BufTy).Contents (Elt F)),
    StableHlo.binary main_arg10 main_v116 main_v117 (addi : (⟨S500000, .i32⟩ : BufTy).Contents (Elt F) → (⟨S500000, .i32⟩ : BufTy).Contents (Elt F) → (⟨S500000, .i32⟩ : BufTy).Contents (Elt F)),
    StableHlo.ternary main_v115 main_v117 main_arg10 main_v118 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v118 main_v119 (broadcastInDim S500000x1 ![0] bcast_S500000_S500000x1_0 : (⟨S500000, .i32⟩ : BufTy).Contents (Elt F) → (⟨S500000x1, .i32⟩ : BufTy).Contents (Elt F)),
    StableHlo.ternary main_v113 main_v119 main_v111 main_v120 ((fun x i u => Host.scatterAdd scatter_S10000x64_S500000x1_S500000x64_1_0_0_1 x i u) : (⟨S10000x64, .f32⟩ : BufTy).Contents (Elt F) → (⟨S500000x1, .i32⟩ : BufTy).Contents (Elt F) → (⟨S500000x64, .f32⟩ : BufTy).Contents (Elt F) → (⟨S10000x64, .f32⟩ : BufTy).Contents (Elt F)),
    StableHlo.nullary main_cst_25 (constant S_ .f32 0x3C23D70A#32) ]

/-- Layer 1's activation, as layer 0's. -/
abbrev opsCall1 : List (HloOp τ sig (Elt F)) :=
  [ StableHlo.nullary main_call1_cst (constant S_ .f32 0x00000000#32),
    StableHlo.unary main_call1_cst main_call1_v0 (broadcastInDim S10000x64 ![] bcast_S_S10000x64 : (⟨S_, .f32⟩ : BufTy).Contents (Elt F) → (⟨S10000x64, .f32⟩ : BufTy).Contents (Elt F)),
    StableHlo.binary main_v120 main_call1_v0 main_call1_v1 (cmpf .oge : (⟨S10000x64, .f32⟩ : BufTy).Contents (Elt F) → (⟨S10000x64, .f32⟩ : BufTy).Contents (Elt F) → (⟨S10000x64, .i1⟩ : BufTy).Contents (Elt F)),
    StableHlo.unary main_cst_25 main_call1_v2 (id : (⟨S_, .f32⟩ : BufTy).Contents (Elt F) → (⟨S_, .f32⟩ : BufTy).Contents (Elt F)),
    StableHlo.unary main_call1_v2 main_call1_v3 (broadcastInDim S10000x64 ![] bcast_S_S10000x64 : (⟨S_, .f32⟩ : BufTy).Contents (Elt F) → (⟨S10000x64, .f32⟩ : BufTy).Contents (Elt F)),
    StableHlo.binary main_call1_v3 main_v120 main_call1_v4 (mulf : (⟨S10000x64, .f32⟩ : BufTy).Contents (Elt F) → (⟨S10000x64, .f32⟩ : BufTy).Contents (Elt F) → (⟨S10000x64, .f32⟩ : BufTy).Contents (Elt F)),
    StableHlo.ternary main_call1_v1 main_v120 main_call1_v4 main_v121 (select : (⟨S10000x64, .i1⟩ : BufTy).Contents (Elt F) → (⟨S10000x64, .f32⟩ : BufTy).Contents (Elt F) → (⟨S10000x64, .f32⟩ : BufTy).Contents (Elt F) → (⟨S10000x64, .f32⟩ : BufTy).Contents (Elt F)) ]

/-- The relation embeddings after layer 1. -/
abbrev ops2c : List (HloOp τ sig (Elt F)) :=
  [ StableHlo.unary main_arg7 main_v122 ((transpose S64x64 [1, 0] · transposes_S64x64_S64x64_1_0) : (⟨S64x64, .f32⟩ : BufTy).Contents (Elt F) → (⟨S64x64, .f32⟩ : BufTy).Contents (Elt F)),
    StableHlo.binary main_v67 main_v122 main_v123 ((fun l r => Host.dotGeneral dot_S50x64_S64x64_S50x64_1_0_0_1_n_n none l r) : (⟨S50x64, .f32⟩ : BufTy).Contents (Elt F) → (⟨S64x64, .f32⟩ : BufTy).Contents (Elt F) → (⟨S50x64, .f32⟩ : BufTy).Contents (Elt F)) ]

/-- The second window: layer 0 from its relation-side messages on, and layer 1 up to its index constants. -/
abbrev ops1 : List (HloOp τ sig (Elt F)) := ops1a ++ (opsCall0 ++ ops1c)

/-- The third window: the rest of layer 1 and the second result. -/
abbrev ops2 : List (HloOp τ sig (Elt F)) := ops2a ++ (opsCall1 ++ ops2c)

/-- The whole program's operations, in order. -/
abbrev ops : List (HloOp τ sig (Elt F)) := ops0 ++ (ops1 ++ ops2)

/-! ## The fold over consecutive stretches -/

/-- The fold over two stretches in a row is the second's fold from the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A property of every element of two lists holds of every element of their concatenation. -/
theorem forall_app {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-! ## The program is its operations -/

theorem part0_eq (c : Dev nD) : main_part0 (F := F) c = seq ops0 := rfl

theorem part1_eq (c : Dev nD) : main_part1 (F := F) c = seq ops1 := rfl

theorem part2_eq (c : Dev nD) : main_part2 (F := F) c = seq ops2 := rfl

/-- The program is the straight line of its operations: window by window, and a line after a line is the
    concatenation's line. -/
theorem main_eq (c : Dev nD) : main (F := F) c = seq ops := by
  rw [show (ops : List (HloOp τ sig (Elt F))) = ops0 ++ (ops1 ++ ops2) from rfl, seq_append, seq_append,
    ← part0_eq c, ← part1_eq c, ← part2_eq c]
  rfl

/-! ## Every operation touches TensorCore buffers only, and determines its results -/

theorem ops0_sub : (ops0 : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., nullary_bufs_sub .., nullary_bufs_sub .., nullary_bufs_sub .., unary_bufs_sub .., binary_bufs_sub .., binary_bufs_sub .., unary_bufs_sub .., unary_bufs_sub .., binary_bufs_sub .., reshape_bufs_sub .., unary_bufs_sub .., binary_bufs_sub .., reshape_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub ..⟩

theorem ops1a_sub : (ops1a : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub ..⟩

theorem opsCall0_sub : (opsCall0 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩

theorem ops1c_sub : (ops1c : List (HloOp τ sig (Elt F))).Forall fun op => op.bufs ⊆ tcRefs τ sig :=
  ⟨unary_bufs_sub .., binary_bufs_sub .., unary_bufs_sub .., binary_bufs_sub .., reshape_bufs_sub .., unary_bufs_sub .., binary_bufs_sub .., reshape_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩

theorem ops2a_sub : (ops2a : List (HloOp τ sig (Elt F))).Forall fun op => op.bufs ⊆ tcRefs τ sig :=
  ⟨unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub ..⟩

theorem opsCall1_sub : (opsCall1 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩

theorem ops2c_sub : (ops2c : List (HloOp τ sig (Elt F))).Forall fun op => op.bufs ⊆ tcRefs τ sig :=
  ⟨unary_bufs_sub .., binary_bufs_sub ..⟩

theorem ops_sub : (ops : List (HloOp τ sig (Elt F))).Forall fun op => op.bufs ⊆ tcRefs τ sig :=
  forall_app ops0_sub (forall_app (forall_app ops1a_sub (forall_app opsCall0_sub ops1c_sub))
    (forall_app ops2a_sub (forall_app opsCall1_sub ops2c_sub)))

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1a_fresh : (ops1a : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem opsCall0_fresh : (opsCall0 : List (HloOp τ sig (Elt F))).Forall fun op => op.fresh = ∅ :=
  ⟨rfl, rfl, rfl, rfl, rfl, rfl, rfl⟩

theorem ops1c_fresh : (ops1c : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops2a_fresh : (ops2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

theorem opsCall1_fresh : (opsCall1 : List (HloOp τ sig (Elt F))).Forall fun op => op.fresh = ∅ :=
  ⟨rfl, rfl, rfl, rfl, rfl, rfl, rfl⟩

theorem ops2c_fresh : (ops2c : List (HloOp τ sig (Elt F))).Forall fun op => op.fresh = ∅ :=
  ⟨rfl, rfl⟩

theorem ops_fresh : (ops : List (HloOp τ sig (Elt F))).Forall fun op => op.fresh = ∅ :=
  forall_app ops0_fresh (forall_app (forall_app ops1a_fresh (forall_app opsCall0_fresh ops1c_fresh))
    (forall_app ops2a_fresh (forall_app opsCall1_fresh ops2c_fresh)))

/-! ## The run -/

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution
    of the program on the TensorCores terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.ReferenceIdeal.Hand

end
-- ==== Proof.RefEval.lean ====
/-
  The reference program's two results as functions of its arguments.

  The program's operations are folded list by list (the first printed window; layer 0's relation-side messages up to the
  scatter-add; layer 0's activation; the relation embeddings, layer 1's projection and diagonal; layer 1's messages up
  to the scatter-add; layer 1's activation; the second result).  For each list, each buffer a LATER list reads is
  stated as a function of the buffers the list itself reads, for any contents at its start; a buffer a list does not
  write passes through it.  Composed from the last list back to the first, the first result is `Cert.Spec.refOut` of
  the arguments, the second `Cert.Spec.relOut`, and every argument is as it was.
-/
import proofs.«115934_j80315888435553_1_alg».proof.Proof.RefRun
import proofs.«115934_j80315888435553_1_alg».proof.Proof.Spec

set_option maxRecDepth 16384

noncomputable section

namespace Cert.ReferenceIdeal.Eval

open Cert.ReferenceIdeal Cert.ReferenceIdeal.Hand
open Idealize.ShloMosaic Idealize.ShloMosaic.TcCoe Idealize.SL.Sem Idealize.ShloMosaic.StableHlo
open Cert.ReferenceIdeal.Facts₀ Cert.ReferenceIdeal.Facts

variable {F : FTy → Type} [FloatOps F]

/-! ## The first window: the identity matrices, layer 0's projection and relation diagonal, its entity-side messages -/

theorem a0_v5 (V : Valuation τ sig (Elt F)) : after ops0 V (main_v5 : DevRef τ sig) = Cert.Spec.eyeEnt (F := F) := by
  after_results_simp
  rfl

theorem a0_v11 (V : Valuation τ sig (Elt F)) : after ops0 V (main_v11 : DevRef τ sig) = Cert.Spec.eyeRel (F := F) := by
  after_results_simp
  rfl

theorem a0_v33 (V : Valuation τ sig (Elt F)) :
    after ops0 V (main_v33 : DevRef τ sig) = Cert.Spec.diag0 (F := F) (V (main_arg2 : DevRef τ sig)) := by
  after_results_simp
  rfl

theorem a0_v47 (V : Valuation τ sig (Elt F)) :
    after ops0 V (main_v47 : DevRef τ sig)
      = Cert.Spec.gatherProj (F := F)
          (Host.dotGeneral dot_S10000x10000_S10000x3200_S10000x3200_1_0_0_1_n_n none (Cert.Spec.eyeEnt (F := F))
            (Cert.Spec.tWme0 (F := F) (V (main_arg1 : DevRef τ sig))))
          (V (main_arg8 : DevRef τ sig)) (V (main_arg9 : DevRef τ sig)) := by
  after_results_simp
  rfl

theorem a0_v48 (V : Valuation τ sig (Elt F)) :
    after ops0 V (main_v48 : DevRef τ sig) = broadcastInDim S500000 ![] bcast_S_S500000 (constantI S_ 32 0#32) := by
  after_results_simp

/-! ## Layer 0's relation-side messages, the sum, the residual product and the scatter-add -/

theorem a1_v64 (V : Valuation τ sig (Elt F)) :
    after ops1a V (main_v64 : DevRef τ sig)
      = Cert.Spec.scatterTails (F := F)
          (Host.dotGeneral dot_S10000x10000_S10000x64_S10000x64_1_0_0_1_n_n none (V (main_v5 : DevRef τ sig))
            (Cert.Spec.tWres0 (F := F) (V (main_arg0 : DevRef τ sig))))
          (V (main_arg10 : DevRef τ sig))
          (addf (V (main_v47 : DevRef τ sig))
            (Host.gather gather_S50x64_S500000x1_S500000x64_1_0_n_n_0_1_164 (V (main_v33 : DevRef τ sig))
              (broadcastInDim S500000x1 ![0] bcast_S500000_S500000x1_0
                (select (cmpi .slt (V (main_arg9 : DevRef τ sig)) (V (main_v48 : DevRef τ sig)))
                  (addi (V (main_arg9 : DevRef τ sig)) (broadcastInDim S500000 ![] bcast_S_S500000 (constantI S_ 32 50#32)))
                  (V (main_arg9 : DevRef τ sig)))))) := by
  after_results_simp
  rfl

theorem a1_cst (V : Valuation τ sig (Elt F)) :
    after ops1a V (main_cst : DevRef τ sig) = constant S_ .f32 0x3C23D70A#32 := by
  after_results_simp

/-! ## Layer 0's activation -/

theorem c0_v65 (V : Valuation τ sig (Elt F)) :
    after opsCall0 V (main_v65 : DevRef τ sig)
      = select (cmpf .oge (V (main_v64 : DevRef τ sig)) (broadcastInDim S10000x64 ![] bcast_S_S10000x64 (constant S_ .f32 0x00000000#32)))
          (V (main_v64 : DevRef τ sig))
          (mulf (broadcastInDim S10000x64 ![] bcast_S_S10000x64 (id (V (main_cst : DevRef τ sig)))) (V (main_v64 : DevRef τ sig))) := by
  after_results_simp

/-! ## Pass-throughs of the buffers a later list reads -/

theorem a1_v11 (V : Valuation τ sig (Elt F)) : after ops1a V (main_v11 : DevRef τ sig) = V (main_v11 : DevRef τ sig) := by
  after_results_simp
theorem c0_v11 (V : Valuation τ sig (Elt F)) : after opsCall0 V (main_v11 : DevRef τ sig) = V (main_v11 : DevRef τ sig) := by
  after_results_simp

/-! ## The relation embeddings after layer 0, layer 1's projection and diagonal, the first index constants -/

theorem b_v67 (V : Valuation τ sig (Elt F)) :
    after ops1c V (main_v67 : DevRef τ sig)
      = Host.dotGeneral dot_S50x50_S50x64_S50x64_1_0_0_1_n_n none (V (main_v11 : DevRef τ sig))
          (Cert.Spec.tWpr0 (F := F) (V (main_arg3 : DevRef τ sig))) := by
  after_results_simp
  rfl

theorem b_v70 (V : Valuation τ sig (Elt F)) :
    after ops1c V (main_v70 : DevRef τ sig)
      = shapeCast S10000x50x64 (Host.dotGeneral dot_S10000x64_S64x3200_S10000x3200_1_0_0_1_n_n none (V (main_v65 : DevRef τ sig))
          (Cert.Spec.tW3200 (F := F) (V (main_arg5 : DevRef τ sig)))) shapeCasts_S10000x3200_S10000x50x64 := by
  after_results_simp
  rfl

theorem b_v89 (V : Valuation τ sig (Elt F)) :
    after ops1c V (main_v89 : DevRef τ sig)
      = Cert.Spec.diagOf (F := F) (Host.dotGeneral dot_S50x64_S64x3200_S50x3200_1_0_0_1_n_n none
          (Host.dotGeneral dot_S50x50_S50x64_S50x64_1_0_0_1_n_n none (V (main_v11 : DevRef τ sig))
            (Cert.Spec.tWpr0 (F := F) (V (main_arg3 : DevRef τ sig))))
          (Cert.Spec.tW3200 (F := F) (V (main_arg6 : DevRef τ sig)))) := by
  after_results_simp
  rfl

theorem b_v94 (V : Valuation τ sig (Elt F)) :
    after ops1c V (main_v94 : DevRef τ sig) = Cert.Spec.wrap (F := F) 10000#32 (V (main_arg8 : DevRef τ sig)) := by
  after_results_simp
  rfl

theorem b_v96 (V : Valuation τ sig (Elt F)) :
    after ops1c V (main_v96 : DevRef τ sig)
      = cmpi .slt (V (main_arg9 : DevRef τ sig)) (broadcastInDim S500000 ![] bcast_S_S500000 (constantI S_ 32 0#32)) := by
  after_results_simp

theorem b_c20 (V : Valuation τ sig (Elt F)) :
    after ops1c V (main_c_20 : DevRef τ sig) = constantI S_ 32 50#32 := by
  after_results_simp

theorem b_v65 (V : Valuation τ sig (Elt F)) : after ops1c V (main_v65 : DevRef τ sig) = V (main_v65 : DevRef τ sig) := by
  after_results_simp

/-! ## Layer 1's messages, the sum, the residual product and the scatter-add -/

theorem d_v120 (V : Valuation τ sig (Elt F)) :
    after ops2a V (main_v120 : DevRef τ sig)
      = Cert.Spec.scatterTails (F := F)
          (Host.dotGeneral dot_S10000x64_S64x64_S10000x64_1_0_0_1_n_n none (V (main_v65 : DevRef τ sig))
            (Cert.Spec.tW64 (F := F) (V (main_arg4 : DevRef τ sig))))
          (V (main_arg10 : DevRef τ sig))
          (addf
            (Host.gather gather_S10000x50x64_S500000x2_S500000x64_1_01_n_n_01_1_1164 (V (main_v70 : DevRef τ sig))
              (concatenate S500000x2 1
                [⟨S500000x1, broadcastInDim S500000x1 ![0] bcast_S500000_S500000x1_0 (V (main_v94 : DevRef τ sig))⟩,
                 ⟨S500000x1, broadcastInDim S500000x1 ![0] bcast_S500000_S500000x1_0
                    (select (V (main_v96 : DevRef τ sig))
                      (addi (V (main_arg9 : DevRef τ sig)) (broadcastInDim S500000 ![] bcast_S_S500000 (V (main_c_20 : DevRef τ sig))))
                      (V (main_arg9 : DevRef τ sig)))⟩]
                concatenates_S500000x1_S500000x1_S500000x2_d1))
            (Cert.Spec.gatherDiag (F := F) (V (main_v89 : DevRef τ sig)) (V (main_arg9 : DevRef τ sig)))) := by
  after_results_simp
  rfl

theorem d_cst25 (V : Valuation τ sig (Elt F)) :
    after ops2a V (main_cst_25 : DevRef τ sig) = constant S_ .f32 0x3C23D70A#32 := by
  after_results_simp

theorem d_v67 (V : Valuation τ sig (Elt F)) : after ops2a V (main_v67 : DevRef τ sig) = V (main_v67 : DevRef τ sig) := by
  after_results_simp

/-! ## Layer 1's activation, and the second result -/

theorem e_v121 (V : Valuation τ sig (Elt F)) :
    after opsCall1 V (main_v121 : DevRef τ sig)
      = select (cmpf .oge (V (main_v120 : DevRef τ sig)) (broadcastInDim S10000x64 ![] bcast_S_S10000x64 (constant S_ .f32 0x00000000#32)))
          (V (main_v120 : DevRef τ sig))
          (mulf (broadcastInDim S10000x64 ![] bcast_S_S10000x64 (id (V (main_cst_25 : DevRef τ sig)))) (V (main_v120 : DevRef τ sig))) := by
  after_results_simp

theorem e_v67 (V : Valuation τ sig (Elt F)) : after opsCall1 V (main_v67 : DevRef τ sig) = V (main_v67 : DevRef τ sig) := by
  after_results_simp

theorem f_v123 (V : Valuation τ sig (Elt F)) :
    after ops2c V (main_v123 : DevRef τ sig)
      = Host.dotGeneral dot_S50x64_S64x64_S50x64_1_0_0_1_n_n none (V (main_v67 : DevRef τ sig))
          (Cert.Spec.tW64 (F := F) (V (main_arg7 : DevRef τ sig))) := by
  after_results_simp
  rfl

theorem f_v121 (V : Valuation τ sig (Elt F)) : after ops2c V (main_v121 : DevRef τ sig) = V (main_v121 : DevRef τ sig) := by
  after_results_simp

/-! ## The arguments pass through every list -/

theorem p0_arg0 (V : Valuation τ sig (Elt F)) : after ops0 V (main_arg0 : DevRef τ sig) = V (main_arg0 : DevRef τ sig) := by after_results_simp
theorem p0_arg3 (V : Valuation τ sig (Elt F)) : after ops0 V (main_arg3 : DevRef τ sig) = V (main_arg3 : DevRef τ sig) := by after_results_simp
theorem p0_arg4 (V : Valuation τ sig (Elt F)) : after ops0 V (main_arg4 : DevRef τ sig) = V (main_arg4 : DevRef τ sig) := by after_results_simp
theorem p0_arg5 (V : Valuation τ sig (Elt F)) : after ops0 V (main_arg5 : DevRef τ sig) = V (main_arg5 : DevRef τ sig) := by after_results_simp
theorem p0_arg6 (V : Valuation τ sig (Elt F)) : after ops0 V (main_arg6 : DevRef τ sig) = V (main_arg6 : DevRef τ sig) := by after_results_simp
theorem p0_arg7 (V : Valuation τ sig (Elt F)) : after ops0 V (main_arg7 : DevRef τ sig) = V (main_arg7 : DevRef τ sig) := by after_results_simp
theorem p0_arg8 (V : Valuation τ sig (Elt F)) : after ops0 V (main_arg8 : DevRef τ sig) = V (main_arg8 : DevRef τ sig) := by after_results_simp
theorem p0_arg9 (V : Valuation τ sig (Elt F)) : after ops0 V (main_arg9 : DevRef τ sig) = V (main_arg9 : DevRef τ sig) := by after_results_simp
theorem p0_arg10 (V : Valuation τ sig (Elt F)) : after ops0 V (main_arg10 : DevRef τ sig) = V (main_arg10 : DevRef τ sig) := by after_results_simp

theorem p1a_arg3 (V : Valuation τ sig (Elt F)) : after ops1a V (main_arg3 : DevRef τ sig) = V (main_arg3 : DevRef τ sig) := by after_results_simp
theorem p1a_arg4 (V : Valuation τ sig (Elt F)) : after ops1a V (main_arg4 : DevRef τ sig) = V (main_arg4 : DevRef τ sig) := by after_results_simp
theorem p1a_arg5 (V : Valuation τ sig (Elt F)) : after ops1a V (main_arg5 : DevRef τ sig) = V (main_arg5 : DevRef τ sig) := by after_results_simp
theorem p1a_arg6 (V : Valuation τ sig (Elt F)) : after ops1a V (main_arg6 : DevRef τ sig) = V (main_arg6 : DevRef τ sig) := by after_results_simp
theorem p1a_arg7 (V : Valuation τ sig (Elt F)) : after ops1a V (main_arg7 : DevRef τ sig) = V (main_arg7 : DevRef τ sig) := by after_results_simp
theorem p1a_arg8 (V : Valuation τ sig (Elt F)) : after ops1a V (main_arg8 : DevRef τ sig) = V (main_arg8 : DevRef τ sig) := by after_results_simp
theorem p1a_arg9 (V : Valuation τ sig (Elt F)) : after ops1a V (main_arg9 : DevRef τ sig) = V (main_arg9 : DevRef τ sig) := by after_results_simp
theorem p1a_arg10 (V : Valuation τ sig (Elt F)) : after ops1a V (main_arg10 : DevRef τ sig) = V (main_arg10 : DevRef τ sig) := by after_results_simp

theorem pc0_arg3 (V : Valuation τ sig (Elt F)) : after opsCall0 V (main_arg3 : DevRef τ sig) = V (main_arg3 : DevRef τ sig) := by after_results_simp
theorem pc0_arg4 (V : Valuation τ sig (Elt F)) : after opsCall0 V (main_arg4 : DevRef τ sig) = V (main_arg4 : DevRef τ sig) := by after_results_simp
theorem pc0_arg5 (V : Valuation τ sig (Elt F)) : after opsCall0 V (main_arg5 : DevRef τ sig) = V (main_arg5 : DevRef τ sig) := by after_results_simp
theorem pc0_arg6 (V : Valuation τ sig (Elt F)) : after opsCall0 V (main_arg6 : DevRef τ sig) = V (main_arg6 : DevRef τ sig) := by after_results_simp
theorem pc0_arg7 (V : Valuation τ sig (Elt F)) : after opsCall0 V (main_arg7 : DevRef τ sig) = V (main_arg7 : DevRef τ sig) := by after_results_simp
theorem pc0_arg8 (V : Valuation τ sig (Elt F)) : after opsCall0 V (main_arg8 : DevRef τ sig) = V (main_arg8 : DevRef τ sig) := by after_results_simp
theorem pc0_arg9 (V : Valuation τ sig (Elt F)) : after opsCall0 V (main_arg9 : DevRef τ sig) = V (main_arg9 : DevRef τ sig) := by after_results_simp
theorem pc0_arg10 (V : Valuation τ sig (Elt F)) : after opsCall0 V (main_arg10 : DevRef τ sig) = V (main_arg10 : DevRef τ sig) := by after_results_simp

theorem p1c_arg4 (V : Valuation τ sig (Elt F)) : after ops1c V (main_arg4 : DevRef τ sig) = V (main_arg4 : DevRef τ sig) := by after_results_simp
theorem p1c_arg7 (V : Valuation τ sig (Elt F)) : after ops1c V (main_arg7 : DevRef τ sig) = V (main_arg7 : DevRef τ sig) := by after_results_simp
theorem p1c_arg9 (V : Valuation τ sig (Elt F)) : after ops1c V (main_arg9 : DevRef τ sig) = V (main_arg9 : DevRef τ sig) := by after_results_simp
theorem p1c_arg10 (V : Valuation τ sig (Elt F)) : after ops1c V (main_arg10 : DevRef τ sig) = V (main_arg10 : DevRef τ sig) := by after_results_simp

theorem p2a_arg7 (V : Valuation τ sig (Elt F)) : after ops2a V (main_arg7 : DevRef τ sig) = V (main_arg7 : DevRef τ sig) := by after_results_simp
theorem pc1_arg7 (V : Valuation τ sig (Elt F)) : after opsCall1 V (main_arg7 : DevRef τ sig) = V (main_arg7 : DevRef τ sig) := by after_results_simp

/-! ## The whole fold -/

/-- The first result. -/
theorem out1_eq (V : Valuation τ sig (Elt F)) :
    after ops V (main_v121 : DevRef τ sig)
      = Cert.Spec.refOut (F := F) (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig))
          (V (main_arg8 : DevRef τ sig)) (V (main_arg9 : DevRef τ sig)) (V (main_arg10 : DevRef τ sig)) := by
  simp only [ops, ops1, ops2, after_app]
  rw [f_v121, e_v121, d_v120, d_cst25, b_v65, b_v70, b_v94, b_v96, b_c20, b_v89, c0_v65, c0_v11, a1_v11, a1_v64, a1_cst,
    a0_v5, a0_v47, a0_v33, a0_v48, a0_v11]
  rw [p1c_arg4, p1c_arg10, p1c_arg9,
    pc0_arg4, pc0_arg10, pc0_arg9, pc0_arg5, pc0_arg8, pc0_arg3, pc0_arg6,
    p1a_arg4, p1a_arg10, p1a_arg9, p1a_arg5, p1a_arg8, p1a_arg3, p1a_arg6,
    p0_arg4, p0_arg10, p0_arg9, p0_arg5, p0_arg8, p0_arg3, p0_arg6, p0_arg0]
  rfl

/-- The second result. -/
theorem out2_eq (V : Valuation τ sig (Elt F)) :
    after ops V (main_v123 : DevRef τ sig)
      = Cert.Spec.relOut (F := F) (V (main_arg3 : DevRef τ sig)) (V (main_arg7 : DevRef τ sig)) := by
  simp only [ops, ops1, ops2, after_app]
  rw [f_v123, e_v67, d_v67, b_v67, c0_v11, a1_v11, a0_v11]
  rw [pc1_arg7, p2a_arg7, p1c_arg7, pc0_arg7, p1a_arg7, p0_arg7, pc0_arg3, p1a_arg3, p0_arg3]
  rfl

/-! ## The arguments are written by no operation -/

theorem arg0_eq (V : Valuation τ sig (Elt F)) : after ops V (main_arg0 : DevRef τ sig) = V (main_arg0 : DevRef τ sig) := by
  simp only [ops, ops1, ops2, after_app]; after_results_simp
theorem arg1_eq (V : Valuation τ sig (Elt F)) : after ops V (main_arg1 : DevRef τ sig) = V (main_arg1 : DevRef τ sig) := by
  simp only [ops, ops1, ops2, after_app]; after_results_simp
theorem arg2_eq (V : Valuation τ sig (Elt F)) : after ops V (main_arg2 : DevRef τ sig) = V (main_arg2 : DevRef τ sig) := by
  simp only [ops, ops1, ops2, after_app]; after_results_simp
theorem arg3_eq (V : Valuation τ sig (Elt F)) : after ops V (main_arg3 : DevRef τ sig) = V (main_arg3 : DevRef τ sig) := by
  simp only [ops, ops1, ops2, after_app]; after_results_simp
theorem arg4_eq (V : Valuation τ sig (Elt F)) : after ops V (main_arg4 : DevRef τ sig) = V (main_arg4 : DevRef τ sig) := by
  simp only [ops, ops1, ops2, after_app]; after_results_simp
theorem arg5_eq (V : Valuation τ sig (Elt F)) : after ops V (main_arg5 : DevRef τ sig) = V (main_arg5 : DevRef τ sig) := by
  simp only [ops, ops1, ops2, after_app]; after_results_simp
theorem arg6_eq (V : Valuation τ sig (Elt F)) : after ops V (main_arg6 : DevRef τ sig) = V (main_arg6 : DevRef τ sig) := by
  simp only [ops, ops1, ops2, after_app]; after_results_simp
theorem arg7_eq (V : Valuation τ sig (Elt F)) : after ops V (main_arg7 : DevRef τ sig) = V (main_arg7 : DevRef τ sig) := by
  simp only [ops, ops1, ops2, after_app]; after_results_simp
theorem arg8_eq (V : Valuation τ sig (Elt F)) : after ops V (main_arg8 : DevRef τ sig) = V (main_arg8 : DevRef τ sig) := by
  simp only [ops, ops1, ops2, after_app]; after_results_simp
theorem arg9_eq (V : Valuation τ sig (Elt F)) : after ops V (main_arg9 : DevRef τ sig) = V (main_arg9 : DevRef τ sig) := by
  simp only [ops, ops1, ops2, after_app]; after_results_simp
theorem arg10_eq (V : Valuation τ sig (Elt F)) : after ops V (main_arg10 : DevRef τ sig) = V (main_arg10 : DevRef τ sig) := by
  simp only [ops, ops1, ops2, after_app]; after_results_simp

end Cert.ReferenceIdeal.Eval

end
-- ==== Proof.lean ====
/-
  The certificate of a two-layer relational message-passing network: a Pallas implementation against its jnp reference.

  Both programs compute, per layer, proj = E · Wmeᵀ (read as 10000 × 50 × 64), the diagonal rows of R · Wmrᵀ (read
  as 50 × 50 × 64), the per-triplet messages proj[h, r] + diag[r], their sum into the tail rows of E · Wresᵀ, the
  activation x ↦ x or 0.01 · x, and R · Wprᵀ.  The reference starts from identity matrices and multiplies by them; the
  kernel program uses the transposed weights directly in layer 0, and runs the message sum, the activation and layer 1's two
  entity-side matrix products as kernel regions (the products with operands rounded to bf16, which on the extended reals
  is no rounding at all).  On the extended reals the two are the same function of the arguments:
    · the identity matrix times X is X, infinities included, because 0 · x = 0 and 1 · x = x for every extended real x;
    · a region that adds two arrays block by block is the whole-array sum, and likewise for the activation;
    · a row block of a matrix product is the product of the row block;
    · "x if x > 0 else c · x" and "x if x ≥ 0 else c · x" differ only at x = 0, where both are 0;
  everything else (the index tables, the gathers, the scatter-adds, the relation side) is the same sequence of host
  operations in both programs and is carried along unopened.  The precondition (finite inputs) is never used.
-/
import proofs.«115934_j80315888435553_1_alg».proof.Defs
import proofs.«115934_j80315888435553_1_alg».proof.Proof.Gen.Kernel.Frame
import proofs.«115934_j80315888435553_1_alg».proof.Proof.Gen.Pre_finite_inputs
import proofs.«115934_j80315888435553_1_alg».proof.Proof.KerValue
import proofs.«115934_j80315888435553_1_alg».proof.Proof.RefRun
import proofs.«115934_j80315888435553_1_alg».proof.Proof.RefEval
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-! ## The reference's run with its two results as functions of the arguments -/

/-- Every weakly fair execution of the reference terminates with its two results at `Cert.Spec.refOut` and
    `Cert.Spec.relOut` of the launch contents of the arguments, and the arguments as launched. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v121)
          = Cert.Spec.refOut (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
              (m ((c.tc : Thread Cert.ReferenceIdeal.nD Cert.ReferenceIdeal.τ).loc Cert.ReferenceIdeal.main_arg8))
              (m ((c.tc : Thread Cert.ReferenceIdeal.nD Cert.ReferenceIdeal.τ).loc Cert.ReferenceIdeal.main_arg9))
              (m ((c.tc : Thread Cert.ReferenceIdeal.nD Cert.ReferenceIdeal.τ).loc Cert.ReferenceIdeal.main_arg10))
        ∧ r.2.mem ((c.tc : Thread Cert.ReferenceIdeal.nD Cert.ReferenceIdeal.τ).loc Cert.ReferenceIdeal.main_v123)
          = Cert.Spec.relOut (F := Ideal)
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run (Cert.ReferenceIdeal.defs (F := Ideal)) _ _).mono
    (fun r h c =>
      ⟨(h c Cert.ReferenceIdeal.main_v121).trans (Cert.ReferenceIdeal.Eval.out1_eq (launchContents m c)),
       (h c Cert.ReferenceIdeal.main_v123).trans (Cert.ReferenceIdeal.Eval.out2_eq (launchContents m c)),
       (h c Cert.ReferenceIdeal.main_arg0).trans (Cert.ReferenceIdeal.Eval.arg0_eq (launchContents m c)),
       (h c Cert.ReferenceIdeal.main_arg1).trans (Cert.ReferenceIdeal.Eval.arg1_eq (launchContents m c)),
       (h c Cert.ReferenceIdeal.main_arg2).trans (Cert.ReferenceIdeal.Eval.arg2_eq (launchContents m c)),
       (h c Cert.ReferenceIdeal.main_arg3).trans (Cert.ReferenceIdeal.Eval.arg3_eq (launchContents m c)),
       (h c Cert.ReferenceIdeal.main_arg4).trans (Cert.ReferenceIdeal.Eval.arg4_eq (launchContents m c)),
       (h c Cert.ReferenceIdeal.main_arg5).trans (Cert.ReferenceIdeal.Eval.arg5_eq (launchContents m c)),
       (h c Cert.ReferenceIdeal.main_arg6).trans (Cert.ReferenceIdeal.Eval.arg6_eq (launchContents m c)),
       (h c Cert.ReferenceIdeal.main_arg7).trans (Cert.ReferenceIdeal.Eval.arg7_eq (launchContents m c)),
       (h c Cert.ReferenceIdeal.main_arg8).trans (Cert.ReferenceIdeal.Eval.arg8_eq (launchContents m c)),
       (h c Cert.ReferenceIdeal.main_arg9).trans (Cert.ReferenceIdeal.Eval.arg9_eq (launchContents m c)),
       (h c Cert.ReferenceIdeal.main_arg10).trans (Cert.ReferenceIdeal.Eval.arg10_eq (launchContents m c))⟩)
    (Cert.ReferenceIdeal.Hand.run_main (F := Ideal) m ρ)

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run (Cert.ReferenceIdeal.defs (F := Ideal)) _ _).mono (fun _ h c => (h c).2.2) (ref_run m ρ)

/-- The idealization rewrote no operation. -/
theorem preserves : Cert.preserves_Kernel_KernelIdeal := trivial

/-- From memories agreeing on the arguments both programs end with the same two results: `Cert.Spec.refOut` and
    `Cert.Spec.relOut` of the arguments. -/
theorem algebraic : Cert.algebraic_KernelIdeal_ReferenceIdeal := by
  intro m ρ m' ρ' _ hagree
  refine ⟨_, _, Cert.KernelIdeal.Value.run m ρ, ?_⟩
  refine (θ_run (Cert.ReferenceIdeal.defs (F := Ideal)) _ _).mono (fun r h c => ?_) (ref_run m' ρ')
  obtain ⟨e0, e1, e2, e3, e4, e5, e6, e7, e8, e9, e10⟩ := hagree c
  obtain ⟨h1, h2, hargs⟩ := h c
  refine ⟨?_, ?_, hargs⟩
  · rw [h1, e0, e1, e2, e3, e4, e5, e6, e8, e9, e10]
  · rw [h2, e3, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
